-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v60_0)) (v1 : (c : Dev Cert.KernelIdeal.nD) → Buf (Elt Ideal) ((c.tc : Thread Cert.KernelIdeal.nD Cert.KernelIdeal.τ).loc Cert.KernelIdeal.main_v60_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60_0) = v0 c
          ∧ r.2.mem ((c.tc : Thread Cert.KernelIdeal.nD Cert.KernelIdeal.τ).loc Cert.KernelIdeal.main_v60_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_v142) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x768 : Shape := ⟨2, ![16384, 768]⟩
abbrev S16384x1024 : Shape := ⟨2, ![16384, 1024]⟩
abbrev S768x64 : Shape := ⟨2, ![768, 64]⟩
abbrev S1024x64 : Shape := ⟨2, ![1024, 64]⟩
abbrev S64x1024 : Shape := ⟨2, ![64, 1024]⟩
abbrev S1x1024 : Shape := ⟨2, ![1, 1024]⟩
abbrev S1x768 : Shape := ⟨2, ![1, 768]⟩
abbrev S_ : Shape := ⟨0, ![]⟩

class Facts : Prop where
  bcast_S_S16384x768 : S_.BroadcastsInDim S16384x768 (![] : Fin 0 → Fin S16384x768.rank)
  reducesTo_S16384x768_S_d0_1 : S16384x768.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  bcast_S_S768x64 : S_.BroadcastsInDim S768x64 (![] : Fin 0 → Fin S768x64.rank)
  reducesTo_S768x64_S_d0_1 : S768x64.ReducesTo [0, 1] S_
  bcast_S_S1024x64 : S_.BroadcastsInDim S1024x64 (![] : Fin 0 → Fin S1024x64.rank)
  reducesTo_S1024x64_S_d0_1 : S1024x64.ReducesTo [0, 1] S_
  bcast_S_S64x1024 : S_.BroadcastsInDim S64x1024 (![] : Fin 0 → Fin S64x1024.rank)
  reducesTo_S64x1024_S_d0_1 : S64x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1x768 : S_.BroadcastsInDim S1x768 (![] : Fin 0 → Fin S1x768.rank)
  reducesTo_S1x768_S_d0_1 : S1x768.ReducesTo [0, 1] S_

variable [Facts]

def fn_part7 {F : FTy → Type} [FloatOps F] (main_v118 : IVec S_ 1) (main_v119 : FVec F S1x1024 .f32) : IVec S_ 1 :=
  let main_cst_46 : FVec F S_ .f32 := constant S_ .f32 0x7F800000#32
  let main_v120 : FVec F S1x1024 .f32 := broadcastInDim S1x1024 ![] bcast_S_S1x1024 main_cst_46
  let main_v121 : IVec S1x1024 1 := cmpf .olt main_v119 main_v120
  let main_c_47 : IVec S_ 1 := constantI S_ 1 1#1
  let main_v122 : IVec S_ 1 := (fun x v => Host.reduce IntOp.andi x v reducesTo_S1x1024_S_d0_1 h_S_) main_v121 main_c_47
  let main_v123 : IVec S_ 1 := andi main_v118 main_v122
  main_v123

def fn_part6 {F : FTy → Type} [FloatOps F] (main_arg21 : FVec F S1x1024 .f32) (main_arg22 : FVec F S1x1024 .f32) (main_arg23 : FVec F S1x768 .f32) (main_arg24 : FVec F S1x1024 .f32) (main_v98 : IVec S_ 1) (main_v101 : IVec S1x1024 1) (main_c_39 : IVec S_ 1) : IVec S_ 1 :=
  let main_v102 : IVec S_ 1 := (fun x v => Host.reduce IntOp.andi x v reducesTo_S1x1024_S_d0_1 h_S_) main_v101 main_c_39
  let main_v103 : IVec S_ 1 := andi main_v98 main_v102
  let main_v104 : FVec F S1x1024 .f32 := Host.absf main_arg21
  let main_cst_40 : FVec F S_ .f32 := constant S_ .f32 0x7F800000#32
  let main_v105 : FVec F S1x1024 .f32 := broadcastInDim S1x1024 ![] bcast_S_S1x1024 main_cst_40
  let main_v106 : IVec S1x1024 1 := cmpf .olt main_v104 main_v105
  let main_c_41 : IVec S_ 1 := constantI S_ 1 1#1
  let main_v107 : IVec S_ 1 := (fun x v => Host.reduce IntOp.andi x v reducesTo_S1x1024_S_d0_1 h_S_) main_v106 main_c_41
  let main_v108 : IVec S_ 1 := andi main_v103 main_v107
  let main_v109 : FVec F S1x1024 .f32 := Host.absf main_arg22
  let main_cst_42 : FVec F S_ .f32 := constant S_ .f32 0x7F800000#32
  let main_v110 : FVec F S1x1024 .f32 := broadcastInDim S1x1024 ![] bcast_S_S1x1024 main_cst_42
  let main_v111 : IVec S1x1024 1 := cmpf .olt main_v109 main_v110
  let main_c_43 : IVec S_ 1 := constantI S_ 1 1#1
  let main_v112 : IVec S_ 1 := (fun x v => Host.reduce IntOp.andi x v reducesTo_S1x1024_S_d0_1 h_S_) main_v111 main_c_43
  let main_v113 : IVec S_ 1 := andi main_v108 main_v112
  let main_v114 : FVec F S1x768 .f32 := Host.absf main_arg23
  let main_cst_44 : FVec F S_ .f32 := constant S_ .f32 0x7F800000#32
  let main_v115 : FVec F S1x768 .f32 := broadcastInDim S1x768 ![] bcast_S_S1x768 main_cst_44
  let main_v116 : IVec S1x768 1 := cmpf .olt main_v114 main_v115
  let main_c_45 : IVec S_ 1 := constantI S_ 1 1#1
  let main_v117 : IVec S_ 1 := (fun x v => Host.reduce IntOp.andi x v reducesTo_S1x768_S_d0_1 h_S_) main_v116 main_c_45
  let main_v118 : IVec S_ 1 := andi main_v113 main_v117
  let main_v119 : FVec F S1x1024 .f32 := Host.absf main_arg24
  fn_part7 (F := F) main_v118 main_v119

def fn_part5 {F : FTy → Type} [FloatOps F] (main_arg18 : FVec F S64x1024 .f32) (main_arg19 : FVec F S1x1024 .f32) (main_arg20 : FVec F S1x1024 .f32) (main_arg21 : FVec F S1x1024 .f32) (main_arg22 : FVec F S1x1024 .f32) (main_arg23 : FVec F S1x768 .f32) (main_arg24 : FVec F S1x1024 .f32) (main_v83 : IVec S_ 1) (main_v84 : FVec F S64x1024 .f32) (main_cst_32 : FVec F S_ .f32) : IVec S_ 1 :=
  let main_v85 : FVec F S64x1024 .f32 := broadcastInDim S64x1024 ![] bcast_S_S64x1024 main_cst_32
  let main_v86 : IVec S64x1024 1 := cmpf .olt main_v84 main_v85
  let main_c_33 : IVec S_ 1 := constantI S_ 1 1#1
  let main_v87 : IVec S_ 1 := (fun x v => Host.reduce IntOp.andi x v reducesTo_S64x1024_S_d0_1 h_S_) main_v86 main_c_33
  let main_v88 : IVec S_ 1 := andi main_v83 main_v87
  let main_v89 : FVec F S64x1024 .f32 := Host.absf main_arg18
  let main_cst_34 : FVec F S_ .f32 := constant S_ .f32 0x7F800000#32
  let main_v90 : FVec F S64x1024 .f32 := broadcastInDim S64x1024 ![] bcast_S_S64x1024 main_cst_34
  let main_v91 : IVec S64x1024 1 := cmpf .olt main_v89 main_v90
  let main_c_35 : IVec S_ 1 := constantI S_ 1 1#1
  let main_v92 : IVec S_ 1 := (fun x v => Host.reduce IntOp.andi x v reducesTo_S64x1024_S_d0_1 h_S_) main_v91 main_c_35
  let main_v93 : IVec S_ 1 := andi main_v88 main_v92
  let main_v94 : FVec F S1x1024 .f32 := Host.absf main_arg19
  let main_cst_36 : FVec F S_ .f32 := constant S_ .f32 0x7F800000#32
  let main_v95 : FVec F S1x1024 .f32 := broadcastInDim S1x1024 ![] bcast_S_S1x1024 main_cst_36
  let main_v96 : IVec S1x1024 1 := cmpf .olt main_v94 main_v95
  let main_c_37 : IVec S_ 1 := constantI S_ 1 1#1
  let main_v97 : IVec S_ 1 := (fun x v => Host.reduce IntOp.andi x v reducesTo_S1x1024_S_d0_1 h_S_) main_v96 main_c_37
  let main_v98 : IVec S_ 1 := andi main_v93 main_v97
  let main_v99 : FVec F S1x1024 .f32 := Host.absf main_arg20
  let main_cst_38 : FVec F S_ .f32 := constant S_ .f32 0x7F800000#32
  let main_v100 : FVec F S1x1024 .f32 := broadcastInDim S1x1024 ![] bcast_S_S1x1024 main_cst_38
  let main_v101 : IVec S1x1024 1 := cmpf .olt main_v99 main_v100
  let main_c_39 : IVec S_ 1 := constantI S_ 1 1#1
  fn_part6 (F := F) main_arg21 main_arg22 main_arg23 main_arg24 main_v98 main_v101 main_c_39

def fn_part4 {F : FTy → Type} [FloatOps F] (main_arg14 : FVec F S64x1024 .f32) (main_arg15 : FVec F S64x1024 .f32) (main_arg16 : FVec F S64x1024 .f32) (main_arg17 : FVec F S64x1024 .f32) (main_arg18 : FVec F S64x1024 .f32) (main_arg19 : FVec F S1x1024 .f32) (main_arg20 : FVec F S1x1024 .f32) (main_arg21 : FVec F S1x1024 .f32) (main_arg22 : FVec F S1x1024 .f32) (main_arg23 : FVec F S1x768 .f32) (main_arg24 : FVec F S1x1024 .f32) (main_v63 : IVec S_ 1) (main_v67 : IVec S_ 1) : IVec S_ 1 :=
  let main_v68 : IVec S_ 1 := andi main_v63 main_v67
  let main_v69 : FVec F S64x1024 .f32 := Host.absf main_arg14
  let main_cst_26 : FVec F S_ .f32 := constant S_ .f32 0x7F800000#32
  let main_v70 : FVec F S64x1024 .f32 := broadcastInDim S64x1024 ![] bcast_S_S64x1024 main_cst_26
  let main_v71 : IVec S64x1024 1 := cmpf .olt main_v69 main_v70
  let main_c_27 : IVec S_ 1 := constantI S_ 1 1#1
  let main_v72 : IVec S_ 1 := (fun x v => Host.reduce IntOp.andi x v reducesTo_S64x1024_S_d0_1 h_S_) main_v71 main_c_27
  let main_v73 : IVec S_ 1 := andi main_v68 main_v72
  let main_v74 : FVec F S64x1024 .f32 := Host.absf main_arg15
  let main_cst_28 : FVec F S_ .f32 := constant S_ .f32 0x7F800000#32
  let main_v75 : FVec F S64x1024 .f32 := broadcastInDim S64x1024 ![] bcast_S_S64x1024 main_cst_28
  let main_v76 : IVec S64x1024 1 := cmpf .olt main_v74 main_v75
  let main_c_29 : IVec S_ 1 := constantI S_ 1 1#1
  let main_v77 : IVec S_ 1 := (fun x v => Host.reduce IntOp.andi x v reducesTo_S64x1024_S_d0_1 h_S_) main_v76 main_c_29
  let main_v78 : IVec S_ 1 := andi main_v73 main_v77
  let main_v79 : FVec F S64x1024 .f32 := Host.absf main_arg16
  let main_cst_30 : FVec F S_ .f32 := constant S_ .f32 0x7F800000#32
  let main_v80 : FVec F S64x1024 .f32 := broadcastInDim S64x1024 ![] bcast_S_S64x1024 main_cst_30
  let main_v81 : IVec S64x1024 1 := cmpf .olt main_v79 main_v80
  let main_c_31 : IVec S_ 1 := constantI S_ 1 1#1
  let main_v82 : IVec S_ 1 := (fun x v => Host.reduce IntOp.andi x v reducesTo_S64x1024_S_d0_1 h_S_) main_v81 main_c_31
  let main_v83 : IVec S_ 1 := andi main_v78 main_v82
  let main_v84 : FVec F S64x1024 .f32 := Host.absf main_arg17
  let main_cst_32 : FVec F S_ .f32 := constant S_ .f32 0x7F800000#32
  fn_part5 (F := F) main_arg18 main_arg19 main_arg20 main_arg21 main_arg22 main_arg23 main_arg24 main_v83 main_v84 main_cst_32

def fn_part3 {F : FTy → Type} [FloatOps F] (main_arg11 : FVec F S64x1024 .f32) (main_arg12 : FVec F S64x1024 .f32) (main_arg13 : FVec F S64x1024 .f32) (main_arg14 : FVec F S64x1024 .f32) (main_arg15 : FVec F S64x1024 .f32) (main_arg16 : FVec F S64x1024 .f32) (main_arg17 : FVec F S64x1024 .f32) (main_arg18 : FVec F S64x1024 .f32) (main_arg19 : FVec F S1x1024 .f32) (main_arg20 : FVec F S1x1024 .f32) (main_arg21 : FVec F S1x1024 .f32) (main_arg22 : FVec F S1x1024 .f32) (main_arg23 : FVec F S1x768 .f32) (main_arg24 : FVec F S1x1024 .f32) (main_v48 : IVec S_ 1) (main_v49 : FVec F S1024x64 .f32) (main_v50 : FVec F S1024x64 .f32) : IVec S_ 1 :=
  let main_v51 : IVec S1024x64 1 := cmpf .olt main_v49 main_v50
  let main_c_19 : IVec S_ 1 := constantI S_ 1 1#1
  let main_v52 : IVec S_ 1 := (fun x v => Host.reduce IntOp.andi x v reducesTo_S1024x64_S_d0_1 h_S_) main_v51 main_c_19
  let main_v53 : IVec S_ 1 := andi main_v48 main_v52
  let main_v54 : FVec F S64x1024 .f32 := Host.absf main_arg11
  let main_cst_20 : FVec F S_ .f32 := constant S_ .f32 0x7F800000#32
  let main_v55 : FVec F S64x1024 .f32 := broadcastInDim S64x1024 ![] bcast_S_S64x1024 main_cst_20
  let main_v56 : IVec S64x1024 1 := cmpf .olt main_v54 main_v55
  let main_c_21 : IVec S_ 1 := constantI S_ 1 1#1
  let main_v57 : IVec S_ 1 := (fun x v => Host.reduce IntOp.andi x v reducesTo_S64x1024_S_d0_1 h_S_) main_v56 main_c_21
  let main_v58 : IVec S_ 1 := andi main_v53 main_v57
  let main_v59 : FVec F S64x1024 .f32 := Host.absf main_arg12
  let main_cst_22 : FVec F S_ .f32 := constant S_ .f32 0x7F800000#32
  let main_v60 : FVec F S64x1024 .f32 := broadcastInDim S64x1024 ![] bcast_S_S64x1024 main_cst_22
  let main_v61 : IVec S64x1024 1 := cmpf .olt main_v59 main_v60
  let main_c_23 : IVec S_ 1 := constantI S_ 1 1#1
  let main_v62 : IVec S_ 1 := (fun x v => Host.reduce IntOp.andi x v reducesTo_S64x1024_S_d0_1 h_S_) main_v61 main_c_23
  let main_v63 : IVec S_ 1 := andi main_v58 main_v62
  let main_v64 : FVec F S64x1024 .f32 := Host.absf main_arg13
  let main_cst_24 : FVec F S_ .f32 := constant S_ .f32 0x7F800000#32
  let main_v65 : FVec F S64x1024 .f32 := broadcastInDim S64x1024 ![] bcast_S_S64x1024 main_cst_24
  let main_v66 : IVec S64x1024 1 := cmpf .olt main_v64 main_v65
  let main_c_25 : IVec S_ 1 := constantI S_ 1 1#1
  let main_v67 : IVec S_ 1 := (fun x v => Host.reduce IntOp.andi x v reducesTo_S64x1024_S_d0_1 h_S_) main_v66 main_c_25
  fn_part4 (F := F) main_arg14 main_arg15 main_arg16 main_arg17 main_arg18 main_arg19 main_arg20 main_arg21 main_arg22 main_arg23 main_arg24 main_v63 main_v67

def fn_part2 {F : FTy → Type} [FloatOps F] (main_arg7 : FVec F S1024x64 .f32) (main_arg8 : FVec F S1024x64 .f32) (main_arg9 : FVec F S1024x64 .f32) (main_arg10 : FVec F S1024x64 .f32) (main_arg11 : FVec F S64x1024 .f32) (main_arg12 : FVec F S64x1024 .f32) (main_arg13 : FVec F S64x1024 .f32) (main_arg14 : FVec F S64x1024 .f32) (main_arg15 : FVec F S64x1024 .f32) (main_arg16 : FVec F S64x1024 .f32) (main_arg17 : FVec F S64x1024 .f32) (main_arg18 : FVec F S64x1024 .f32) (main_arg19 : FVec F S1x1024 .f32) (main_arg20 : FVec F S1x1024 .f32) (main_arg21 : FVec F S1x1024 .f32) (main_arg22 : FVec F S1x1024 .f32) (main_arg23 : FVec F S1x768 .f32) (main_arg24 : FVec F S1x1024 .f32) (main_v33 : IVec S_ 1) : IVec S_ 1 :=
  let main_v34 : FVec F S1024x64 .f32 := Host.absf main_arg7
  let main_cst_12 : FVec F S_ .f32 := constant S_ .f32 0x7F800000#32
  let main_v35 : FVec F S1024x64 .f32 := broadcastInDim S1024x64 ![] bcast_S_S1024x64 main_cst_12
  let main_v36 : IVec S1024x64 1 := cmpf .olt main_v34 main_v35
  let main_c_13 : IVec S_ 1 := constantI S_ 1 1#1
  let main_v37 : IVec S_ 1 := (fun x v => Host.reduce IntOp.andi x v reducesTo_S1024x64_S_d0_1 h_S_) main_v36 main_c_13
  let main_v38 : IVec S_ 1 := andi main_v33 main_v37
  let main_v39 : FVec F S1024x64 .f32 := Host.absf main_arg8
  let main_cst_14 : FVec F S_ .f32 := constant S_ .f32 0x7F800000#32
  let main_v40 : FVec F S1024x64 .f32 := broadcastInDim S1024x64 ![] bcast_S_S1024x64 main_cst_14
  let main_v41 : IVec S1024x64 1 := cmpf .olt main_v39 main_v40
  let main_c_15 : IVec S_ 1 := constantI S_ 1 1#1
  let main_v42 : IVec S_ 1 := (fun x v => Host.reduce IntOp.andi x v reducesTo_S1024x64_S_d0_1 h_S_) main_v41 main_c_15
  let main_v43 : IVec S_ 1 := andi main_v38 main_v42
  let main_v44 : FVec F S1024x64 .f32 := Host.absf main_arg9
  let main_cst_16 : FVec F S_ .f32 := constant S_ .f32 0x7F800000#32
  let main_v45 : FVec F S1024x64 .f32 := broadcastInDim S1024x64 ![] bcast_S_S1024x64 main_cst_16
  let main_v46 : IVec S1024x64 1 := cmpf .olt main_v44 main_v45
  let main_c_17 : IVec S_ 1 := constantI S_ 1 1#1
  let main_v47 : IVec S_ 1 := (fun x v => Host.reduce IntOp.andi x v reducesTo_S1024x64_S_d0_1 h_S_) main_v46 main_c_17
  let main_v48 : IVec S_ 1 := andi main_v43 main_v47
  let main_v49 : FVec F S1024x64 .f32 := Host.absf main_arg10
  let main_cst_18 : FVec F S_ .f32 := constant S_ .f32 0x7F800000#32
  let main_v50 : FVec F S1024x64 .f32 := broadcastInDim S1024x64 ![] bcast_S_S1024x64 main_cst_18
  fn_part3 (F := F) main_arg11 main_arg12 main_arg13 main_arg14 main_arg15 main_arg16 main_arg17 main_arg18 main_arg19 main_arg20 main_arg21 main_arg22 main_arg23 main_arg24 main_v48 main_v49 main_v50

def fn_part1 {F : FTy → Type} [FloatOps F] (main_arg4 : FVec F S768x64 .f32) (main_arg5 : FVec F S768x64 .f32) (main_arg6 : FVec F S768x64 .f32) (main_arg7 : FVec F S1024x64 .f32) (main_arg8 : FVec F S1024x64 .f32) (main_arg9 : FVec F S1024x64 .f32) (main_arg10 : FVec F S1024x64 .f32) (main_arg11 : FVec F S64x1024 .f32) (main_arg12 : FVec F S64x1024 .f32) (main_arg13 : FVec F S64x1024 .f32) (main_arg14 : FVec F S64x1024 .f32) (main_arg15 : FVec F S64x1024 .f32) (main_arg16 : FVec F S64x1024 .f32) (main_arg17 : FVec F S64x1024 .f32) (main_arg18 : FVec F S64x1024 .f32) (main_arg19 : FVec F S1x1024 .f32) (main_arg20 : FVec F S1x1024 .f32) (main_arg21 : FVec F S1x1024 .f32) (main_arg22 : FVec F S1x1024 .f32) (main_arg23 : FVec F S1x768 .f32) (main_arg24 : FVec F S1x1024 .f32) (main_v13 : IVec S_ 1) (main_v16 : IVec S768x64 1) : IVec S_ 1 :=
  let main_c_5 : IVec S_ 1 := constantI S_ 1 1#1
  let main_v17 : IVec S_ 1 := (fun x v => Host.reduce IntOp.andi x v reducesTo_S768x64_S_d0_1 h_S_) main_v16 main_c_5
  let main_v18 : IVec S_ 1 := andi main_v13 main_v17
  let main_v19 : FVec F S768x64 .f32 := Host.absf main_arg4
  let main_cst_6 : FVec F S_ .f32 := constant S_ .f32 0x7F800000#32
  let main_v20 : FVec F S768x64 .f32 := broadcastInDim S768x64 ![] bcast_S_S768x64 main_cst_6
  let main_v21 : IVec S768x64 1 := cmpf .olt main_v19 main_v20
  let main_c_7 : IVec S_ 1 := constantI S_ 1 1#1
  let main_v22 : IVec S_ 1 := (fun x v => Host.reduce IntOp.andi x v reducesTo_S768x64_S_d0_1 h_S_) main_v21 main_c_7
  let main_v23 : IVec S_ 1 := andi main_v18 main_v22
  let main_v24 : FVec F S768x64 .f32 := Host.absf main_arg5
  let main_cst_8 : FVec F S_ .f32 := constant S_ .f32 0x7F800000#32
  let main_v25 : FVec F S768x64 .f32 := broadcastInDim S768x64 ![] bcast_S_S768x64 main_cst_8
  let main_v26 : IVec S768x64 1 := cmpf .olt main_v24 main_v25
  let main_c_9 : IVec S_ 1 := constantI S_ 1 1#1
  let main_v27 : IVec S_ 1 := (fun x v => Host.reduce IntOp.andi x v reducesTo_S768x64_S_d0_1 h_S_) main_v26 main_c_9
  let main_v28 : IVec S_ 1 := andi main_v23 main_v27
  let main_v29 : FVec F S768x64 .f32 := Host.absf main_arg6
  let main_cst_10 : FVec F S_ .f32 := constant S_ .f32 0x7F800000#32
  let main_v30 : FVec F S768x64 .f32 := broadcastInDim S768x64 ![] bcast_S_S768x64 main_cst_10
  let main_v31 : IVec S768x64 1 := cmpf .olt main_v29 main_v30
  let main_c_11 : IVec S_ 1 := constantI S_ 1 1#1
  let main_v32 : IVec S_ 1 := (fun x v => Host.reduce IntOp.andi x v reducesTo_S768x64_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S16384x768 .f32) (main_arg1 : FVec F S16384x1024 .f32) (main_arg2 : FVec F S16384x1024 .f32) (main_arg3 : FVec F S768x64 .f32) (main_arg4 : FVec F S768x64 .f32) (main_arg5 : FVec F S768x64 .f32) (main_arg6 : FVec F S768x64 .f32) (main_arg7 : FVec F S1024x64 .f32) (main_arg8 : FVec F S1024x64 .f32) (main_arg9 : FVec F S1024x64 .f32) (main_arg10 : FVec F S1024x64 .f32) (main_arg11 : FVec F S64x1024 .f32) (main_arg12 : FVec F S64x1024 .f32) (main_arg13 : FVec F S64x1024 .f32) (main_arg14 : FVec F S64x1024 .f32) (main_arg15 : FVec F S64x1024 .f32) (main_arg16 : FVec F S64x1024 .f32) (main_arg17 : FVec F S64x1024 .f32) (main_arg18 : FVec F S64x1024 .f32) (main_arg19 : FVec F S1x1024 .f32) (main_arg20 : FVec F S1x1024 .f32) (main_arg21 : FVec F S1x1024 .f32) (main_arg22 : FVec F S1x1024 .f32) (main_arg23 : FVec F S1x768 .f32) (main_arg24 : FVec F S1x1024 .f32) : IVec S_ 1 :=
  let main_v0 : FVec F S16384x768 .f32 := Host.absf main_arg0
  let main_cst : FVec F S_ .f32 := constant S_ .f32 0x7F800000#32
  let main_v1 : FVec F S16384x768 .f32 := broadcastInDim S16384x768 ![] bcast_S_S16384x768 main_cst
  let main_v2 : IVec S16384x768 1 := cmpf .olt main_v0 main_v1
  let main_c : IVec S_ 1 := constantI S_ 1 1#1
  let main_v3 : IVec S_ 1 := (fun x v => Host.reduce IntOp.andi x v reducesTo_S16384x768_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S768x64 .f32 := Host.absf main_arg3
  let main_cst_4 : FVec F S_ .f32 := constant S_ .f32 0x7F800000#32
  let main_v15 : FVec F S768x64 .f32 := broadcastInDim S768x64 ![] bcast_S_S768x64 main_cst_4
  let main_v16 : IVec S768x64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S16384x768 : Shape := ⟨2, ![16384, 768]⟩
abbrev S16384x1024 : Shape := ⟨2, ![16384, 1024]⟩
abbrev S768x64 : Shape := ⟨2, ![768, 64]⟩
abbrev S1024x64 : Shape := ⟨2, ![1024, 64]⟩
abbrev S64x1024 : Shape := ⟨2, ![64, 1024]⟩
abbrev S1x1024 : Shape := ⟨2, ![1, 1024]⟩
abbrev S1x768 : Shape := ⟨2, ![1, 768]⟩
abbrev S64x768 : Shape := ⟨2, ![64, 768]⟩
abbrev S_ : Shape := ⟨0, ![]⟩
abbrev S768 : Shape := ⟨1, ![768]⟩
abbrev S1024 : Shape := ⟨1, ![1024]⟩
abbrev S768x256 : Shape := ⟨2, ![768, 256]⟩
abbrev S1024x256 : Shape := ⟨2, ![1024, 256]⟩
abbrev S128x1024 : Shape := ⟨2, ![128, 1024]⟩
abbrev S256x768 : Shape := ⟨2, ![256, 768]⟩
abbrev S256x1024 : Shape := ⟨2, ![256, 1024]⟩
abbrev S256x256 : Shape := ⟨2, ![256, 256]⟩
abbrev S256x64 : Shape := ⟨2, ![256, 64]⟩
abbrev S256x128 : Shape := ⟨2, ![256, 128]⟩

abbrev nBuf : Space → Nat
  | .hbm => 103
  | .vmem => 28
  | .smem => 0
  | _ => 0

abbrev bufTy : (tb : Table) → Fin (tcTables nBuf tb) → BufTy
  | .hbm, ⟨0, _⟩ => ⟨S16384x768, .f32⟩
  | .hbm, ⟨1, _⟩ => ⟨S16384x1024, .f32⟩
  | .hbm, ⟨2, _⟩ => ⟨S16384x1024, .f32⟩
  | .hbm, ⟨3, _⟩ => ⟨S768x64, .f32⟩
  | .hbm, ⟨4, _⟩ => ⟨S768x64, .f32⟩
  | .hbm, ⟨5, _⟩ => ⟨S768x64, .f32⟩
  | .hbm, ⟨6, _⟩ => ⟨S768x64, .f32⟩
  | .hbm, ⟨7, _⟩ => ⟨S1024x64, .f32⟩
  | .hbm, ⟨8, _⟩ => ⟨S1024x64, .f32⟩
  | .hbm, ⟨9, _⟩ => ⟨S1024x64, .f32⟩
  | .hbm, ⟨10, _⟩ => ⟨S1024x64, .f32⟩
  | .hbm, ⟨11, _⟩ => ⟨S64x1024, .f32⟩
  | .hbm, ⟨12, _⟩ => ⟨S64x1024, .f32⟩
  | .hbm, ⟨13, _⟩ => ⟨S64x1024, .f32⟩
  | .hbm, ⟨14, _⟩ => ⟨S64x1024, .f32⟩
  | .hbm, ⟨15, _⟩ => ⟨S64x1024, .f32⟩
  | .hbm, ⟨16, _⟩ => ⟨S64x1024, .f32⟩
  | .hbm, ⟨17, _⟩ => ⟨S64x1024, .f32⟩
  | .hbm, ⟨18, _⟩ => ⟨S64x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x768, .f32⟩
  | .hbm, ⟨24, _⟩ => ⟨S1x1024, .f32⟩
  | .hbm, ⟨25, _⟩ => ⟨S64x768, .f32⟩
  | .hbm, ⟨26, _⟩ => ⟨S768x64, .f32⟩
  | .hbm, ⟨27, _⟩ => ⟨S768x64, .f32⟩
  | .hbm, ⟨28, _⟩ => ⟨S_, .f32⟩
  | .hbm, ⟨29, _⟩ => ⟨S768, .f32⟩
  | .hbm, ⟨30, _⟩ => ⟨S1x768, .f32⟩
  | .hbm, ⟨31, _⟩ => ⟨S1x768, .f32⟩
  | .hbm, ⟨32, _⟩ => ⟨S_, .i32⟩
  | .hbm, ⟨33, _⟩ => ⟨S_, .f32⟩
  | .hbm, ⟨34, _⟩ => ⟨S1x1024, .f32⟩
  | .hbm, ⟨35, _⟩ => ⟨S64x768, .f32⟩
  | .hbm, ⟨36, _⟩ => ⟨S768x64, .f32⟩
  | .hbm, ⟨37, _⟩ => ⟨S768x64, .f32⟩
  | .hbm, ⟨38, _⟩ => ⟨S_, .f32⟩
  | .hbm, ⟨39, _⟩ => ⟨S768, .f32⟩
  | .hbm, ⟨40, _⟩ => ⟨S1x768, .f32⟩
  | .hbm, ⟨41, _⟩ => ⟨S1x768, .f32⟩
  | .hbm, ⟨42, _⟩ => ⟨S_, .i32⟩
  | .hbm, ⟨43, _⟩ => ⟨S_, .f32⟩
  | .hbm, ⟨44, _⟩ => ⟨S1x1024, .f32⟩
  | .hbm, ⟨45, _⟩ => ⟨S64x768, .f32⟩
  | .hbm, ⟨46, _⟩ => ⟨S768x64, .f32⟩
  | .hbm, ⟨47, _⟩ => ⟨S768x64, .f32⟩
  | .hbm, ⟨48, _⟩ => ⟨S_, .f32⟩
  | .hbm, ⟨49, _⟩ => ⟨S768, .f32⟩
  | .hbm, ⟨50, _⟩ => ⟨S1x768, .f32⟩
  | .hbm, ⟨51, _⟩ => ⟨S1x768, .f32⟩
  | .hbm, ⟨52, _⟩ => ⟨S_, .i32⟩
  | .hbm, ⟨53, _⟩ => ⟨S_, .f32⟩
  | .hbm, ⟨54, _⟩ => ⟨S1x1024, .f32⟩
  | .hbm, ⟨55, _⟩ => ⟨S64x768, .f32⟩
  | .hbm, ⟨56, _⟩ => ⟨S768x64, .f32⟩
  | .hbm, ⟨57, _⟩ => ⟨S768x64, .f32⟩
  | .hbm, ⟨58, _⟩ => ⟨S_, .f32⟩
  | .hbm, ⟨59, _⟩ => ⟨S768, .f32⟩
  | .hbm, ⟨60, _⟩ => ⟨S1x768, .f32⟩
  | .hbm, ⟨61, _⟩ => ⟨S1x768, .f32⟩
  | .hbm, ⟨62, _⟩ => ⟨S_, .i32⟩
  | .hbm, ⟨63, _⟩ => ⟨S_, .f32⟩
  | .hbm, ⟨64, _⟩ => ⟨S1x1024, .f32⟩
  | .hbm, ⟨65, _⟩ => ⟨S1024x64, .f32⟩
  | .hbm, ⟨66, _⟩ => ⟨S1024x64, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S1x1024, .f32⟩
  | .hbm, ⟨71, _⟩ => ⟨S1024x64, .f32⟩
  | .hbm, ⟨72, _⟩ => ⟨S1024x64, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S1x1024, .f32⟩
  | .hbm, ⟨77, _⟩ => ⟨S1024x64, .f32⟩
  | .hbm, ⟨78, _⟩ => ⟨S1024x64, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S1x1024, .f32⟩
  | .hbm, ⟨83, _⟩ => ⟨S1024x64, .f32⟩
  | .hbm, ⟨84, _⟩ => ⟨S1024x64, .f32⟩
  | .hbm, ⟨85, _⟩ => ⟨S_, .f32⟩
  | .hbm, ⟨86, _⟩ => ⟨S1024, .f32⟩
  | .hbm, ⟨87, _⟩ => ⟨S1x1024, .f32⟩
  | .hbm, ⟨88, _⟩ => ⟨S1x1024, .f32⟩
  | .hbm, ⟨89, _⟩ => ⟨S768x256, .f32⟩
  | .hbm, ⟨90, _⟩ => ⟨S768x256, .bf16⟩
  | .hbm, ⟨91, _⟩ => ⟨S1024x256, .f32⟩
  | .hbm, ⟨92, _⟩ => ⟨S1024x256, .bf16⟩
  | .hbm, ⟨93, _⟩ => ⟨S128x1024, .f32⟩
  | .hbm, ⟨94, _⟩ => ⟨S128x1024, .bf16⟩
  | .hbm, ⟨95, _⟩ => ⟨S128x1024, .f32⟩
  | .hbm, ⟨96, _⟩ => ⟨S128x1024, .bf16⟩
  | .hbm, ⟨97, _⟩ => ⟨S128x1024, .f32⟩
  | .hbm, ⟨98, _⟩ => ⟨S128x1024, .bf16⟩
  | .hbm, ⟨99, _⟩ => ⟨S128x1024, .f32⟩
  | .hbm, ⟨100, _⟩ => ⟨S128x1024, .bf16⟩
  | .hbm, ⟨101, _⟩ => ⟨S16384x1024, .f32⟩
  | .hbm, ⟨102, _⟩ => ⟨S16384x1024, .f32⟩
  | .local _ .vmem, ⟨0, _⟩ => ⟨S256x768, .f32⟩
  | .local _ .vmem, ⟨1, _⟩ => ⟨S256x768, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S768x256, .bf16⟩
  | .local _ .vmem, ⟨7, _⟩ => ⟨S1024x256, .bf16⟩
  | .local _ .vmem, ⟨8, _⟩ => ⟨S128x1024, .bf16⟩
  | .local _ .vmem, ⟨9, _⟩ => ⟨S128x1024, .bf16⟩
  | .local _ .vmem, ⟨10, _⟩ => ⟨S128x1024, .bf16⟩
  | .local _ .vmem, ⟨11, _⟩ => ⟨S128x1024, .bf16⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_cst : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_c : Ref sig .tc := ⟨.hbm, 32, rfl⟩
abbrev main_call0_v0 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_0 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_c_1 : Ref sig .tc := ⟨.hbm, 42, rfl⟩
abbrev main_call1_v0 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_cst_2 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_c_3 : Ref sig .tc := ⟨.hbm, 52, rfl⟩
abbrev main_call2_v0 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_cst_4 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_c_5 : Ref sig .tc := ⟨.hbm, 62, rfl⟩
abbrev main_call3_v0 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_cst_6 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_cst_7 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_cst_8 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_cst_9 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60_0 : Ref sig .tc := ⟨.hbm, 101, rfl⟩
abbrev main_v60_1 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_stg21_1 : Ref sig .tc := ⟨.vmem, 25, rfl⟩
abbrev cc0_stg22_0 : Ref sig .tc := ⟨.vmem, 26, rfl⟩
abbrev cc0_stg22_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem21_1 : DmaSem sig := 25
abbrev cc0_sem22_0 : DmaSem sig := 26
abbrev cc0_sem22_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S768x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

class Facts₀ : Prop where
  slices_S64x1024_S64x768_0_0 : S64x1024.Slices ![0, 0] S64x768
  transposes_S64x768_S768x64_1_0 : S64x768.Transposes [1, 0] S768x64
  reducesTo_S768x64_S768_d1 : S768x64.ReducesTo [1] S768
  h_S_ : 0 < S_.numel
  shapeCasts_S768_S1x768 : S768.ShapeCasts S1x768
  pads_S1x768_S1x1024_000_02560 : S1x768.Pads (![0, 0] : Fin 2 → Nat) ![0, 256] ![0, 0] S1x1024
  transposes_S64x1024_S1024x64_1_0 : S64x1024.Transposes [1, 0] S1024x64
  reducesTo_S1024x64_S1024_d1 : S1024x64.ReducesTo [1] S1024
  shapeCasts_S1024_S1x1024 : S1024.ShapeCasts S1x1024
  concatenates_S768x64_S768x64_S768x64_S768x64_S768x256_d1 : Shape.Concatenates [S768x64, S768x64, S768x64, S768x64] S768x256 1
  bitsLt_bf16_f32 : FTy.bits .bf16 < FTy.bits .f32
  concatenates_S1024x64_S1024x64_S1024x64_S1024x64_S1024x256_d1 : Shape.Concatenates [S1024x64, S1024x64, S1024x64, S1024x64] S1024x256 1
  concatenates_S64x1024_S64x1024_S128x1024_d0 : Shape.Concatenates [S64x1024, S64x1024] S128x1024 0
  inb_S256x768_S256x768_0_0 : ∀ a, (![0, 0] : Fin 2 → Nat) a + S256x768.size a ≤ S256x768.size a
  h_S256x768 : 0 < S256x768.numel
  inb_S256x1024_S256x1024_0_0 : ∀ a, (![0, 0] : Fin 2 → Nat) a + S256x1024.size a ≤ S256x1024.size a
  h_S256x1024 : 0 < S256x1024.numel
  concatenates_S256x768_S256x256_S256x1024_d1 : Shape.Concatenates [S256x768, S256x256] S256x1024 1
  inb_S768x256_S768x256_0_0 : ∀ a, (![0, 0] : Fin 2 → Nat) a + S768x256.size a ≤ S768x256.size a
  h_S768x256 : 0 < S768x256.numel
  shapeCasts_S768x256_S768x256 : S768x256.ShapeCasts S768x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  slices_S256x256_o0_0_S256x64 : S256x256.Slices ![0, 0] S256x64
  concatenates_S256x64_S256x64_S256x128_d1 : Shape.Concatenates [S256x64, S256x64] S256x128 1
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  slices_S256x256_o0_64_S256x64 : S256x256.Slices ![0, 64] S256x64
  slices_S256x256_o0_128_S256x64 : S256x256.Slices ![0, 128] S256x64
  slices_S256x256_o0_192_S256x64 : S256x256.Slices ![0, 192] S256x64
  dot_S256x768_S768x256_S256x256_1_0_0_1_n_n_wf : DotDims.WF S256x768 S768x256 S256x256 [1] [0] [0] [1] [] []
  dot_S256x1024_S1024x256_S256x256_1_0_0_1_n_n_wf : DotDims.WF S256x1024 S1024x256 S256x256 [1] [0] [0] [1] [] []
  dot_S256x128_S128x1024_S256x1024_1_0_0_1_n_n_wf : DotDims.WF S256x128 S128x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x768.size a ≤ S16384x768.size a
  hwx0_0 : ∀ i : grid0.Coords, EltTy.bits .f32 = 32 ∨ (Rect.block (s := S16384x768) S256x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x256.size a ≤ S768x256.size a
  hwx0_3 : ∀ i : grid0.Coords, EltTy.bits .bf16 = 32 ∨ (Rect.block (s := S768x256) S768x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S1024x256.size a
  hwx0_4 : ∀ i : grid0.Coords, EltTy.bits .bf16 = 32 ∨ (Rect.block (s := S1024x256) S1024x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1024.size a ≤ S128x1024.size a
  hwx0_5 : ∀ i : grid0.Coords, EltTy.bits .bf16 = 32 ∨ (Rect.block (s := S128x1024) S128x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S128x1024.size a
  hwx0_6 : ∀ i : grid0.Coords, EltTy.bits .bf16 = 32 ∨ (Rect.block (s := S128x1024) S128x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x1024.size a ≤ S128x1024.size a
  hwx0_7 : ∀ i : grid0.Coords, EltTy.bits .bf16 = 32 ∨ (Rect.block (s := S128x1024) S128x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x1024.size a ≤ S128x1024.size a
  hwx0_8 : ∀ i : grid0.Coords, EltTy.bits .bf16 = 32 ∨ (Rect.block (s := S128x1024) S128x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1024.size a ≤ S1x1024.size a
  hwx0_12 : ∀ i : grid0.Coords, EltTy.bits .f32 = 32 ∨ (Rect.block (s := S1x1024) S1x1024.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1024.size a ≤ S1x1024.size a
  hwx0_13 : ∀ i : grid0.Coords, EltTy.bits .f32 = 32 ∨ (Rect.block (s := S1x1024) S1x1024.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1024.size a ≤ S1x1024.size a
  hwx0_14 : ∀ i : grid0.Coords, EltTy.bits .f32 = 32 ∨ (Rect.block (s := S1x1024) S1x1024.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x1024.size a ≤ S1x1024.size a
  hwx0_15 : ∀ i : grid0.Coords, EltTy.bits .f32 = 32 ∨ (Rect.block (s := S1x1024) S1x1024.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x1024.size a ≤ S1x1024.size a
  hwx0_16 : ∀ i : grid0.Coords, EltTy.bits .f32 = 32 ∨ (Rect.block (s := S1x1024) S1x1024.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x1024.size a ≤ S1x1024.size a
  hwx0_17 : ∀ i : grid0.Coords, EltTy.bits .f32 = 32 ∨ (Rect.block (s := S1x1024) S1x1024.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x1024.size a ≤ S1x1024.size a
  hwx0_18 : ∀ i : grid0.Coords, EltTy.bits .f32 = 32 ∨ (Rect.block (s := S1x1024) S1x1024.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x1024.size a ≤ S1x1024.size a
  hwx0_19 : ∀ i : grid0.Coords, EltTy.bits .f32 = 32 ∨ (Rect.block (s := S1x1024) S1x1024.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x1024.size a ≤ S1x1024.size a
  hwx0_20 : ∀ i : grid0.Coords, EltTy.bits .f32 = 32 ∨ (Rect.block (s := S1x1024) S1x1024.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S256x1024.size a ≤ S16384x1024.size a
  hwx0_21 : ∀ i : grid0.Coords, EltTy.bits .f32 = 32 ∨ (Rect.block (s := S16384x1024) S256x1024.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S256x1024.size a ≤ S16384x1024.size a
  hwx0_22 : ∀ i : grid0.Coords, EltTy.bits .f32 = 32 ∨ (Rect.block (s := S16384x1024) S256x1024.size (cc0_transform_22 i) (hinb0_22 i)).WholeWords (EltTy.packing .f32)

variable [Facts₀]

def dot_S256x768_S768x256_S256x256_1_0_0_1_n_n : DotDims S256x768 S768x256 S256x256 where
  lhsContracting := [1]
  rhsContracting := [0]
  lhsNonContracting := [0]
  rhsNonContracting := [1]
  lhsBatch := []
  rhsBatch := []
  wf := dot_S256x768_S768x256_S256x256_1_0_0_1_n_n_wf
def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf
def dot_S256x128_S128x1024_S256x1024_1_0_0_1_n_n : DotDims S256x128 S128x1024 S256x1024 where
  lhsContracting := [1]
  rhsContracting := [0]
  lhsNonContracting := [0]
  rhsNonContracting := [1]
  lhsBatch := []
  rhsBatch := []
  wf := dot_S256x128_S128x1024_S256x1024_1_0_0_1_n_n_wf

abbrev win0_0 : Pipeline.Window sig grid0 :=
  Pipeline.Window.ofSpec (Memref.whole main_arg0) S256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v49) S768x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v51) S1024x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v53) S128x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v55) S128x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v57) S128x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v59) S128x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg19) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg20) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg21) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg22) S1x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v6) S1x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v13) S1x1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v20) S1x1024.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v27) S1x1024.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v32) S1x1024.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v37) S1x1024.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v42) S1x1024.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v47) S1x1024.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v60_0) S256x1024.size cc0_transform_21 reads0_21 true false 2 stage0_21 sem0_21
    hrank0 hreads0_21 hinb0_21 nbuf0_21 (Memref.isWhole_whole _) hwx0_21 hstage0_21

abbrev win0_22 : Pipeline.Window sig grid0 :=
  Pipeline.Window.ofSpec (Memref.whole main_v60_1) S256x1024.size cc0_transform_22 reads0_22 true false 2 stage0_22 sem0_22
    hrank0 hreads0_22 hinb0_22 nbuf0_22 (Memref.isWhole_whole _) hwx0_22 hstage0_22

abbrev win0 : Fin 23 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | ⟨_ + 23, h⟩ => absurd h (Nat.not_lt.2 (Nat.le_add_left _ _))
abbrev spec0 : Fin 23 → Pipeline.WinSpec sig grid0.rank := fun w => (win0 w).toWinSpec

class Facts : Prop extends Facts₀ where

variable [Facts]
-- ==== ReferenceIdeal.lean ====
abbrev S16384x768 : Shape := ⟨2, ![16384, 768]⟩
abbrev S16384x1024 : Shape := ⟨2, ![16384, 1024]⟩
abbrev S768x64 : Shape := ⟨2, ![768, 64]⟩
abbrev S1024x64 : Shape := ⟨2, ![1024, 64]⟩
abbrev S64x1024 : Shape := ⟨2, ![64, 1024]⟩
abbrev S1x1024 : Shape := ⟨2, ![1, 1024]⟩
abbrev S1x768 : Shape := ⟨2, ![1, 768]⟩
abbrev S_ : Shape := ⟨0, ![]⟩
abbrev S16384x256 : Shape := ⟨2, ![16384, 256]⟩
abbrev S16384x64 : Shape := ⟨2, ![16384, 64]⟩
abbrev S64x768 : Shape := ⟨2, ![64, 768]⟩
abbrev S768 : Shape := ⟨1, ![768]⟩
abbrev S1024 : Shape := ⟨1, ![1024]⟩

abbrev nBuf : Space → Nat
  | .hbm => 185
  | .vmem => 0
  | .smem => 0
  | _ => 0

abbrev hbmTy0_0 (i : Nat) : BufTy := match i % 128 with
  | 0 => ⟨S16384x768, .f32⟩
  | 1 => ⟨S16384x1024, .f32⟩
  | 2 => ⟨S16384x1024, .f32⟩
  | 3 => ⟨S768x64, .f32⟩
  | 4 => ⟨S768x64, .f32⟩
  | 5 => ⟨S768x64, .f32⟩
  | 6 => ⟨S768x64, .f32⟩
  | 7 => ⟨S1024x64, .f32⟩
  | 8 => ⟨S1024x64, .f32⟩
  | 9 => ⟨S1024x64, .f32⟩
  | 10 => ⟨S1024x64, .f32⟩
  | 11 => ⟨S64x1024, .f32⟩
  | 12 => ⟨S64x1024, .f32⟩
  | 13 => ⟨S64x1024, .f32⟩
  | 14 => ⟨S64x1024, .f32⟩
  | 15 => ⟨S64x1024, .f32⟩
  | 16 => ⟨S64x1024, .f32⟩
  | 17 => ⟨S64x1024, .f32⟩
  | 18 => ⟨S64x1024, .f32⟩
  | 19 => ⟨S1x1024, .f32⟩
  | 20 => ⟨S1x1024, .f32⟩
  | 21 => ⟨S1x1024, .f32⟩
  | 22 => ⟨S1x1024, .f32⟩
  | 23 => ⟨S1x768, .f32⟩
  | 24 => ⟨S1x1024, .f32⟩
  | 25 => ⟨S_, .f32⟩
  | 26 => ⟨S16384x256, .f32⟩
  | 27 => ⟨S16384x768, .f32⟩
  | 28 => ⟨S16384x768, .f32⟩
  | 29 => ⟨S16384x1024, .f32⟩
  | 30 => ⟨S16384x1024, .f32⟩
  | 31 => ⟨S16384x1024, .f32⟩
  | 32 => ⟨S16384x64, .f32⟩
  | 33 => ⟨S16384x1024, .f32⟩
  | 34 => ⟨S16384x64, .f32⟩
  | 35 => ⟨S16384x1024, .f32⟩
  | 36 => ⟨S64x768, .f32⟩
  | 37 => ⟨S768x64, .f32⟩
  | 38 => ⟨S768x64, .f32⟩
  | 39 => ⟨S_, .f32⟩
  | 40 => ⟨S768, .f32⟩
  | 41 => ⟨S1024x64, .f32⟩
  | 42 => ⟨S1024x64, .f32⟩
  | 43 => ⟨S_, .f32⟩
  | 44 => ⟨S1024, .f32⟩
  | 45 => ⟨S1x768, .f32⟩
  | 46 => ⟨S16384x768, .f32⟩
  | 47 => ⟨S16384x768, .f32⟩
  | 48 => ⟨S16384x1024, .f32⟩
  | 49 => ⟨S1x1024, .f32⟩
  | 50 => ⟨S16384x1024, .f32⟩
  | 51 => ⟨S16384x1024, .f32⟩
  | 52 => ⟨S16384x1024, .f32⟩
  | 53 => ⟨S16384x1024, .f32⟩
  | 54 => ⟨S16384x1024, .f32⟩
  | 55 => ⟨S16384x1024, .f32⟩
  | 56 => ⟨S16384x1024, .f32⟩
  | 57 => ⟨S16384x1024, .f32⟩
  | 58 => ⟨S16384x1024, .f32⟩
  | 59 => ⟨S16384x1024, .f32⟩
  | 60 => ⟨S16384x1024, .f32⟩
  | 61 => ⟨S_, .f32⟩
  | 62 => ⟨S16384x1024, .f32⟩
  | 63 => ⟨S16384x1024, .f32⟩
  | 64 => ⟨S_, .f32⟩
  | 65 => ⟨S16384x1024, .f32⟩
  | 66 => ⟨S16384x1024, .f32⟩
  | 67 => ⟨S16384x768, .f32⟩
  | 68 => ⟨S16384x768, .f32⟩
  | 69 => ⟨S16384x1024, .f32⟩
  | 70 => ⟨S16384x1024, .f32⟩
  | 71 => ⟨S16384x1024, .f32⟩
  | 72 => ⟨S16384x64, .f32⟩
  | 73 => ⟨S16384x1024, .f32⟩
  | 74 => ⟨S16384x64, .f32⟩
  | 75 => ⟨S16384x1024, .f32⟩
  | 76 => ⟨S64x768, .f32⟩
  | 77 => ⟨S768x64, .f32⟩
  | 78 => ⟨S768x64, .f32⟩
  | 79 => ⟨S_, .f32⟩
  | 80 => ⟨S768, .f32⟩
  | 81 => ⟨S1024x64, .f32⟩
  | 82 => ⟨S1024x64, .f32⟩
  | 83 => ⟨S_, .f32⟩
  | 84 => ⟨S1024, .f32⟩
  | 85 => ⟨S1x768, .f32⟩
  | 86 => ⟨S16384x768, .f32⟩
  | 87 => ⟨S16384x768, .f32⟩
  | 88 => ⟨S16384x1024, .f32⟩
  | 89 => ⟨S1x1024, .f32⟩
  | 90 => ⟨S16384x1024, .f32⟩
  | 91 => ⟨S16384x1024, .f32⟩
  | 92 => ⟨S16384x1024, .f32⟩
  | 93 => ⟨S16384x1024, .f32⟩
  | 94 => ⟨S16384x1024, .f32⟩
  | 95 => ⟨S16384x1024, .f32⟩
  | 96 => ⟨S16384x1024, .f32⟩
  | 97 => ⟨S16384x1024, .f32⟩
  | 98 => ⟨S16384x1024, .f32⟩
  | 99 => ⟨S16384x1024, .f32⟩
  | 100 => ⟨S16384x1024, .f32⟩
  | 101 => ⟨S_, .f32⟩
  | 102 => ⟨S16384x1024, .f32⟩
  | 103 => ⟨S16384x1024, .f32⟩
  | 104 => ⟨S_, .f32⟩
  | 105 => ⟨S16384x1024, .f32⟩
  | 106 => ⟨S16384x1024, .f32⟩
  | 107 => ⟨S16384x768, .f32⟩
  | 108 => ⟨S16384x768, .f32⟩
  | 109 => ⟨S16384x1024, .f32⟩
  | 110 => ⟨S16384x1024, .f32⟩
  | 111 => ⟨S16384x1024, .f32⟩
  | 112 => ⟨S16384x64, .f32⟩
  | 113 => ⟨S16384x1024, .f32⟩
  | 114 => ⟨S16384x64, .f32⟩
  | 115 => ⟨S16384x1024, .f32⟩
  | 116 => ⟨S64x768, .f32⟩
  | 117 => ⟨S768x64, .f32⟩
  | 118 => ⟨S768x64, .f32⟩
  | 119 => ⟨S_, .f32⟩
  | 120 => ⟨S768, .f32⟩
  | 121 => ⟨S1024x64, .f32⟩
  | 122 => ⟨S1024x64, .f32⟩
  | 123 => ⟨S_, .f32⟩
  | 124 => ⟨S1024, .f32⟩
  | 125 => ⟨S1x768, .f32⟩
  | 126 => ⟨S16384x768, .f32⟩
  | 127 => ⟨S16384x768, .f32⟩
  | _ => ⟨S16384x768, .f32⟩

abbrev hbmTy0_1 (i : Nat) : BufTy := match i % 128 with
  | 0 => ⟨S16384x1024, .f32⟩
  | 1 => ⟨S1x1024, .f32⟩
  | 2 => ⟨S16384x1024, .f32⟩
  | 3 => ⟨S16384x1024, .f32⟩
  | 4 => ⟨S16384x1024, .f32⟩
  | 5 => ⟨S16384x1024, .f32⟩
  | 6 => ⟨S16384x1024, .f32⟩
  | 7 => ⟨S16384x1024, .f32⟩
  | 8 => ⟨S16384x1024, .f32⟩
  | 9 => ⟨S16384x1024, .f32⟩
  | 10 => ⟨S16384x1024, .f32⟩
  | 11 => ⟨S16384x1024, .f32⟩
  | 12 => ⟨S16384x768, .f32⟩
  | 13 => ⟨S16384x768, .f32⟩
  | 14 => ⟨S16384x1024, .f32⟩
  | 15 => ⟨S16384x1024, .f32⟩
  | 16 => ⟨S16384x1024, .f32⟩
  | 17 => ⟨S16384x64, .f32⟩
  | 18 => ⟨S16384x1024, .f32⟩
  | 19 => ⟨S16384x64, .f32⟩
  | 20 => ⟨S16384x1024, .f32⟩
  | 21 => ⟨S64x768, .f32⟩
  | 22 => ⟨S768x64, .f32⟩
  | 23 => ⟨S768x64, .f32⟩
  | 24 => ⟨S_, .f32⟩
  | 25 => ⟨S768, .f32⟩
  | 26 => ⟨S1024x64, .f32⟩
  | 27 => ⟨S1024x64, .f32⟩
  | 28 => ⟨S_, .f32⟩
  | 29 => ⟨S1024, .f32⟩
  | 30 => ⟨S1x768, .f32⟩
  | 31 => ⟨S16384x768, .f32⟩
  | 32 => ⟨S16384x768, .f32⟩
  | 33 => ⟨S16384x1024, .f32⟩
  | 34 => ⟨S1x1024, .f32⟩
  | 35 => ⟨S16384x1024, .f32⟩
  | 36 => ⟨S16384x1024, .f32⟩
  | 37 => ⟨S16384x1024, .f32⟩
  | 38 => ⟨S16384x1024, .f32⟩
  | 39 => ⟨S16384x1024, .f32⟩
  | 40 => ⟨S16384x1024, .f32⟩
  | 41 => ⟨S16384x1024, .f32⟩
  | 42 => ⟨S16384x1024, .f32⟩
  | 43 => ⟨S16384x1024, .f32⟩
  | 44 => ⟨S16384x1024, .f32⟩
  | 45 => ⟨S16384x1024, .f32⟩
  | 46 => ⟨S_, .f32⟩
  | 47 => ⟨S16384x1024, .f32⟩
  | 48 => ⟨S16384x1024, .f32⟩
  | 49 => ⟨S_, .f32⟩
  | 50 => ⟨S16384x1024, .f32⟩
  | 51 => ⟨S16384x1024, .f32⟩
  | 52 => ⟨S16384x1024, .f32⟩
  | 53 => ⟨S16384x1024, .f32⟩
  | 54 => ⟨S16384x1024, .f32⟩
  | 55 => ⟨S16384x1024, .f32⟩
  | 56 => ⟨S16384x1024, .f32⟩
  | _ => ⟨S16384x768, .f32⟩

abbrev hbmTy (i : Nat) : BufTy := match i / 128 with
  | 0 => hbmTy0_0 i
  | 1 => hbmTy0_1 i
  | _ => ⟨S16384x768, .f32⟩

abbrev bufTy : (tb : Table) → Fin (tcTables nBuf tb) → BufTy
  | .hbm, ⟨i, _⟩ => hbmTy i
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_cst : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_cst_0 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst_1 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_2 : Ref sig .tc := ⟨.hbm, 61, rfl⟩
abbrev main_v33 : Ref sig .tc := ⟨.hbm, 62, rfl⟩
abbrev main_v34 : Ref sig .tc := ⟨.hbm, 63, rfl⟩
abbrev main_cst_3 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_4 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_5 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_6 : Ref sig .tc := ⟨.hbm, 101, rfl⟩
abbrev main_v69 : Ref sig .tc := ⟨.hbm, 102, rfl⟩
abbrev main_v70 : Ref sig .tc := ⟨.hbm, 103, rfl⟩
abbrev main_cst_7 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_8 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_9 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_cst_10 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_cst_11 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_cst_12 : Ref sig .tc := ⟨.hbm, 174, rfl⟩
abbrev main_v136 : Ref sig .tc := ⟨.hbm, 175, rfl⟩
abbrev main_v137 : Ref sig .tc := ⟨.hbm, 176, rfl⟩
abbrev main_cst_13 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩

abbrev nD : Nat := 1
abbrev τ : Topo := Topo.v7x

variable {F : FTy → Type} [FloatOps F]

class Facts₀ : Prop where
  bcast_S_S16384x256 : S_.BroadcastsInDim S16384x256 (![] : Fin 0 → Fin S16384x256.rank)
  bcast_S1x768_S16384x768_0_1 : S1x768.BroadcastsInDim S16384x768 (![0, 1] : Fin 2 → Fin S16384x768.rank)
  concatenates_S16384x768_S16384x256_S16384x1024_d1 : Shape.Concatenates [S16384x768, S16384x256] S16384x1024 1
  bcast_S1x1024_S16384x1024_0_1 : S1x1024.BroadcastsInDim S16384x1024 (![0, 1] : Fin 2 → Fin S16384x1024.rank)
  slices_S64x1024_S64x768_0_0 : S64x1024.Slices ![0, 0] S64x768
  transposes_S64x768_S768x64_1_0 : S64x768.Transposes [1, 0] S768x64
  reducesTo_S768x64_S768_d1 : S768x64.ReducesTo [1] S768
  h_S_ : 0 < S_.numel
  transposes_S64x1024_S1024x64_1_0 : S64x1024.Transposes [1, 0] S1024x64
  reducesTo_S1024x64_S1024_d1 : S1024x64.ReducesTo [1] S1024
  bcast_S768_S1x768_1 : S768.BroadcastsInDim S1x768 (![1] : Fin 1 → Fin S1x768.rank)
  bcast_S1024_S1x1024_1 : S1024.BroadcastsInDim S1x1024 (![1] : Fin 1 → Fin S1x1024.rank)
  bcast_S_S16384x1024 : S_.BroadcastsInDim S16384x1024 (![] : Fin 0 → Fin S16384x1024.rank)
  dot_S16384x768_S768x64_S16384x64_1_0_0_1_n_n_wf : DotDims.WF S16384x768 S768x64 S16384x64 [1] [0] [0] [1] [] []
  dot_S16384x64_S64x1024_S16384x1024_1_0_0_1_n_n_wf : DotDims.WF S16384x64 S64x1024 S16384x1024 [1] [0] [0] [1] [] []
  dot_S16384x1024_S1024x64_S16384x64_1_0_0_1_n_n_wf : DotDims.WF S16384x1024 S1024x64 S16384x64 [1] [0] [0] [1] [] []

variable [Facts₀]

def dot_S16384x768_S768x64_S16384x64_1_0_0_1_n_n : DotDims S16384x768 S768x64 S16384x64 where
  lhsContracting := [1]
  rhsContracting := [0]
  lhsNonContracting := [0]
  rhsNonContracting := [1]
  lhsBatch := []
  rhsBatch := []
  wf := dot_S16384x768_S768x64_S16384x64_1_0_0_1_n_n_wf
def dot_S16384x64_S64x1024_S16384x1024_1_0_0_1_n_n : DotDims S16384x64 S64x1024 S16384x1024 where
  lhsContracting := [1]
  rhsContracting := [0]
  lhsNonContracting := [0]
  rhsNonContracting := [1]
  lhsBatch := []
  rhsBatch := []
  wf := dot_S16384x64_S64x1024_S16384x1024_1_0_0_1_n_n_wf
def dot_S16384x1024_S1024x64_S16384x64_1_0_0_1_n_n : DotDims S16384x1024 S1024x64 S16384x64 where
  lhsContracting := [1]
  rhsContracting := [0]
  lhsNonContracting := [0]
  rhsNonContracting := [1]
  lhsBatch := []
  rhsBatch := []
  wf := dot_S16384x1024_S1024x64_S16384x64_1_0_0_1_n_n_wf

class Facts : Prop extends Facts₀ where

variable [Facts]
-- ==== Proof.KFrameBase.lean ====
/-
  The program up to its one pipelined region, and the frame read off a run of the region.

  The host lines before the region compute, from the argument arrays, the operands the kernel is handed beside x, h and c:
  the four gates' first factors joined side by side, their second factors stacked, and per gate the two diagonal
  correction rows.  None of these lines writes an argument array, so the region finds every argument as launched; the
  region writes only its two result arrays; hence every argument ends unchanged.  Window w's block at grid point t is
  rows 256·t … 256·t+255 of its array for the three batch operands and the two results, and the whole array for the rest.
-/
import proofs.«121209_j33517924778468_2_alg».proof.Proof.Gen.Kernel.Launch
import proofs.«121209_j33517924778468_2_alg».proof.Proof.Gen.Kernel.Skeleton
import proofs.«121209_j33517924778468_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers when the region is entered: the launch contents after the host lines before the region. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

/-- The program is the host lines, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8] (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- No host line writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line writes argument 10. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line writes argument 11. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line writes argument 12. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line writes argument 13. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line writes argument 14. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line writes argument 15. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line writes argument 16. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line writes argument 17. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line writes argument 18. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line writes argument 19. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line writes argument 20. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line writes argument 21. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line writes argument 22. -/
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line writes argument 23. -/
theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line writes argument 24. -/
theorem V_main_arg24 (c : Dev nD) : V m c main_arg24 = m ((c : Thread nD τ).loc main_arg24) :=
  StableHlo.after_of_forall_not_mem (b := Proc.devRef .tc main_arg24) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not, when the body leaves it in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, fetched there or not, when the body leaves it in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, fetched there or not, when the body leaves it in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, fetched there or not, when the body leaves it in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, fetched there or not, when the body leaves it in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, fetched there or not, when the body leaves it in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, fetched there or not, when the body leaves it in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, fetched there or not, when the body leaves it in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, fetched there or not, when the body leaves it in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, fetched there or not, when the body leaves it in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, fetched there or not, when the body leaves it in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, fetched there or not, when the body leaves it in place. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, fetched there or not, when the body leaves it in place. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, fetched there or not, when the body leaves it in place. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, fetched there or not, when the body leaves it in place. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, fetched there or not, when the body leaves it in place. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, fetched there or not, when the body leaves it in place. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, fetched there or not, when the body leaves it in place. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, fetched there or not, when the body leaves it in place. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, fetched there or not, when the body leaves it in place. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, fetched there or not, when the body leaves it in place. -/
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)

/-- The frame from a run of the region: an argument a window stages is read back through its window (an input's array
    is never written), any other argument is among the buffers the region passes by; each is then its launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).1 9).trans (((dats 0 c).arrAt_in 9 rfl _).trans ((hA c 9).trans (V_main_arg19 m c))),
      ((h c).1 10).trans (((dats 0 c).arrAt_in 10 rfl _).trans ((hA c 10).trans (V_main_arg20 m c))),
      ((h c).1 11).trans (((dats 0 c).arrAt_in 11 rfl _).trans ((hA c 11).trans (V_main_arg21 m c))),
      ((h c).1 12).trans (((dats 0 c).arrAt_in 12 rfl _).trans ((hA c 12).trans (V_main_arg22 m c))),
      ((h c).2 main_arg23 (Pipeline.mem_restRefs_of main_arg23 (by decide) (by decide))).trans (V_main_arg23 m c),
      ((h c).2 main_arg24 (Pipeline.mem_restRefs_of main_arg24 (by decide) (by decide))).trans (V_main_arg24 m c)⟩) h

end Cert.Kernel.Hand

end
-- ==== Proof.KVals.lean ====
/-
  The values the kernel body stores, named as functions of the 21 input blocks it loads whole: the zero-padded x, the two
  low-rank projections (all four gates at once, 256 columns), per gate the pre-activation
      xpad · dW + h · dU + bias + [x_low | h_low] · [Wv ; Uv],
  then c' = σ(f)·c + σ(i)·tanh(g) and h' = σ(o)·tanh(c'), with σ(z) = 1/2·tanh(z/2) + 1/2; and each result's staging
  buffer after the body, which is its one whole-block store.
-/
import proofs.«121209_j33517924778468_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
abbrev rX : Rect S256x768 := Rect.unit (s := S256x768) ![0, 0] S256x768.size inb_S256x768_S256x768_0_0
abbrev rH : Rect S256x1024 := Rect.unit (s := S256x1024) ![0, 0] S256x1024.size inb_S256x1024_S256x1024_0_0
abbrev rWu : Rect S768x256 := Rect.unit (s := S768x256) ![0, 0] S768x256.size inb_S768x256_S768x256_0_0
abbrev rUu : Rect S1024x256 := Rect.unit (s := S1024x256) ![0, 0] S1024x256.size inb_S1024x256_S1024x256_0_0
abbrev rWU : Rect S128x1024 := Rect.unit (s := S128x1024) ![0, 0] S128x1024.size inb_S128x1024_S128x1024_0_0
abbrev rRow : Rect S1x1024 := Rect.unit (s := S1x1024) ![0, 0] S1x1024.size inb_S1x1024_S1x1024_0_0

section Values
variable (x0 : Vec F S256x768 .f32) (x1 : Vec F S256x1024 .f32) (x2 : Vec F S256x1024 .f32) (x3 : Vec F S768x256 .bf16) (x4 : Vec F S1024x256 .bf16) (x5 : Vec F S128x1024 .bf16) (x6 : Vec F S128x1024 .bf16) (x7 : Vec F S128x1024 .bf16) (x8 : Vec F S128x1024 .bf16) (x9 : Vec F S1x1024 .f32) (x10 : Vec F S1x1024 .f32) (x11 : Vec F S1x1024 .f32) (x12 : Vec F S1x1024 .f32) (x13 : Vec F S1x1024 .f32) (x14 : Vec F S1x1024 .f32) (x15 : Vec F S1x1024 .f32) (x16 : Vec F S1x1024 .f32) (x17 : Vec F S1x1024 .f32) (x18 : Vec F S1x1024 .f32) (x19 : Vec F S1x1024 .f32) (x20 : Vec F S1x1024 .f32)

/-- x with 256 zero columns appended. -/
def xpad : FVec F S256x1024 .f32 := k0_pay1 (View.ld x0 rX)
/-- x's low-rank projection, the four gates side by side. -/
def xproj : FVec F S256x256 .bf16 := k0_pay2 (View.ld x0 rX) (View.ld x3 rWu)
/-- h's low-rank projection, the four gates side by side. -/
def hproj : FVec F S256x256 .bf16 := k0_pay3 (View.ld x1 rH) (View.ld x4 rUu)
/-- The forget gate's pre-activation. -/
def preF : FVec F S256x1024 .f32 := k0_pay4 (View.ld x0 rX) (View.ld x1 rH) (View.ld x3 rWu) (View.ld x4 rUu) (View.ld x5 rWU) (View.ld x13 rRow) (View.ld x17 rRow) (View.ld x9 rRow)
/-- The input gate's stacked low-rank rows. -/
def lowI : FVec F S256x128 .bf16 := k0_pay5 (View.ld x0 rX) (View.ld x1 rH) (View.ld x3 rWu) (View.ld x4 rUu)
/-- The input gate's pre-activation. -/
def preI : FVec F S256x1024 .f32 := k0_pay6 (View.ld x1 rH) (xpad x0) (lowI x0 x1 x3 x4) (View.ld x6 rWU) (View.ld x14 rRow) (View.ld x18 rRow) (View.ld x10 rRow)
/-- The candidate's pre-activation. -/
def preG : FVec F S256x1024 .f32 := k0_pay7 (View.ld x1 rH) (xpad x0) (xproj x0 x3) (hproj x1 x4) (View.ld x7 rWU) (View.ld x15 rRow) (View.ld x19 rRow) (View.ld x11 rRow)
/-- The output gate's stacked low-rank rows. -/
def lowO : FVec F S256x128 .bf16 := k0_pay8 (xproj x0 x3) (hproj x1 x4)
/-- The new cell block. -/
def cNext : FVec F S256x1024 .f32 :=
  k0_pay10 (View.ld x2 rH) (preF x0 x1 x3 x4 x5 x9 x13 x17) (preI x0 x1 x3 x4 x6 x10 x14 x18) (preG x0 x1 x3 x4 x7 x11 x15 x19)
/-- The new hidden block. -/
def hNext : FVec F S256x1024 .f32 :=
  k0_pay11 (View.ld x1 rH) (View.ld x2 rH) (xpad x0) (preF x0 x1 x3 x4 x5 x9 x13 x17) (preI x0 x1 x3 x4 x6 x10 x14 x18) (preG x0 x1 x3 x4 x7 x11 x15 x19)
    (lowO x0 x1 x3 x4) (k0_pay9 (View.ld x8 rWU)) (View.ld x16 rRow) (View.ld x20 rRow) (View.ld x12 rRow)

/-- The hidden result's staging buffer after the body: its one store. -/
def out0_21 : Vec F S256x1024 .f32 :=
  View.canon [⟨rH, hNext x0 x1 x2 x3 x4 x5 x6 x7 x8 x9 x10 x11 x12 x13 x14 x15 x16 x17 x18 x19 x20⟩]
/-- The cell result's staging buffer after the body: its one store. -/
def out0_22 : Vec F S256x1024 .f32 :=
  View.canon [⟨rH, cNext x0 x1 x2 x3 x4 x5 x6 x7 x9 x10 x11 x13 x14 x15 x17 x18 x19⟩]

end Values

/-- A whole-block store covers the buffer. -/
theorem cover0 (p0 : Vec F S256x1024 .f32) (y : S256x1024.Idx) :
    ∃ pc ∈ ([⟨rH, p0⟩] : List (View.Piece (Elt F) S256x1024 .f32)), y ∈ pc.1.set :=
  View.cover_of_tiled [⟨rH, p0⟩] S256x1024.size (by rfl) y

end Cert.Kernel.Hand

end
-- ==== Proof.KFrameBody.lean ====
/-
  One run of the kernel body on whole staging buffers.

  The body loads the 21 input blocks whole, computes, and stores the new hidden block and the new cell block whole.
  The values it stores are named here as functions of the 21 loaded blocks: the zero-padded x, the two low-rank
  projections (all four gates at once, 256 columns), per gate the pre-activation
      xpad · dW + h · dU + bias + [x_low | h_low] · [Wv ; Uv],
  then c' = σ(f)·c + σ(i)·tanh(g) and h' = σ(o)·tanh(c'), with σ(z) = 1/2·tanh(z/2) + 1/2.
-/
import proofs.«121209_j33517924778468_2_alg».proof.Proof.Gen.Kernel.Launch
import proofs.«121209_j33517924778468_2_alg».proof.Proof.Gen.Kernel.Skeleton
import proofs.«121209_j33517924778468_2_alg».proof.Proof.Gen.Kernel.Points
import proofs.«121209_j33517924778468_2_alg».proof.Proof.KVals
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
set_option maxHeartbeats 4000000 in
/-- The body on whole staging buffers, the inputs' at contents x_w and the results' at anything, reaches its continuation
    with the inputs' as they were and the results' at the stored values. -/
theorem sound_kernel (c : Dev nD) (E : Set ℕ) (i : grid0.Coords) (arg1 : Memref sig .tc .vmem S256x768 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S768x256 .bf16) (harg4 : arg4.IsWhole) (arg5 : Memref sig .tc .vmem S1024x256 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S256x1024 .f32) (harg22 : arg22.IsWhole) (arg23 : Memref sig .tc .vmem S256x1024 .f32) (harg23 : arg23.IsWhole)
    (x0 : Vec F S256x768 .f32) (x1 : Vec F S256x1024 .f32) (x2 : Vec F S256x1024 .f32) (x3 : Vec F S768x256 .bf16) (x4 : Vec F S1024x256 .bf16) (x5 : Vec F S128x1024 .bf16) (x6 : Vec F S128x1024 .bf16) (x7 : Vec F S128x1024 .bf16) (x8 : Vec F S128x1024 .bf16) (x9 : Vec F S1x1024 .f32) (x10 : Vec F S1x1024 .f32) (x11 : Vec F S1x1024 .f32) (x12 : Vec F S1x1024 .f32) (x13 : Vec F S1x1024 .f32) (x14 : Vec F S1x1024 .f32) (x15 : Vec F S1x1024 .f32) (x16 : Vec F S1x1024 .f32) (x17 : Vec F S1x1024 .f32) (x18 : Vec F S1x1024 .f32) (x19 : Vec F S1x1024 .f32) (x20 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ d, owns (c : Thread nD τ) arg22 fullShare d) ∗ (∃ d, owns (c : Thread nD τ) arg23 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare (out0_21 x0 x1 x2 x3 x4 x5 x6 x7 x8 x9 x10 x11 x12 x13 x14 x15 x16 x17 x18 x19 x20) ∗ owns (c : Thread nD τ) arg23 fullShare (out0_22 x0 x1 x2 x3 x4 x5 x6 x7 x9 x10 x11 x13 x14 x15 x17 x18 x19)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0__lstm_kernel_eq_skeleton]; unfold cc0__lstm_kernel_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%d22, %f22, -, H22⟩, Hk⟩
  subst hf0 hf1 hf2 hf3 hf4 hf5 hf6 hf7 hf8 hf9 hf10 hf11 hf12 hf13 hf14 hf15 hf16 hf17 hf18 hf19 hf20
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists _; isplitr
    swap; · iexact H21
    ipureintro
    try dsimp only
    exact View.read_writes_eq_canon _ _ _ (cover0 _)
  iexists _; isplitr
  swap; · iexact H22
  ipureintro
  try dsimp only
  exact View.read_writes_eq_canon _ _ _ (cover0 _)

end Cert.Kernel.Hand

end
-- ==== Proof.KFrameRun.lean ====
/-
  The region's run: at every grid point the body finds each input window's block in its staging buffer and leaves the
  two results' blocks computed from them; the library's launch theorem then gives the whole program's run, with each
  result array assembled from the blocks written back, and the frame.
-/
import proofs.«121209_j33517924778468_2_alg».proof.Proof.KFrameBase
import proofs.«121209_j33517924778468_2_alg».proof.Proof.KFrameBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the pipeline on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨22, _⟩ => out0_22 (iblk m c 0 t) (iblk m c 1 t) (iblk m c 2 t) (iblk m c 3 t) (iblk m c 4 t) (iblk m c 5 t) (iblk m c 6 t) (iblk m c 7 t) (iblk m c 9 t) (iblk m c 10 t) (iblk m c 11 t) (iblk m c 13 t) (iblk m c 14 t) (iblk m c 15 t) (iblk m c 17 t) (iblk m c 18 t) (iblk m c 19 t)
    | ⟨_ + 23, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 9 t) (iblk m c 10 t) (iblk m c 11 t) (iblk m c 13 t) (iblk m c 14 t) (iblk m c 15 t) (iblk m c 17 t) (iblk m c 18 t) (iblk m c 19 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  isplitl [H22]; · iexists _; iexact H22
  iintro ⟨H0, H1, H2, H3, H4, H5, H6, H7, H8, H9, H10, H11, H12, H13, H14, H15, H16, H17, H18, H19, H20, H21, H22⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the program terminates, and ends with every array of the pipeline at what the blocks
    written back make of it and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, faults nowhere, and leaves its 25 argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  frame_of m ρ (dats m) (A_eq m) (run_main m ρ)

end Cert.Kernel.Hand

end
-- ==== Proof.KIFrameBase.lean ====
/-
  The program up to its one pipelined region, and the frame read off a run of the region.

  The host lines before the region compute, from the argument arrays, the operands the kernel is handed beside x, h and c:
  the four gates' first factors joined side by side, their second factors stacked, and per gate the two diagonal
  correction rows.  None of these lines writes an argument array, so the region finds every argument as launched; the
  region writes only its two result arrays; hence every argument ends unchanged.  Window w's block at grid point t is
  rows 256·t … 256·t+255 of its array for the three batch operands and the two results, and the whole array for the rest.
-/
import proofs.«121209_j33517924778468_2_alg».proof.Proof.Gen.KernelIdeal.Launch
import proofs.«121209_j33517924778468_2_alg».proof.Proof.Gen.KernelIdeal.Skeleton
import proofs.«121209_j33517924778468_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers when the region is entered: the launch contents after the host lines before the region. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

/-- The program is the host lines, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8] (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- No host line writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line writes argument 10. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line writes argument 11. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line writes argument 12. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line writes argument 13. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line writes argument 14. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line writes argument 15. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line writes argument 16. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line writes argument 17. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line writes argument 18. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line writes argument 19. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line writes argument 20. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line writes argument 21. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line writes argument 22. -/
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line writes argument 23. -/
theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line writes argument 24. -/
theorem V_main_arg24 (c : Dev nD) : V m c main_arg24 = m ((c : Thread nD τ).loc main_arg24) :=
  StableHlo.after_of_forall_not_mem (b := Proc.devRef .tc main_arg24) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not, when the body leaves it in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, fetched there or not, when the body leaves it in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, fetched there or not, when the body leaves it in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, fetched there or not, when the body leaves it in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, fetched there or not, when the body leaves it in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, fetched there or not, when the body leaves it in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, fetched there or not, when the body leaves it in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, fetched there or not, when the body leaves it in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, fetched there or not, when the body leaves it in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, fetched there or not, when the body leaves it in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, fetched there or not, when the body leaves it in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, fetched there or not, when the body leaves it in place. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, fetched there or not, when the body leaves it in place. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, fetched there or not, when the body leaves it in place. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, fetched there or not, when the body leaves it in place. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, fetched there or not, when the body leaves it in place. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, fetched there or not, when the body leaves it in place. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, fetched there or not, when the body leaves it in place. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, fetched there or not, when the body leaves it in place. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, fetched there or not, when the body leaves it in place. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, fetched there or not, when the body leaves it in place. -/
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)

/-- The frame from a run of the region: an argument a window stages is read back through its window (an input's array
    is never written), any other argument is among the buffers the region passes by; each is then its launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).1 9).trans (((dats 0 c).arrAt_in 9 rfl _).trans ((hA c 9).trans (V_main_arg19 m c))),
      ((h c).1 10).trans (((dats 0 c).arrAt_in 10 rfl _).trans ((hA c 10).trans (V_main_arg20 m c))),
      ((h c).1 11).trans (((dats 0 c).arrAt_in 11 rfl _).trans ((hA c 11).trans (V_main_arg21 m c))),
      ((h c).1 12).trans (((dats 0 c).arrAt_in 12 rfl _).trans ((hA c 12).trans (V_main_arg22 m c))),
      ((h c).2 main_arg23 (Pipeline.mem_restRefs_of main_arg23 (by decide) (by decide))).trans (V_main_arg23 m c),
      ((h c).2 main_arg24 (Pipeline.mem_restRefs_of main_arg24 (by decide) (by decide))).trans (V_main_arg24 m c)⟩) h

end Cert.KernelIdeal.Hand

end
-- ==== Proof.KIVals.lean ====
/-
  The values the kernel body stores, named as functions of the 21 input blocks it loads whole: the zero-padded x, the two
  low-rank projections (all four gates at once, 256 columns), per gate the pre-activation
      xpad · dW + h · dU + bias + [x_low | h_low] · [Wv ; Uv],
  then c' = σ(f)·c + σ(i)·tanh(g) and h' = σ(o)·tanh(c'), with σ(z) = 1/2·tanh(z/2) + 1/2; and each result's staging
  buffer after the body, which is its one whole-block store.
-/
import proofs.«121209_j33517924778468_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
abbrev rX : Rect S256x768 := Rect.unit (s := S256x768) ![0, 0] S256x768.size inb_S256x768_S256x768_0_0
abbrev rH : Rect S256x1024 := Rect.unit (s := S256x1024) ![0, 0] S256x1024.size inb_S256x1024_S256x1024_0_0
abbrev rWu : Rect S768x256 := Rect.unit (s := S768x256) ![0, 0] S768x256.size inb_S768x256_S768x256_0_0
abbrev rUu : Rect S1024x256 := Rect.unit (s := S1024x256) ![0, 0] S1024x256.size inb_S1024x256_S1024x256_0_0
abbrev rWU : Rect S128x1024 := Rect.unit (s := S128x1024) ![0, 0] S128x1024.size inb_S128x1024_S128x1024_0_0
abbrev rRow : Rect S1x1024 := Rect.unit (s := S1x1024) ![0, 0] S1x1024.size inb_S1x1024_S1x1024_0_0

section Values
variable (x0 : Vec F S256x768 .f32) (x1 : Vec F S256x1024 .f32) (x2 : Vec F S256x1024 .f32) (x3 : Vec F S768x256 .bf16) (x4 : Vec F S1024x256 .bf16) (x5 : Vec F S128x1024 .bf16) (x6 : Vec F S128x1024 .bf16) (x7 : Vec F S128x1024 .bf16) (x8 : Vec F S128x1024 .bf16) (x9 : Vec F S1x1024 .f32) (x10 : Vec F S1x1024 .f32) (x11 : Vec F S1x1024 .f32) (x12 : Vec F S1x1024 .f32) (x13 : Vec F S1x1024 .f32) (x14 : Vec F S1x1024 .f32) (x15 : Vec F S1x1024 .f32) (x16 : Vec F S1x1024 .f32) (x17 : Vec F S1x1024 .f32) (x18 : Vec F S1x1024 .f32) (x19 : Vec F S1x1024 .f32) (x20 : Vec F S1x1024 .f32)

/-- x with 256 zero columns appended. -/
def xpad : FVec F S256x1024 .f32 := k0_pay1 (View.ld x0 rX)
/-- x's low-rank projection, the four gates side by side. -/
def xproj : FVec F S256x256 .bf16 := k0_pay2 (View.ld x0 rX) (View.ld x3 rWu)
/-- h's low-rank projection, the four gates side by side. -/
def hproj : FVec F S256x256 .bf16 := k0_pay3 (View.ld x1 rH) (View.ld x4 rUu)
/-- The forget gate's pre-activation. -/
def preF : FVec F S256x1024 .f32 := k0_pay4 (View.ld x0 rX) (View.ld x1 rH) (View.ld x3 rWu) (View.ld x4 rUu) (View.ld x5 rWU) (View.ld x13 rRow) (View.ld x17 rRow) (View.ld x9 rRow)
/-- The input gate's stacked low-rank rows. -/
def lowI : FVec F S256x128 .bf16 := k0_pay5 (View.ld x0 rX) (View.ld x1 rH) (View.ld x3 rWu) (View.ld x4 rUu)
/-- The input gate's pre-activation. -/
def preI : FVec F S256x1024 .f32 := k0_pay6 (View.ld x1 rH) (xpad x0) (lowI x0 x1 x3 x4) (View.ld x6 rWU) (View.ld x14 rRow) (View.ld x18 rRow) (View.ld x10 rRow)
/-- The candidate's pre-activation. -/
def preG : FVec F S256x1024 .f32 := k0_pay7 (View.ld x1 rH) (xpad x0) (xproj x0 x3) (hproj x1 x4) (View.ld x7 rWU) (View.ld x15 rRow) (View.ld x19 rRow) (View.ld x11 rRow)
/-- The output gate's stacked low-rank rows. -/
def lowO : FVec F S256x128 .bf16 := k0_pay8 (xproj x0 x3) (hproj x1 x4)
/-- The new cell block. -/
def cNext : FVec F S256x1024 .f32 :=
  k0_pay10 (View.ld x2 rH) (preF x0 x1 x3 x4 x5 x9 x13 x17) (preI x0 x1 x3 x4 x6 x10 x14 x18) (preG x0 x1 x3 x4 x7 x11 x15 x19)
/-- The new hidden block. -/
def hNext : FVec F S256x1024 .f32 :=
  k0_pay11 (View.ld x1 rH) (View.ld x2 rH) (xpad x0) (preF x0 x1 x3 x4 x5 x9 x13 x17) (preI x0 x1 x3 x4 x6 x10 x14 x18) (preG x0 x1 x3 x4 x7 x11 x15 x19)
    (lowO x0 x1 x3 x4) (k0_pay9 (View.ld x8 rWU)) (View.ld x16 rRow) (View.ld x20 rRow) (View.ld x12 rRow)

/-- The hidden result's staging buffer after the body: its one store. -/
def out0_21 : Vec F S256x1024 .f32 :=
  View.canon [⟨rH, hNext x0 x1 x2 x3 x4 x5 x6 x7 x8 x9 x10 x11 x12 x13 x14 x15 x16 x17 x18 x19 x20⟩]
/-- The cell result's staging buffer after the body: its one store. -/
def out0_22 : Vec F S256x1024 .f32 :=
  View.canon [⟨rH, cNext x0 x1 x2 x3 x4 x5 x6 x7 x9 x10 x11 x13 x14 x15 x17 x18 x19⟩]

end Values

/-- A whole-block store covers the buffer. -/
theorem cover0 (p0 : Vec F S256x1024 .f32) (y : S256x1024.Idx) :
    ∃ pc ∈ ([⟨rH, p0⟩] : List (View.Piece (Elt F) S256x1024 .f32)), y ∈ pc.1.set :=
  View.cover_of_tiled [⟨rH, p0⟩] S256x1024.size (by rfl) y

end Cert.KernelIdeal.Hand

end
-- ==== Proof.KIFrameBody.lean ====
/-
  One run of the kernel body on whole staging buffers.

  The body loads the 21 input blocks whole, computes, and stores the new hidden block and the new cell block whole.
  The values it stores are named here as functions of the 21 loaded blocks: the zero-padded x, the two low-rank
  projections (all four gates at once, 256 columns), per gate the pre-activation
      xpad · dW + h · dU + bias + [x_low | h_low] · [Wv ; Uv],
  then c' = σ(f)·c + σ(i)·tanh(g) and h' = σ(o)·tanh(c'), with σ(z) = 1/2·tanh(z/2) + 1/2.
-/
import proofs.«121209_j33517924778468_2_alg».proof.Proof.Gen.KernelIdeal.Launch
import proofs.«121209_j33517924778468_2_alg».proof.Proof.Gen.KernelIdeal.Skeleton
import proofs.«121209_j33517924778468_2_alg».proof.Proof.Gen.KernelIdeal.Points
import proofs.«121209_j33517924778468_2_alg».proof.Proof.KIVals
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
set_option maxHeartbeats 4000000 in
/-- The body on whole staging buffers, the inputs' at contents x_w and the results' at anything, reaches its continuation
    with the inputs' as they were and the results' at the stored values. -/
theorem sound_kernel (c : Dev nD) (E : Set ℕ) (i : grid0.Coords) (arg1 : Memref sig .tc .vmem S256x768 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S768x256 .bf16) (harg4 : arg4.IsWhole) (arg5 : Memref sig .tc .vmem S1024x256 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S256x1024 .f32) (harg22 : arg22.IsWhole) (arg23 : Memref sig .tc .vmem S256x1024 .f32) (harg23 : arg23.IsWhole)
    (x0 : Vec F S256x768 .f32) (x1 : Vec F S256x1024 .f32) (x2 : Vec F S256x1024 .f32) (x3 : Vec F S768x256 .bf16) (x4 : Vec F S1024x256 .bf16) (x5 : Vec F S128x1024 .bf16) (x6 : Vec F S128x1024 .bf16) (x7 : Vec F S128x1024 .bf16) (x8 : Vec F S128x1024 .bf16) (x9 : Vec F S1x1024 .f32) (x10 : Vec F S1x1024 .f32) (x11 : Vec F S1x1024 .f32) (x12 : Vec F S1x1024 .f32) (x13 : Vec F S1x1024 .f32) (x14 : Vec F S1x1024 .f32) (x15 : Vec F S1x1024 .f32) (x16 : Vec F S1x1024 .f32) (x17 : Vec F S1x1024 .f32) (x18 : Vec F S1x1024 .f32) (x19 : Vec F S1x1024 .f32) (x20 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ d, owns (c : Thread nD τ) arg22 fullShare d) ∗ (∃ d, owns (c : Thread nD τ) arg23 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare (out0_21 x0 x1 x2 x3 x4 x5 x6 x7 x8 x9 x10 x11 x12 x13 x14 x15 x16 x17 x18 x19 x20) ∗ owns (c : Thread nD τ) arg23 fullShare (out0_22 x0 x1 x2 x3 x4 x5 x6 x7 x9 x10 x11 x13 x14 x15 x17 x18 x19)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0__lstm_kernel_eq_skeleton]; unfold cc0__lstm_kernel_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%d22, %f22, -, H22⟩, Hk⟩
  subst hf0 hf1 hf2 hf3 hf4 hf5 hf6 hf7 hf8 hf9 hf10 hf11 hf12 hf13 hf14 hf15 hf16 hf17 hf18 hf19 hf20
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists _; isplitr
    swap; · iexact H21
    ipureintro
    try dsimp only
    exact View.read_writes_eq_canon _ _ _ (cover0 _)
  iexists _; isplitr
  swap; · iexact H22
  ipureintro
  try dsimp only
  exact View.read_writes_eq_canon _ _ _ (cover0 _)

end Cert.KernelIdeal.Hand

end
-- ==== Proof.KIFrameRun.lean ====
/-
  The region's run: at every grid point the body finds each input window's block in its staging buffer and leaves the
  two results' blocks computed from them; the library's launch theorem then gives the whole program's run, with each
  result array assembled from the blocks written back, and the frame.
-/
import proofs.«121209_j33517924778468_2_alg».proof.Proof.KIFrameBase
import proofs.«121209_j33517924778468_2_alg».proof.Proof.KIFrameBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the pipeline on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨22, _⟩ => out0_22 (iblk m c 0 t) (iblk m c 1 t) (iblk m c 2 t) (iblk m c 3 t) (iblk m c 4 t) (iblk m c 5 t) (iblk m c 6 t) (iblk m c 7 t) (iblk m c 9 t) (iblk m c 10 t) (iblk m c 11 t) (iblk m c 13 t) (iblk m c 14 t) (iblk m c 15 t) (iblk m c 17 t) (iblk m c 18 t) (iblk m c 19 t)
    | ⟨_ + 23, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 9 t) (iblk m c 10 t) (iblk m c 11 t) (iblk m c 13 t) (iblk m c 14 t) (iblk m c 15 t) (iblk m c 17 t) (iblk m c 18 t) (iblk m c 19 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  isplitl [H22]; · iexists _; iexact H22
  iintro ⟨H0, H1, H2, H3, H4, H5, H6, H7, H8, H9, H10, H11, H12, H13, H14, H15, H16, H17, H18, H19, H20, H21, H22⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the program terminates, and ends with every array of the pipeline at what the blocks
    written back make of it and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, faults nowhere, and leaves its 25 argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  frame_of m ρ (dats m) (A_eq m) (run_main m ρ)

end Cert.KernelIdeal.Hand

end
-- ==== Proof.KIBlocks.lean ====
/-
  Where each window's block sits in its array.  The grid has 64 points; at point t the three batch operands' and the two
  results' blocks are rows 256·t … 256·t+255 (all columns), and every other operand's block is its whole array at every
  point.  So an input block read at (p, i) is the array at (256·t + p, i), or at (p, i) itself; and every index (r, q) of a
  result array lies in the block of exactly the point t = r / 256, which writes it back.
-/
import proofs.«121209_j33517924778468_2_alg».proof.Proof.KIFrameBase
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ)

theorem hz : (![0, 0] : Fin 2 → Nat) = fun _ => 0 := funext fun a => by fin_cases a <;> rfl

/-- The batch windows' index maps over the grid: block row t, block column 0. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_21.index t (0 : Fin 2) = t.val ∧ win0_21.index t (1 : Fin 2) = 0
    ∧ win0_22.index t (0 : Fin 2) = t.val ∧ win0_22.index t (1 : Fin 2) = 0 :=
  (by decide +kernel : ∀ t : Fin grid0.N, _)

/-- The other windows' index maps over the grid: block (0, 0) at every point. -/
theorem idx_whole : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0
    ∧ win0_15.index t (0 : Fin 2) = 0 ∧ win0_15.index t (1 : Fin 2) = 0
    ∧ win0_16.index t (0 : Fin 2) = 0 ∧ win0_16.index t (1 : Fin 2) = 0
    ∧ win0_17.index t (0 : Fin 2) = 0 ∧ win0_17.index t (1 : Fin 2) = 0
    ∧ win0_18.index t (0 : Fin 2) = 0 ∧ win0_18.index t (1 : Fin 2) = 0
    ∧ win0_19.index t (0 : Fin 2) = 0 ∧ win0_19.index t (1 : Fin 2) = 0
    ∧ win0_20.index t (0 : Fin 2) = 0 ∧ win0_20.index t (1 : Fin 2) = 0 :=
  (by decide +kernel : ∀ t : Fin grid0.N, _)

/-- Batch window 0's block at point t embeds (p, i) at (256·t + p, i). -/
theorem embIn0 (t : Fin cfg0.N) (p : Fin 256) (i : Fin 768) (r : Fin 16384) (hr : r.val = 256 * t.val + p.val) :
    ((cfg0.win 0).blk t).view.emb (ix2 p i) = ix2 r i := by
  obtain ⟨e0_0, e0_1, e1_0, e1_1, e2_0, e2_1, e21_0, e21_1, e22_0, e22_1⟩ := idx_rows t
  funext a; apply Fin.ext
  match a with
  | ⟨0, _⟩ => show win0_0.index t (0 : Fin 2) * 256 + 1 * p.val = r.val; omega
  | ⟨1, _⟩ => show win0_0.index t (1 : Fin 2) * 768 + 1 * i.val = i.val; omega
/-- Batch window 0's block at point t, read at (p, i), is the argument at (256·t + p, i). -/
theorem iblk0_at (c : Dev nD) (t : Fin cfg0.N) (p : Fin 256) (i : Fin 768) (r : Fin 16384) (hr : r.val = 256 * t.val + p.val) :
    iblk m c 0 t (ix2 p i) = m ((c : Thread nD τ).loc main_arg0) (ix2 r i) := by
  unfold iblk
  show V m c main_arg0 (((cfg0.win 0).blk t).view.emb (ix2 p i)) = _
  rw [embIn0 t p i r hr]
  exact congrFun (V_main_arg0 m c) (ix2 r i)
/-- Batch window 1's block at point t embeds (p, i) at (256·t + p, i). -/
theorem embIn1 (t : Fin cfg0.N) (p : Fin 256) (i : Fin 1024) (r : Fin 16384) (hr : r.val = 256 * t.val + p.val) :
    ((cfg0.win 1).blk t).view.emb (ix2 p i) = ix2 r i := by
  obtain ⟨e0_0, e0_1, e1_0, e1_1, e2_0, e2_1, e21_0, e21_1, e22_0, e22_1⟩ := idx_rows t
  funext a; apply Fin.ext
  match a with
  | ⟨0, _⟩ => show win0_1.index t (0 : Fin 2) * 256 + 1 * p.val = r.val; omega
  | ⟨1, _⟩ => show win0_1.index t (1 : Fin 2) * 1024 + 1 * i.val = i.val; omega
/-- Batch window 1's block at point t, read at (p, i), is the argument at (256·t + p, i). -/
theorem iblk1_at (c : Dev nD) (t : Fin cfg0.N) (p : Fin 256) (i : Fin 1024) (r : Fin 16384) (hr : r.val = 256 * t.val + p.val) :
    iblk m c 1 t (ix2 p i) = m ((c : Thread nD τ).loc main_arg1) (ix2 r i) := by
  unfold iblk
  show V m c main_arg1 (((cfg0.win 1).blk t).view.emb (ix2 p i)) = _
  rw [embIn1 t p i r hr]
  exact congrFun (V_main_arg1 m c) (ix2 r i)
/-- Batch window 2's block at point t embeds (p, i) at (256·t + p, i). -/
theorem embIn2 (t : Fin cfg0.N) (p : Fin 256) (i : Fin 1024) (r : Fin 16384) (hr : r.val = 256 * t.val + p.val) :
    ((cfg0.win 2).blk t).view.emb (ix2 p i) = ix2 r i := by
  obtain ⟨e0_0, e0_1, e1_0, e1_1, e2_0, e2_1, e21_0, e21_1, e22_0, e22_1⟩ := idx_rows t
  funext a; apply Fin.ext
  match a with
  | ⟨0, _⟩ => show win0_2.index t (0 : Fin 2) * 256 + 1 * p.val = r.val; omega
  | ⟨1, _⟩ => show win0_2.index t (1 : Fin 2) * 1024 + 1 * i.val = i.val; omega
/-- Batch window 2's block at point t, read at (p, i), is the argument at (256·t + p, i). -/
theorem iblk2_at (c : Dev nD) (t : Fin cfg0.N) (p : Fin 256) (i : Fin 1024) (r : Fin 16384) (hr : r.val = 256 * t.val + p.val) :
    iblk m c 2 t (ix2 p i) = m ((c : Thread nD τ).loc main_arg2) (ix2 r i) := by
  unfold iblk
  show V m c main_arg2 (((cfg0.win 2).blk t).view.emb (ix2 p i)) = _
  rw [embIn2 t p i r hr]
  exact congrFun (V_main_arg2 m c) (ix2 r i)
/-- Window 3's block at every point is the whole array: it embeds (p, i) at (p, i). -/
theorem embIn3 (t : Fin cfg0.N) (p : Fin 768) (i : Fin 256) :
    ((cfg0.win 3).blk t).view.emb (ix2 p i) = ix2 p i := by
  obtain ⟨e3_0, e3_1, e4_0, e4_1, e5_0, e5_1, e6_0, e6_1, e7_0, e7_1, e8_0, e8_1, e9_0, e9_1, e10_0, e10_1, e11_0, e11_1, e12_0, e12_1, e13_0, e13_1, e14_0, e14_1, e15_0, e15_1, e16_0, e16_1, e17_0, e17_1, e18_0, e18_1, e19_0, e19_1, e20_0, e20_1⟩ := idx_whole t
  funext a; apply Fin.ext
  match a with
  | ⟨0, _⟩ => show win0_3.index t (0 : Fin 2) * 768 + 1 * p.val = p.val; omega
  | ⟨1, _⟩ => show win0_3.index t (1 : Fin 2) * 256 + 1 * i.val = i.val; omega
/-- Window 3's block at every point is its whole array as the region finds it. -/
theorem iblk3_at (c : Dev nD) (t : Fin cfg0.N) (p : Fin 768) (i : Fin 256) :
    iblk m c 3 t (ix2 p i) = V m c main_v49 (ix2 p i) := by
  unfold iblk
  show V m c main_v49 (((cfg0.win 3).blk t).view.emb (ix2 p i)) = _
  rw [embIn3 t p i]
/-- Window 4's block at every point is the whole array: it embeds (p, i) at (p, i). -/
theorem embIn4 (t : Fin cfg0.N) (p : Fin 1024) (i : Fin 256) :
    ((cfg0.win 4).blk t).view.emb (ix2 p i) = ix2 p i := by
  obtain ⟨e3_0, e3_1, e4_0, e4_1, e5_0, e5_1, e6_0, e6_1, e7_0, e7_1, e8_0, e8_1, e9_0, e9_1, e10_0, e10_1, e11_0, e11_1, e12_0, e12_1, e13_0, e13_1, e14_0, e14_1, e15_0, e15_1, e16_0, e16_1, e17_0, e17_1, e18_0, e18_1, e19_0, e19_1, e20_0, e20_1⟩ := idx_whole t
  funext a; apply Fin.ext
  match a with
  | ⟨0, _⟩ => show win0_4.index t (0 : Fin 2) * 1024 + 1 * p.val = p.val; omega
  | ⟨1, _⟩ => show win0_4.index t (1 : Fin 2) * 256 + 1 * i.val = i.val; omega
/-- Window 4's block at every point is its whole array as the region finds it. -/
theorem iblk4_at (c : Dev nD) (t : Fin cfg0.N) (p : Fin 1024) (i : Fin 256) :
    iblk m c 4 t (ix2 p i) = V m c main_v51 (ix2 p i) := by
  unfold iblk
  show V m c main_v51 (((cfg0.win 4).blk t).view.emb (ix2 p i)) = _
  rw [embIn4 t p i]
/-- Window 5's block at every point is the whole array: it embeds (p, i) at (p, i). -/
theorem embIn5 (t : Fin cfg0.N) (p : Fin 128) (i : Fin 1024) :
    ((cfg0.win 5).blk t).view.emb (ix2 p i) = ix2 p i := by
  obtain ⟨e3_0, e3_1, e4_0, e4_1, e5_0, e5_1, e6_0, e6_1, e7_0, e7_1, e8_0, e8_1, e9_0, e9_1, e10_0, e10_1, e11_0, e11_1, e12_0, e12_1, e13_0, e13_1, e14_0, e14_1, e15_0, e15_1, e16_0, e16_1, e17_0, e17_1, e18_0, e18_1, e19_0, e19_1, e20_0, e20_1⟩ := idx_whole t
  funext a; apply Fin.ext
  match a with
  | ⟨0, _⟩ => show win0_5.index t (0 : Fin 2) * 128 + 1 * p.val = p.val; omega
  | ⟨1, _⟩ => show win0_5.index t (1 : Fin 2) * 1024 + 1 * i.val = i.val; omega
/-- Window 5's block at every point is its whole array as the region finds it. -/
theorem iblk5_at (c : Dev nD) (t : Fin cfg0.N) (p : Fin 128) (i : Fin 1024) :
    iblk m c 5 t (ix2 p i) = V m c main_v53 (ix2 p i) := by
  unfold iblk
  show V m c main_v53 (((cfg0.win 5).blk t).view.emb (ix2 p i)) = _
  rw [embIn5 t p i]
/-- Window 6's block at every point is the whole array: it embeds (p, i) at (p, i). -/
theorem embIn6 (t : Fin cfg0.N) (p : Fin 128) (i : Fin 1024) :
    ((cfg0.win 6).blk t).view.emb (ix2 p i) = ix2 p i := by
  obtain ⟨e3_0, e3_1, e4_0, e4_1, e5_0, e5_1, e6_0, e6_1, e7_0, e7_1, e8_0, e8_1, e9_0, e9_1, e10_0, e10_1, e11_0, e11_1, e12_0, e12_1, e13_0, e13_1, e14_0, e14_1, e15_0, e15_1, e16_0, e16_1, e17_0, e17_1, e18_0, e18_1, e19_0, e19_1, e20_0, e20_1⟩ := idx_whole t
  funext a; apply Fin.ext
  match a with
  | ⟨0, _⟩ => show win0_6.index t (0 : Fin 2) * 128 + 1 * p.val = p.val; omega
  | ⟨1, _⟩ => show win0_6.index t (1 : Fin 2) * 1024 + 1 * i.val = i.val; omega
/-- Window 6's block at every point is its whole array as the region finds it. -/
theorem iblk6_at (c : Dev nD) (t : Fin cfg0.N) (p : Fin 128) (i : Fin 1024) :
    iblk m c 6 t (ix2 p i) = V m c main_v55 (ix2 p i) := by
  unfold iblk
  show V m c main_v55 (((cfg0.win 6).blk t).view.emb (ix2 p i)) = _
  rw [embIn6 t p i]
/-- Window 7's block at every point is the whole array: it embeds (p, i) at (p, i). -/
theorem embIn7 (t : Fin cfg0.N) (p : Fin 128) (i : Fin 1024) :
    ((cfg0.win 7).blk t).view.emb (ix2 p i) = ix2 p i := by
  obtain ⟨e3_0, e3_1, e4_0, e4_1, e5_0, e5_1, e6_0, e6_1, e7_0, e7_1, e8_0, e8_1, e9_0, e9_1, e10_0, e10_1, e11_0, e11_1, e12_0, e12_1, e13_0, e13_1, e14_0, e14_1, e15_0, e15_1, e16_0, e16_1, e17_0, e17_1, e18_0, e18_1, e19_0, e19_1, e20_0, e20_1⟩ := idx_whole t
  funext a; apply Fin.ext
  match a with
  | ⟨0, _⟩ => show win0_7.index t (0 : Fin 2) * 128 + 1 * p.val = p.val; omega
  | ⟨1, _⟩ => show win0_7.index t (1 : Fin 2) * 1024 + 1 * i.val = i.val; omega
/-- Window 7's block at every point is its whole array as the region finds it. -/
theorem iblk7_at (c : Dev nD) (t : Fin cfg0.N) (p : Fin 128) (i : Fin 1024) :
    iblk m c 7 t (ix2 p i) = V m c main_v57 (ix2 p i) := by
  unfold iblk
  show V m c main_v57 (((cfg0.win 7).blk t).view.emb (ix2 p i)) = _
  rw [embIn7 t p i]
/-- Window 8's block at every point is the whole array: it embeds (p, i) at (p, i). -/
theorem embIn8 (t : Fin cfg0.N) (p : Fin 128) (i : Fin 1024) :
    ((cfg0.win 8).blk t).view.emb (ix2 p i) = ix2 p i := by
  obtain ⟨e3_0, e3_1, e4_0, e4_1, e5_0, e5_1, e6_0, e6_1, e7_0, e7_1, e8_0, e8_1, e9_0, e9_1, e10_0, e10_1, e11_0, e11_1, e12_0, e12_1, e13_0, e13_1, e14_0, e14_1, e15_0, e15_1, e16_0, e16_1, e17_0, e17_1, e18_0, e18_1, e19_0, e19_1, e20_0, e20_1⟩ := idx_whole t
  funext a; apply Fin.ext
  match a with
  | ⟨0, _⟩ => show win0_8.index t (0 : Fin 2) * 128 + 1 * p.val = p.val; omega
  | ⟨1, _⟩ => show win0_8.index t (1 : Fin 2) * 1024 + 1 * i.val = i.val; omega
/-- Window 8's block at every point is its whole array as the region finds it. -/
theorem iblk8_at (c : Dev nD) (t : Fin cfg0.N) (p : Fin 128) (i : Fin 1024) :
    iblk m c 8 t (ix2 p i) = V m c main_v59 (ix2 p i) := by
  unfold iblk
  show V m c main_v59 (((cfg0.win 8).blk t).view.emb (ix2 p i)) = _
  rw [embIn8 t p i]
/-- Window 9's block at every point is the whole array: it embeds (p, i) at (p, i). -/
theorem embIn9 (t : Fin cfg0.N) (p : Fin 1) (i : Fin 1024) :
    ((cfg0.win 9).blk t).view.emb (ix2 p i) = ix2 p i := by
  obtain ⟨e3_0, e3_1, e4_0, e4_1, e5_0, e5_1, e6_0, e6_1, e7_0, e7_1, e8_0, e8_1, e9_0, e9_1, e10_0, e10_1, e11_0, e11_1, e12_0, e12_1, e13_0, e13_1, e14_0, e14_1, e15_0, e15_1, e16_0, e16_1, e17_0, e17_1, e18_0, e18_1, e19_0, e19_1, e20_0, e20_1⟩ := idx_whole t
  funext a; apply Fin.ext
  match a with
  | ⟨0, _⟩ => show win0_9.index t (0 : Fin 2) * 1 + 1 * p.val = p.val; omega
  | ⟨1, _⟩ => show win0_9.index t (1 : Fin 2) * 1024 + 1 * i.val = i.val; omega
/-- Window 9's block at every point is its whole array as the region finds it. -/
theorem iblk9_at (c : Dev nD) (t : Fin cfg0.N) (p : Fin 1) (i : Fin 1024) :
    iblk m c 9 t (ix2 p i) = V m c main_arg19 (ix2 p i) := by
  unfold iblk
  show V m c main_arg19 (((cfg0.win 9).blk t).view.emb (ix2 p i)) = _
  rw [embIn9 t p i]
/-- Window 10's block at every point is the whole array: it embeds (p, i) at (p, i). -/
theorem embIn10 (t : Fin cfg0.N) (p : Fin 1) (i : Fin 1024) :
    ((cfg0.win 10).blk t).view.emb (ix2 p i) = ix2 p i := by
  obtain ⟨e3_0, e3_1, e4_0, e4_1, e5_0, e5_1, e6_0, e6_1, e7_0, e7_1, e8_0, e8_1, e9_0, e9_1, e10_0, e10_1, e11_0, e11_1, e12_0, e12_1, e13_0, e13_1, e14_0, e14_1, e15_0, e15_1, e16_0, e16_1, e17_0, e17_1, e18_0, e18_1, e19_0, e19_1, e20_0, e20_1⟩ := idx_whole t
  funext a; apply Fin.ext
  match a with
  | ⟨0, _⟩ => show win0_10.index t (0 : Fin 2) * 1 + 1 * p.val = p.val; omega
  | ⟨1, _⟩ => show win0_10.index t (1 : Fin 2) * 1024 + 1 * i.val = i.val; omega
/-- Window 10's block at every point is its whole array as the region finds it. -/
theorem iblk10_at (c : Dev nD) (t : Fin cfg0.N) (p : Fin 1) (i : Fin 1024) :
    iblk m c 10 t (ix2 p i) = V m c main_arg20 (ix2 p i) := by
  unfold iblk
  show V m c main_arg20 (((cfg0.win 10).blk t).view.emb (ix2 p i)) = _
  rw [embIn10 t p i]
/-- Window 11's block at every point is the whole array: it embeds (p, i) at (p, i). -/
theorem embIn11 (t : Fin cfg0.N) (p : Fin 1) (i : Fin 1024) :
    ((cfg0.win 11).blk t).view.emb (ix2 p i) = ix2 p i := by
  obtain ⟨e3_0, e3_1, e4_0, e4_1, e5_0, e5_1, e6_0, e6_1, e7_0, e7_1, e8_0, e8_1, e9_0, e9_1, e10_0, e10_1, e11_0, e11_1, e12_0, e12_1, e13_0, e13_1, e14_0, e14_1, e15_0, e15_1, e16_0, e16_1, e17_0, e17_1, e18_0, e18_1, e19_0, e19_1, e20_0, e20_1⟩ := idx_whole t
  funext a; apply Fin.ext
  match a with
  | ⟨0, _⟩ => show win0_11.index t (0 : Fin 2) * 1 + 1 * p.val = p.val; omega
  | ⟨1, _⟩ => show win0_11.index t (1 : Fin 2) * 1024 + 1 * i.val = i.val; omega
/-- Window 11's block at every point is its whole array as the region finds it. -/
theorem iblk11_at (c : Dev nD) (t : Fin cfg0.N) (p : Fin 1) (i : Fin 1024) :
    iblk m c 11 t (ix2 p i) = V m c main_arg21 (ix2 p i) := by
  unfold iblk
  show V m c main_arg21 (((cfg0.win 11).blk t).view.emb (ix2 p i)) = _
  rw [embIn11 t p i]
/-- Window 12's block at every point is the whole array: it embeds (p, i) at (p, i). -/
theorem embIn12 (t : Fin cfg0.N) (p : Fin 1) (i : Fin 1024) :
    ((cfg0.win 12).blk t).view.emb (ix2 p i) = ix2 p i := by
  obtain ⟨e3_0, e3_1, e4_0, e4_1, e5_0, e5_1, e6_0, e6_1, e7_0, e7_1, e8_0, e8_1, e9_0, e9_1, e10_0, e10_1, e11_0, e11_1, e12_0, e12_1, e13_0, e13_1, e14_0, e14_1, e15_0, e15_1, e16_0, e16_1, e17_0, e17_1, e18_0, e18_1, e19_0, e19_1, e20_0, e20_1⟩ := idx_whole t
  funext a; apply Fin.ext
  match a with
  | ⟨0, _⟩ => show win0_12.index t (0 : Fin 2) * 1 + 1 * p.val = p.val; omega
  | ⟨1, _⟩ => show win0_12.index t (1 : Fin 2) * 1024 + 1 * i.val = i.val; omega
/-- Window 12's block at every point is its whole array as the region finds it. -/
theorem iblk12_at (c : Dev nD) (t : Fin cfg0.N) (p : Fin 1) (i : Fin 1024) :
    iblk m c 12 t (ix2 p i) = V m c main_arg22 (ix2 p i) := by
  unfold iblk
  show V m c main_arg22 (((cfg0.win 12).blk t).view.emb (ix2 p i)) = _
  rw [embIn12 t p i]
/-- Window 13's block at every point is the whole array: it embeds (p, i) at (p, i). -/
theorem embIn13 (t : Fin cfg0.N) (p : Fin 1) (i : Fin 1024) :
    ((cfg0.win 13).blk t).view.emb (ix2 p i) = ix2 p i := by
  obtain ⟨e3_0, e3_1, e4_0, e4_1, e5_0, e5_1, e6_0, e6_1, e7_0, e7_1, e8_0, e8_1, e9_0, e9_1, e10_0, e10_1, e11_0, e11_1, e12_0, e12_1, e13_0, e13_1, e14_0, e14_1, e15_0, e15_1, e16_0, e16_1, e17_0, e17_1, e18_0, e18_1, e19_0, e19_1, e20_0, e20_1⟩ := idx_whole t
  funext a; apply Fin.ext
  match a with
  | ⟨0, _⟩ => show win0_13.index t (0 : Fin 2) * 1 + 1 * p.val = p.val; omega
  | ⟨1, _⟩ => show win0_13.index t (1 : Fin 2) * 1024 + 1 * i.val = i.val; omega
/-- Window 13's block at every point is its whole array as the region finds it. -/
theorem iblk13_at (c : Dev nD) (t : Fin cfg0.N) (p : Fin 1) (i : Fin 1024) :
    iblk m c 13 t (ix2 p i) = V m c main_v6 (ix2 p i) := by
  unfold iblk
  show V m c main_v6 (((cfg0.win 13).blk t).view.emb (ix2 p i)) = _
  rw [embIn13 t p i]
/-- Window 14's block at every point is the whole array: it embeds (p, i) at (p, i). -/
theorem embIn14 (t : Fin cfg0.N) (p : Fin 1) (i : Fin 1024) :
    ((cfg0.win 14).blk t).view.emb (ix2 p i) = ix2 p i := by
  obtain ⟨e3_0, e3_1, e4_0, e4_1, e5_0, e5_1, e6_0, e6_1, e7_0, e7_1, e8_0, e8_1, e9_0, e9_1, e10_0, e10_1, e11_0, e11_1, e12_0, e12_1, e13_0, e13_1, e14_0, e14_1, e15_0, e15_1, e16_0, e16_1, e17_0, e17_1, e18_0, e18_1, e19_0, e19_1, e20_0, e20_1⟩ := idx_whole t
  funext a; apply Fin.ext
  match a with
  | ⟨0, _⟩ => show win0_14.index t (0 : Fin 2) * 1 + 1 * p.val = p.val; omega
  | ⟨1, _⟩ => show win0_14.index t (1 : Fin 2) * 1024 + 1 * i.val = i.val; omega
/-- Window 14's block at every point is its whole array as the region finds it. -/
theorem iblk14_at (c : Dev nD) (t : Fin cfg0.N) (p : Fin 1) (i : Fin 1024) :
    iblk m c 14 t (ix2 p i) = V m c main_v13 (ix2 p i) := by
  unfold iblk
  show V m c main_v13 (((cfg0.win 14).blk t).view.emb (ix2 p i)) = _
  rw [embIn14 t p i]
/-- Window 15's block at every point is the whole array: it embeds (p, i) at (p, i). -/
theorem embIn15 (t : Fin cfg0.N) (p : Fin 1) (i : Fin 1024) :
    ((cfg0.win 15).blk t).view.emb (ix2 p i) = ix2 p i := by
  obtain ⟨e3_0, e3_1, e4_0, e4_1, e5_0, e5_1, e6_0, e6_1, e7_0, e7_1, e8_0, e8_1, e9_0, e9_1, e10_0, e10_1, e11_0, e11_1, e12_0, e12_1, e13_0, e13_1, e14_0, e14_1, e15_0, e15_1, e16_0, e16_1, e17_0, e17_1, e18_0, e18_1, e19_0, e19_1, e20_0, e20_1⟩ := idx_whole t
  funext a; apply Fin.ext
  match a with
  | ⟨0, _⟩ => show win0_15.index t (0 : Fin 2) * 1 + 1 * p.val = p.val; omega
  | ⟨1, _⟩ => show win0_15.index t (1 : Fin 2) * 1024 + 1 * i.val = i.val; omega
/-- Window 15's block at every point is its whole array as the region finds it. -/
theorem iblk15_at (c : Dev nD) (t : Fin cfg0.N) (p : Fin 1) (i : Fin 1024) :
    iblk m c 15 t (ix2 p i) = V m c main_v20 (ix2 p i) := by
  unfold iblk
  show V m c main_v20 (((cfg0.win 15).blk t).view.emb (ix2 p i)) = _
  rw [embIn15 t p i]
/-- Window 16's block at every point is the whole array: it embeds (p, i) at (p, i). -/
theorem embIn16 (t : Fin cfg0.N) (p : Fin 1) (i : Fin 1024) :
    ((cfg0.win 16).blk t).view.emb (ix2 p i) = ix2 p i := by
  obtain ⟨e3_0, e3_1, e4_0, e4_1, e5_0, e5_1, e6_0, e6_1, e7_0, e7_1, e8_0, e8_1, e9_0, e9_1, e10_0, e10_1, e11_0, e11_1, e12_0, e12_1, e13_0, e13_1, e14_0, e14_1, e15_0, e15_1, e16_0, e16_1, e17_0, e17_1, e18_0, e18_1, e19_0, e19_1, e20_0, e20_1⟩ := idx_whole t
  funext a; apply Fin.ext
  match a with
  | ⟨0, _⟩ => show win0_16.index t (0 : Fin 2) * 1 + 1 * p.val = p.val; omega
  | ⟨1, _⟩ => show win0_16.index t (1 : Fin 2) * 1024 + 1 * i.val = i.val; omega
/-- Window 16's block at every point is its whole array as the region finds it. -/
theorem iblk16_at (c : Dev nD) (t : Fin cfg0.N) (p : Fin 1) (i : Fin 1024) :
    iblk m c 16 t (ix2 p i) = V m c main_v27 (ix2 p i) := by
  unfold iblk
  show V m c main_v27 (((cfg0.win 16).blk t).view.emb (ix2 p i)) = _
  rw [embIn16 t p i]
/-- Window 17's block at every point is the whole array: it embeds (p, i) at (p, i). -/
theorem embIn17 (t : Fin cfg0.N) (p : Fin 1) (i : Fin 1024) :
    ((cfg0.win 17).blk t).view.emb (ix2 p i) = ix2 p i := by
  obtain ⟨e3_0, e3_1, e4_0, e4_1, e5_0, e5_1, e6_0, e6_1, e7_0, e7_1, e8_0, e8_1, e9_0, e9_1, e10_0, e10_1, e11_0, e11_1, e12_0, e12_1, e13_0, e13_1, e14_0, e14_1, e15_0, e15_1, e16_0, e16_1, e17_0, e17_1, e18_0, e18_1, e19_0, e19_1, e20_0, e20_1⟩ := idx_whole t
  funext a; apply Fin.ext
  match a with
  | ⟨0, _⟩ => show win0_17.index t (0 : Fin 2) * 1 + 1 * p.val = p.val; omega
  | ⟨1, _⟩ => show win0_17.index t (1 : Fin 2) * 1024 + 1 * i.val = i.val; omega
/-- Window 17's block at every point is its whole array as the region finds it. -/
theorem iblk17_at (c : Dev nD) (t : Fin cfg0.N) (p : Fin 1) (i : Fin 1024) :
    iblk m c 17 t (ix2 p i) = V m c main_v32 (ix2 p i) := by
  unfold iblk
  show V m c main_v32 (((cfg0.win 17).blk t).view.emb (ix2 p i)) = _
  rw [embIn17 t p i]
/-- Window 18's block at every point is the whole array: it embeds (p, i) at (p, i). -/
theorem embIn18 (t : Fin cfg0.N) (p : Fin 1) (i : Fin 1024) :
    ((cfg0.win 18).blk t).view.emb (ix2 p i) = ix2 p i := by
  obtain ⟨e3_0, e3_1, e4_0, e4_1, e5_0, e5_1, e6_0, e6_1, e7_0, e7_1, e8_0, e8_1, e9_0, e9_1, e10_0, e10_1, e11_0, e11_1, e12_0, e12_1, e13_0, e13_1, e14_0, e14_1, e15_0, e15_1, e16_0, e16_1, e17_0, e17_1, e18_0, e18_1, e19_0, e19_1, e20_0, e20_1⟩ := idx_whole t
  funext a; apply Fin.ext
  match a with
  | ⟨0, _⟩ => show win0_18.index t (0 : Fin 2) * 1 + 1 * p.val = p.val; omega
  | ⟨1, _⟩ => show win0_18.index t (1 : Fin 2) * 1024 + 1 * i.val = i.val; omega
/-- Window 18's block at every point is its whole array as the region finds it. -/
theorem iblk18_at (c : Dev nD) (t : Fin cfg0.N) (p : Fin 1) (i : Fin 1024) :
    iblk m c 18 t (ix2 p i) = V m c main_v37 (ix2 p i) := by
  unfold iblk
  show V m c main_v37 (((cfg0.win 18).blk t).view.emb (ix2 p i)) = _
  rw [embIn18 t p i]
/-- Window 19's block at every point is the whole array: it embeds (p, i) at (p, i). -/
theorem embIn19 (t : Fin cfg0.N) (p : Fin 1) (i : Fin 1024) :
    ((cfg0.win 19).blk t).view.emb (ix2 p i) = ix2 p i := by
  obtain ⟨e3_0, e3_1, e4_0, e4_1, e5_0, e5_1, e6_0, e6_1, e7_0, e7_1, e8_0, e8_1, e9_0, e9_1, e10_0, e10_1, e11_0, e11_1, e12_0, e12_1, e13_0, e13_1, e14_0, e14_1, e15_0, e15_1, e16_0, e16_1, e17_0, e17_1, e18_0, e18_1, e19_0, e19_1, e20_0, e20_1⟩ := idx_whole t
  funext a; apply Fin.ext
  match a with
  | ⟨0, _⟩ => show win0_19.index t (0 : Fin 2) * 1 + 1 * p.val = p.val; omega
  | ⟨1, _⟩ => show win0_19.index t (1 : Fin 2) * 1024 + 1 * i.val = i.val; omega
/-- Window 19's block at every point is its whole array as the region finds it. -/
theorem iblk19_at (c : Dev nD) (t : Fin cfg0.N) (p : Fin 1) (i : Fin 1024) :
    iblk m c 19 t (ix2 p i) = V m c main_v42 (ix2 p i) := by
  unfold iblk
  show V m c main_v42 (((cfg0.win 19).blk t).view.emb (ix2 p i)) = _
  rw [embIn19 t p i]
/-- Window 20's block at every point is the whole array: it embeds (p, i) at (p, i). -/
theorem embIn20 (t : Fin cfg0.N) (p : Fin 1) (i : Fin 1024) :
    ((cfg0.win 20).blk t).view.emb (ix2 p i) = ix2 p i := by
  obtain ⟨e3_0, e3_1, e4_0, e4_1, e5_0, e5_1, e6_0, e6_1, e7_0, e7_1, e8_0, e8_1, e9_0, e9_1, e10_0, e10_1, e11_0, e11_1, e12_0, e12_1, e13_0, e13_1, e14_0, e14_1, e15_0, e15_1, e16_0, e16_1, e17_0, e17_1, e18_0, e18_1, e19_0, e19_1, e20_0, e20_1⟩ := idx_whole t
  funext a; apply Fin.ext
  match a with
  | ⟨0, _⟩ => show win0_20.index t (0 : Fin 2) * 1 + 1 * p.val = p.val; omega
  | ⟨1, _⟩ => show win0_20.index t (1 : Fin 2) * 1024 + 1 * i.val = i.val; omega
/-- Window 20's block at every point is its whole array as the region finds it. -/
theorem iblk20_at (c : Dev nD) (t : Fin cfg0.N) (p : Fin 1) (i : Fin 1024) :
    iblk m c 20 t (ix2 p i) = V m c main_v47 (ix2 p i) := by
  unfold iblk
  show V m c main_v47 (((cfg0.win 20).blk t).view.emb (ix2 p i)) = _
  rw [embIn20 t p i]

/-- Result window 21's block at point t embeds (p, q) at (256·t + p, q). -/
theorem emb21 (t : Fin cfg0.N) (p : Fin 256) (q : Fin 1024) (r : Fin 16384) (hr : r.val = 256 * t.val + p.val) :
    ((cfg0.win 21).blk t).view.emb (ix2 p q) = ix2 r q := by
  obtain ⟨e0_0, e0_1, e1_0, e1_1, e2_0, e2_1, e21_0, e21_1, e22_0, e22_1⟩ := idx_rows t
  funext a; apply Fin.ext
  match a with
  | ⟨0, _⟩ => show win0_21.index t (0 : Fin 2) * 256 + 1 * p.val = r.val; omega
  | ⟨1, _⟩ => show win0_21.index t (1 : Fin 2) * 1024 + 1 * q.val = q.val; omega

/-- An index of result 0's array is in point t's block iff each coordinate is in the block's range. -/
theorem mem_blk21 (t : Fin cfg0.N) (i : S16384x1024.Idx) :
    i ∈ ((cfg0.win 21).blk t).view.set ↔ ∀ a : Fin 2, win0_21.index t a * S256x1024.size a ≤ (i a).val ∧ (i a).val < win0_21.index t a * S256x1024.size a + S256x1024.size a := by
  show i ∈ ((View.whole main_v60_0).slice (win0_21.rect t)).set ↔ _
  rw [View.set_slice_whole, Rect.mem_set_unit]
  exact Iff.rfl

/-- Every index of the result array lies in the block of the point t = row / 256, which writes it back. -/
theorem cover21 (i : S16384x1024.Idx) :
    ∃ t : Fin cfg0.N, (cfg0.win 21).flush t = true ∧ i ∈ ((cfg0.win 21).blk t).view.set := by
  have hi0 : (i 0).val < 16384 := (i 0).isLt
  have hi1 : (i 1).val < 1024 := (i 1).isLt
  have hN : (i 0).val / 256 < cfg0.N := by show _ < grid0.N; rw [N_0]; omega
  refine ⟨⟨(i 0).val / 256, hN⟩, flush0_21 _, ?_⟩
  rw [mem_blk21]
  obtain ⟨e0_0, e0_1, e1_0, e1_1, e2_0, e2_1, e21_0, e21_1, e22_0, e22_1⟩ := idx_rows ⟨(i 0).val / 256, hN⟩
  intro a
  match a with
  | ⟨0, _⟩ => show win0_21.index ⟨(i 0).val / 256, hN⟩ (0 : Fin 2) * 256 ≤ (i 0).val ∧ (i 0).val < win0_21.index ⟨(i 0).val / 256, hN⟩ (0 : Fin 2) * 256 + 256; rw [e21_0]; show (i 0).val / 256 * 256 ≤ (i 0).val ∧ (i 0).val < (i 0).val / 256 * 256 + 256; omega
  | ⟨1, _⟩ => show win0_21.index ⟨(i 0).val / 256, hN⟩ (1 : Fin 2) * 1024 ≤ (i 1).val ∧ (i 1).val < win0_21.index ⟨(i 0).val / 256, hN⟩ (1 : Fin 2) * 1024 + 1024; rw [e21_1]; omega

/-- Result window 22's block at point t embeds (p, q) at (256·t + p, q). -/
theorem emb22 (t : Fin cfg0.N) (p : Fin 256) (q : Fin 1024) (r : Fin 16384) (hr : r.val = 256 * t.val + p.val) :
    ((cfg0.win 22).blk t).view.emb (ix2 p q) = ix2 r q := by
  obtain ⟨e0_0, e0_1, e1_0, e1_1, e2_0, e2_1, e21_0, e21_1, e22_0, e22_1⟩ := idx_rows t
  funext a; apply Fin.ext
  match a with
  | ⟨0, _⟩ => show win0_22.index t (0 : Fin 2) * 256 + 1 * p.val = r.val; omega
  | ⟨1, _⟩ => show win0_22.index t (1 : Fin 2) * 1024 + 1 * q.val = q.val; omega

/-- An index of result 1's array is in point t's block iff each coordinate is in the block's range. -/
theorem mem_blk22 (t : Fin cfg0.N) (i : S16384x1024.Idx) :
    i ∈ ((cfg0.win 22).blk t).view.set ↔ ∀ a : Fin 2, win0_22.index t a * S256x1024.size a ≤ (i a).val ∧ (i a).val < win0_22.index t a * S256x1024.size a + S256x1024.size a := by
  show i ∈ ((View.whole main_v60_1).slice (win0_22.rect t)).set ↔ _
  rw [View.set_slice_whole, Rect.mem_set_unit]
  exact Iff.rfl

/-- Every index of the result array lies in the block of the point t = row / 256, which writes it back. -/
theorem cover22 (i : S16384x1024.Idx) :
    ∃ t : Fin cfg0.N, (cfg0.win 22).flush t = true ∧ i ∈ ((cfg0.win 22).blk t).view.set := by
  have hi0 : (i 0).val < 16384 := (i 0).isLt
  have hi1 : (i 1).val < 1024 := (i 1).isLt
  have hN : (i 0).val / 256 < cfg0.N := by show _ < grid0.N; rw [N_0]; omega
  refine ⟨⟨(i 0).val / 256, hN⟩, flush0_22 _, ?_⟩
  rw [mem_blk22]
  obtain ⟨e0_0, e0_1, e1_0, e1_1, e2_0, e2_1, e21_0, e21_1, e22_0, e22_1⟩ := idx_rows ⟨(i 0).val / 256, hN⟩
  intro a
  match a with
  | ⟨0, _⟩ => show win0_22.index ⟨(i 0).val / 256, hN⟩ (0 : Fin 2) * 256 ≤ (i 0).val ∧ (i 0).val < win0_22.index ⟨(i 0).val / 256, hN⟩ (0 : Fin 2) * 256 + 256; rw [e22_0]; show (i 0).val / 256 * 256 ≤ (i 0).val ∧ (i 0).val < (i 0).val / 256 * 256 + 256; omega
  | ⟨1, _⟩ => show win0_22.index ⟨(i 0).val / 256, hN⟩ (1 : Fin 2) * 1024 ≤ (i 1).val ∧ (i 1).val < win0_22.index ⟨(i 0).val / 256, hN⟩ (1 : Fin 2) * 1024 + 1024; rw [e22_1]; omega

end Cert.KernelIdeal.Hand

end
-- ==== Proof.Spec.lean ====
/-
  The low-rank LSTM cell with diagonal correction, as two index-by-index formulas on the extended reals.

  Inputs: x [16384,768]; h, c [16384,1024]; per gate a pair of low-rank factors for x (wu [768,64], wv [64,1024]) and for
  h (uu [1024,64], uv [64,1024]), a bias row b [1,1024]; shared diagonal rows wd [1,768], ud [1,1024].

  The REFERENCE form of a gate's pre-activation at row r, column q is
      wd·x (zero beyond column 768) + (x·wu)·wv + ud·h + (h·uu)·uv + b − x·diag(wu·wv) (zero beyond 768) − h·diag(uu·uv),
  and the KERNEL form is
      xpad·(wd − diag(wu·wv), zero beyond 768) + h·(ud − diag(uu·uv)) + b + [x·wu | h·uu]·[wv ; uv],
  the last product over the 128 stacked low-rank coordinates.  The two agree when every entry is a real number
  (distributivity over a difference, and a sum over 128 split into two sums over 64).
  The gates pass through the logistic function (reference) or through 1/2·tanh(z/2) + 1/2 (kernel), the same function
  of a real z.
-/
import Idealize.ShloMosaic.PureOps.Ideal
import Idealize.ShloMosaic.Lib.ValueIdx

noncomputable section

namespace Cert.Spec

open Idealize.ShloMosaic Idealize.ShloMosaic.ValueIdx

/-- A rank-2 array of extended reals. -/
abbrev A2 (a b : Nat) := (⟨2, ![a, b]⟩ : Shape).Idx → EReal

/-- The literal one half. -/
def half : EReal := Ideal.ofBits .f32 0x3F000000#32

/-- A column index below 768 as an index of the narrow arrays. -/
abbrev lo (q : Fin 1024) (hq : q.val < 768) : Fin 768 := ⟨q.val, hq⟩

section Gate

variable (x : A2 16384 768) (h : A2 16384 1024) (wu : A2 768 64) (wv : A2 64 1024) (uu : A2 1024 64) (uv : A2 64 1024)
  (b : A2 1 1024) (wd : A2 1 768) (ud : A2 1 1024)

/-- Row r of x times the low-rank factor wu, coordinate k. -/
def xlow (r : Fin 16384) (k : Fin 64) : EReal := ∑ i : Fin 768, x (ix2 r i) * wu (ix2 i k)
/-- Row r of h times the low-rank factor uu, coordinate k. -/
def hlow (r : Fin 16384) (k : Fin 64) : EReal := ∑ j : Fin 1024, h (ix2 r j) * uu (ix2 j k)
/-- Entry q of the diagonal of wu·wv (wv's first 768 columns). -/
def diagW (q : Fin 768) : EReal := ∑ k : Fin 64, wu (ix2 q k) * wv (ix2 k (⟨q.val, by omega⟩ : Fin 1024))
/-- Entry q of the diagonal of uu·uv. -/
def diagU (q : Fin 1024) : EReal := ∑ k : Fin 64, uu (ix2 q k) * uv (ix2 k q)

/-- The reference's pre-activation of one gate. -/
def refGate (r : Fin 16384) (q : Fin 1024) : EReal :=
  (((((((if hq : q.val < 768 then wd (ix2 (0 : Fin 1) (lo q hq)) * x (ix2 r (lo q hq)) else 0)
      + ∑ k : Fin 64, xlow x wu r k * wv (ix2 k q))
      + ud (ix2 (0 : Fin 1) q) * h (ix2 r q))
      + ∑ k : Fin 64, hlow h uu r k * uv (ix2 k q))
      + b (ix2 (0 : Fin 1) q))
      - (if hq : q.val < 768 then x (ix2 r (lo q hq)) * diagW wu wv (lo q hq) else 0))
      - h (ix2 r q) * diagU uu uv q)

/-- The two stacked low-rank rows [x·wu | h·uu] at coordinate k of 128. -/
def stackLow (r : Fin 16384) (k : Fin 128) : EReal :=
  if hk : k.val < 64 then xlow x wu r ⟨k.val, hk⟩ else hlow h uu r ⟨k.val - 64, by omega⟩
/-- The stacked second factors [wv ; uv] at (k, q). -/
def stackV (k : Fin 128) (q : Fin 1024) : EReal :=
  if hk : k.val < 64 then wv (ix2 (⟨k.val, hk⟩ : Fin 64) q) else uv (ix2 (⟨k.val - 64, by omega⟩ : Fin 64) q)

/-- The kernel's pre-activation of one gate. -/
def kerGate (r : Fin 16384) (q : Fin 1024) : EReal :=
  ((((if hq : q.val < 768 then x (ix2 r (lo q hq)) else 0)
        * (if hq : q.val < 768 then wd (ix2 (0 : Fin 1) (lo q hq)) - diagW wu wv (lo q hq) else 0)
      + h (ix2 r q) * (ud (ix2 (0 : Fin 1) q) - diagU uu uv q))
      + b (ix2 (0 : Fin 1) q))
      + ∑ k : Fin 128, stackLow x h wu uu r k * stackV wv uv k q)

end Gate

/-- The kernel's sigmoid: 1/2·tanh(z/2) + 1/2. -/
def ksig (z : EReal) : EReal := half * Ideal.tanh (half * z) + half

/-- The cell: given the gates' pre-activations f, i, g at an entry, the old cell value cv and a sigmoid s, the new cell
    value; -/
def cellC (s : EReal → EReal) (f i g cv : EReal) : EReal := s f * cv + s i * Ideal.tanh g
/-- and with the output gate's pre-activation o, the new hidden value. -/
def cellH (s : EReal → EReal) (f i g o cv : EReal) : EReal := s o * Ideal.tanh (cellC s f i g cv)

end Cert.Spec

end
-- ==== Proof.LibPlainDot.lean ====
/-
  A plain matrix product read at an index, on the extended reals.

  For dimension numbers that describe an ordinary product of an M x K matrix with a K x N matrix (no batch axes; the
  left operand contracts its axis 1, the right operand its axis 0), entry (p, q) of the product is
      sum over k < K of  a (p, k) * b (k, q).
  This holds for the accumulating product started from the all-zero block and for the host's product alike, and it
  uses nothing of real arithmetic beyond `0 + x = x`, so it holds at the infinities too.
-/
import Idealize.ShloMosaic.Lib.ValueIdx
import Idealize.ShloMosaic.PureOps.Ideal.Laws

namespace Idealize.ShloMosaic.PlainDot

open Idealize.ShloMosaic Idealize.ShloMosaic.ValueIdx

variable {sl sr so : Shape} (d : DotDims sl sr so)

/-- On the left operand's only non-contracting axis, with no batch axes, the left index reads the result index at
    position 0. -/
theorem lhsIdx_val_nonContracting {nl : Fin sl.rank} (hb : d.lhsBatch = []) (hn : d.lhsNonContracting = [nl])
    (h0 : 0 < so.rank) (j : so.Idx) (k : d.contr.Idx) : (d.lhsIdx j k nl).val = (j ⟨0, h0⟩).val := by
  have hmem : nl ∈ d.lhsNonContracting := by rw [hn]; exact List.mem_singleton.mpr rfl
  have hnb : nl ∉ d.lhsBatch := by rw [hb]; exact List.not_mem_nil
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- On the right operand's only non-contracting axis, with no batch axes and one left non-contracting axis, the right
    index reads the result index at position 1. -/
theorem rhsIdx_val_nonContracting {nl : Fin sl.rank} {nr : Fin sr.rank} (hlb : d.lhsBatch = []) (hrb : d.rhsBatch = [])
    (hln : d.lhsNonContracting = [nl]) (hrn : d.rhsNonContracting = [nr])
    (h1 : 1 < so.rank) (j : so.Idx) (k : d.contr.Idx) : (d.rhsIdx j k nr).val = (j ⟨1, h1⟩).val := by
  have hmem : nr ∈ d.rhsNonContracting := by rw [hrn]; exact List.mem_singleton.mpr rfl
  have hnb : nr ∉ d.rhsBatch := by rw [hrb]; exact List.not_mem_nil
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hrn])

section Plain

variable {M K N : Nat} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])
  (hr : D.contr.rank = 1) (hs : D.contr.size ⟨0, by omega⟩ = K)

include hlc hln hlb in
/-- The left operand's index at result entry (p, q) and contraction position k is (p, k). -/
theorem lhsIdx_eq (p : Fin M) (q : Fin N) (k : Fin K) :
    D.lhsIdx (ix2 p q) ((contrEquiv1 D K hr hs).symm k) = ix2 p k := by
  funext a
  apply Fin.ext
  match a with
  | ⟨0, _⟩ => exact lhsIdx_val_nonContracting D hlb hln Nat.zero_lt_two (ix2 p q) _
  | ⟨1, _⟩ => exact (D.lhsIdx_val_of_single hlc (ix2 p q) _).trans (contrEquiv1_symm_val D K hr hs k)

include hrc hln hrn hlb hrb in
/-- The right operand's index at result entry (p, q) and contraction position k is (k, q). -/
theorem rhsIdx_eq (p : Fin M) (q : Fin N) (k : Fin K) :
    D.rhsIdx (ix2 p q) ((contrEquiv1 D K hr hs).symm k) = ix2 k q := by
  funext a
  apply Fin.ext
  match a with
  | ⟨0, _⟩ => exact (D.rhsIdx_val_of_single hrc (ix2 p q) _).trans (contrEquiv1_symm_val D K hr hs k)
  | ⟨1, _⟩ => exact rhsIdx_val_nonContracting D hlb hrb hln hrn Nat.one_lt_two (ix2 p q) _

include hlc hrc hln hrn hlb hrb hr hs in
/-- The sum over the contraction index is the sum over k < K of a (p, k) * b (k, q). -/
theorem sum_contr {φ₁ φ₂ : FTy} (a : FVec Ideal ⟨2, ![M, K]⟩ φ₁) (b : FVec Ideal ⟨2, ![K, N]⟩ φ₂) (p : Fin M) (q : Fin N) :
    (∑ k : D.contr.Idx, a (D.lhsIdx (ix2 p q) k) * b (D.rhsIdx (ix2 p q) k) : EReal)
      = ∑ k : Fin K, a (ix2 p k) * b (ix2 k q) := by
  rw [← Equiv.sum_comp (contrEquiv1 D K hr hs).symm]
  refine Finset.sum_congr rfl fun k _ => ?_
  rw [lhsIdx_eq D hlc hln hlb hr hs p q k, rhsIdx_eq D hrc hln hrn hlb hrb hr hs p q k]

include hlc hrc hln hrn hlb hrb hr hs in
/-- The accumulating product started from the all-zero block, at entry (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul D prec a b (constant ⟨2, ![M, N]⟩ .f32 0x00000000#32) (ix2 p q) = ∑ k : Fin K, a (ix2 p k) * b (ix2 k q) :=
  (Ideal.matmul_constant_zero_apply D prec a b (ix2 p q)).trans (sum_contr D hlc hrc hln hrn hlb hrb hr hs a b p q)

include hlc hrc hln hrn hlb hrb hr hs in
/-- The host's product, at entry (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral D prec sched a b (ix2 p q) = ∑ k : Fin K, a (ix2 p k) * b (ix2 k q) :=
  (Ideal.dotGeneral_apply D prec sched a b (ix2 p q)).trans (sum_contr D hlc hrc hln hrn hlb hrb hr hs a b p q)

end Plain

end Idealize.ShloMosaic.PlainDot
-- ==== Proof.LibGatherScatterRead.lean ====
import Idealize.ShloMosaic.PureOps.Ideal
import Idealize.ShloMosaic.Lib.ValueIdx

/-!
# Row gathers and row scatter-adds read at an index

A gather of rows of a table `[N, C]` (or of entries of a vector `[N]`) by a column `[M, 1]` of
integer start indices reads, at result row `e`, the table's row whose number is the start index
read as a signed integer and clamped into `[0, N - 1]`.  A scatter-add of update rows `[M, C]`
(or update entries `[M]`) into `[N, C]` (or `[N]`) by such a column adds update row `e` to the
row whose number is the index read as a signed integer, and drops it when that number is outside
`[0, N)`; on the extended reals element `(n, j)` of the result is the operand's element plus the
sum of the updates' elements `(e, j)` over the `e` that land in row `n`.

The statements are generic in the extents and in the dimension-number record, which they take
with its fields given by equations, so that they apply to any record with those fields.
-/

noncomputable section

open scoped BigOperators

namespace LibGatherScatterRead

open Idealize.ShloMosaic Idealize.ShloMosaic.ValueIdx

/-! ## The two row functions of an index word -/

/-- The row a gather reads for the start index word `v`: `v` as a signed integer, clamped into
`[0, N - 1]`. -/
def gatherRowOf (N : Nat) (hN : 0 < N) {w : Nat} (v : BitVec w) : Fin N :=
  ⟨min v.toInt.toNat (N - 1), by omega⟩

/-- The row a scatter lands in for the index word `v`: `v` as a signed integer when it is in
`[0, N)`, and no row otherwise (the update is dropped). -/
def scatterRowOf? (N : Nat) {w : Nat} (v : BitVec w) : Option (Fin N) :=
  if h : 0 ≤ v.toInt ∧ v.toInt < (N : Int) then some ⟨v.toInt.toNat, by omega⟩ else none

/-- The value of `gatherRowOf`. -/
theorem gatherRowOf_val (N : Nat) (hN : 0 < N) {w : Nat} (v : BitVec w) :
    (gatherRowOf N hN v).val = min v.toInt.toNat (N - 1) := rfl

/-- `scatterRowOf? N v = some n` says exactly that `v`, read signed, is the number `n`. -/
theorem scatterRowOf?_eq_some_iff {N w : Nat} (v : BitVec w) (n : Fin N) :
    scatterRowOf? N v = some n ↔ v.toInt = (n.val : Int) := by
  unfold scatterRowOf?
  constructor
  · intro h
    split at h
    · rename_i hv
      have := congrArg Fin.val (Option.some.inj h)
      simp only at this
      omega
    · exact absurd h (by simp)
  · intro h
    have hn := n.isLt
    rw [dif_pos (by omega)]
    congr 1
    exact Fin.ext (by simp only; omega)

/-- **A row that a scatter keeps is the row the gather reads.**  If the index word `v` lands in
row `n` of a scatter (so `0 ≤ v < N` as a signed integer) then the gather row of `v` is `n`. -/
theorem gatherRowOf_of_scatterRowOf? {N w : Nat} (hN : 0 < N) (v : BitVec w) (n : Fin N)
    (h : scatterRowOf? N v = some n) : gatherRowOf N hN v = n := by
  have hv := (scatterRowOf?_eq_some_iff v n).mp h
  have hn := n.isLt
  exact Fin.ext (by rw [gatherRowOf_val]; omega)

/-- The negative-index normalisation `select (v <ₛ 0) (v + c) v` leaves a word that is
non-negative as a signed integer unchanged. -/
theorem normalise_of_nonneg {w : Nat} (v c : BitVec w) (hv : 0 ≤ v.toInt) :
    Scalar.select (IntOp.cmpi .slt v 0#w) (IntOp.addi v c) v = v := by
  have hs : v.slt 0#w = false := by
    rw [BitVec.slt_eq_decide, BitVec.toInt_zero]
    exact decide_eq_false (by omega)
  have hc : IntOp.cmpi .slt v 0#w = 0#1 := by
    show BitVec.ofBool (v.slt 0#w) = 0#1
    rw [hs]; rfl
  rw [hc]
  exact select_zero _ _

/-- **The one arithmetic fact of the layer law.**  If the scatter lands the index word `v` in row
`n`, then the gather row of the normalised word `select (v <ₛ 0) (v + c) v` is `n`. -/
theorem gatherRowOf_normalise_of_scatterRowOf? {N w : Nat} (hN : 0 < N) (v c : BitVec w) (n : Fin N)
    (h : scatterRowOf? N v = some n) :
    gatherRowOf N hN (Scalar.select (IntOp.cmpi .slt v 0#w) (IntOp.addi v c) v) = n := by
  have hv := (scatterRowOf?_eq_some_iff v n).mp h
  rw [normalise_of_nonneg v c (by omega)]
  exact gatherRowOf_of_scatterRowOf? hN v n h

/-! ## Sums over a rank-1 index set -/

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-! ## Gathers read at an index -/

section Gather
variable {α : Type}

/-- The dimension numbers of a row gather of a table `[N, C]` by a column `[M, 1]` of start
indices: offset axis `1`, collapsed axis `0`, start index map `[0]`, index vector axis `1`, slice
sizes `[1, C]`. -/
abbrev rowsGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The dimension numbers of a gather of entries of a vector `[N]` by a column `[M, 1]` of start
indices: no offset axis, collapsed axis `0`, start index map `[0]`, index vector axis `1`, slice
size `[1]`. -/
abbrev flatGatherDims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

theorem gather_rowsDims_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (j : Fin C) :
    Host.gather (rowsGatherDims N M C wf) x idx (ix2 e j)
      = x (ix2 (gatherRowOf N hN (idx (ix2 e (0 : Fin 1)))) j) := by
  unfold Host.gather
  congr 1
  funext a
  refine Fin.ext ?_
  have h10 : (1 : Fin 2) ∉ ([0] : List (Fin 2)) := by decide
  match a with
  | ⟨0, _⟩ =>
    show GatherDims.start (rowsGatherDims N M C wf) (ix2 e j) idx 0
      + GatherDims.batchCoord (rowsGatherDims N M C wf) (ix2 e j) 0
      + GatherDims.offCoord (rowsGatherDims N M C wf) (ix2 e j) 0 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (List.mem_singleton.mpr rfl)]
    have hsi : GatherDims.siIdx (rowsGatherDims N M C wf) (ix2 e j)
        ⟨List.idxOf (0 : Fin 2) [0], List.idxOf_lt_length_iff.2 (List.mem_singleton.mpr rfl)⟩
          = ix2 e (0 : Fin 1) := by
      funext b; refine Fin.ext ?_
      match b with
      | ⟨0, _⟩ => rfl
      | ⟨1, _⟩ => rfl
    rw [hsi]
    rfl
  | ⟨1, _⟩ =>
    show GatherDims.start (rowsGatherDims N M C wf) (ix2 e j) idx 1
      + GatherDims.batchCoord (rowsGatherDims N M C wf) (ix2 e j) 1
      + GatherDims.offCoord (rowsGatherDims N M C wf) (ix2 e j) 1 = j.val
    have hst : GatherDims.start (rowsGatherDims N M C wf) (ix2 e j) idx 1 = 0 := by
      unfold GatherDims.start
      exact dif_neg h10
    have hoff : GatherDims.offCoord (rowsGatherDims N M C wf) (ix2 e j) 1 = j.val := by
      unfold GatherDims.offCoord
      rw [dif_pos ((GatherDims.mem_sKept _ _).mpr ⟨h10, List.not_mem_nil⟩)]
      rfl
    rw [GatherDims.batchCoord_eq_zero _ _ _ List.not_mem_nil, hst, hoff]
    omega

/-- **A row gather of a table, read at `(e, j)`**: with offset axis `1`, collapsed axis `0`, start
index map `[0]`, index vector axis `1` and slice sizes `[1, C]`, element `(e, j)` of the result is
the table's element `(g, j)`, `g` the gather row of the start index `idx[e, 0]`. -/
theorem gather_rows_apply {N M C w : Nat} (hN : 0 < N)
    (d : GatherDims ⟨2, ![N, C]⟩ ⟨2, ![M, 1]⟩ ⟨2, ![M, C]⟩)
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![M, 1]⟩ w) (e : Fin M) (j : Fin C) :
    Host.gather d x idx (ix2 e j) = x (ix2 (gatherRowOf N hN (idx (ix2 e (0 : Fin 1)))) j) := by
  obtain ⟨od, cs, ob, sb, sm, iv, ss, wf⟩ := d
  dsimp only at hod hcs hob hsb hsm hiv hss
  subst hod hcs hob hsb hsm hiv hss
  exact gather_rowsDims_apply hN wf x idx e j

theorem gather_flatDims_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (flatGatherDims N M wf) x idx (ix1 e)
      = x (ix1 (gatherRowOf N hN (idx (ix2 e (0 : Fin 1))))) := by
  unfold Host.gather
  congr 1
  funext a
  obtain rfl : a = 0 := Subsingleton.elim _ _
  refine Fin.ext ?_
  show GatherDims.start (flatGatherDims N M wf) (ix1 e) idx 0
    + GatherDims.batchCoord (flatGatherDims N M wf) (ix1 e) 0
    + GatherDims.offCoord (flatGatherDims N M wf) (ix1 e) 0 = _
  rw [GatherDims.batchCoord_eq_zero _ _ _ List.not_mem_nil,
    GatherDims.offCoord_eq_zero _ _ _
      (fun h => ((GatherDims.mem_sKept _ _).mp h).1 (List.mem_singleton.mpr rfl))]
  simp only [Nat.add_zero]
  unfold GatherDims.start
  rw [dif_pos (List.mem_singleton.mpr rfl)]
  have hsi : GatherDims.siIdx (flatGatherDims N M wf) (ix1 e)
      ⟨List.idxOf (0 : Fin 1) [0], List.idxOf_lt_length_iff.2 (List.mem_singleton.mpr rfl)⟩
        = ix2 e (0 : Fin 1) := by
    funext b; refine Fin.ext ?_
    match b with
    | ⟨0, _⟩ => rfl
    | ⟨1, _⟩ => rfl
  rw [hsi]
  rfl

/-- **A gather of entries of a vector, read at `e`**: with no offset axis, collapsed axis `0`,
start index map `[0]`, index vector axis `1` and slice size `[1]`, element `e` of the result is the
vector's entry `g`, `g` the gather row of the start index `idx[e, 0]`. -/
theorem gather_flat_apply {N M w : Nat} (hN : 0 < N)
    (d : GatherDims ⟨1, ![N]⟩ ⟨2, ![M, 1]⟩ ⟨1, ![M]⟩)
    (hod : d.offsetDims = []) (hcs : d.collapsedSliceDims = [0]) (hob : d.operandBatchingDims = [])
    (hsb : d.startIndicesBatchingDims = []) (hsm : d.startIndexMap = [0]) (hiv : d.indexVectorDim = 1)
    (hss : d.sliceSizes = ![1])
    (x : (⟨1, ![N]⟩ : Shape).Idx → α) (idx : IVec ⟨2, ![M, 1]⟩ w) (e : Fin M) :
    Host.gather d x idx (ix1 e) = x (ix1 (gatherRowOf N hN (idx (ix2 e (0 : Fin 1))))) := by
  obtain ⟨od, cs, ob, sb, sm, iv, ss, wf⟩ := d
  dsimp only at hod hcs hob hsb hsm hiv hss
  subst hod hcs hob hsb hsm hiv hss
  exact gather_flatDims_apply hN wf x idx e

end Gather

/-! ## Scatter-adds read at an index -/

section Scatter

/-- The dimension numbers of a scatter of update rows `[M, C]` into a table `[N, C]` by a column
`[M, 1]` of indices: update window axis `1`, inserted window axis `0`, scatter axis to operand
axis `[0]`, index vector axis `1`. -/
abbrev rowsScatterDims (N M C : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- The dimension numbers of a scatter of update entries `[M]` into a vector `[N]` by a column
`[M, 1]` of indices: no update window axis, inserted window axis `0`, scatter axis to operand
axis `[0]`, index vector axis `1`. -/
abbrev flatScatterDims (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Where update `(e, c)` of a row scatter lands: in row `scatterRowOf? (idx[e, 0])`, column `c`. -/
theorem resultIdx?_rowsDims {N M C w : Nat}
    (wf : ScatterDims.WF ⟨2, ![N, C]⟩ ⟨2, ![M, 1]⟩ ⟨2, ![M, C]⟩ [1] [0] [0] 1)
    (idx : IVec ⟨2, ![M, 1]⟩ w) (e : Fin M) (c : Fin C) :
    (rowsScatterDims N M C wf).resultIdx? (ix2 e c) idx
      = (scatterRowOf? N (idx (ix2 e (0 : Fin 1)))).map (fun r => ix2 r c) := by
  have h10 : (1 : Fin 2) ∉ ([0] : List (Fin 2)) := by decide
  have hs0 : (rowsScatterDims N M C wf).start (ix2 e c) idx 0 = (idx (ix2 e (0 : Fin 1))).toInt := by
    unfold ScatterDims.start
    rw [dif_pos (List.mem_singleton.mpr rfl)]
    have hsi : ScatterDims.siIdx (rowsScatterDims N M C wf) (ix2 e c)
        ⟨List.idxOf (0 : Fin 2) [0], List.idxOf_lt_length_iff.2 (List.mem_singleton.mpr rfl)⟩
          = ix2 e (0 : Fin 1) := by
      funext b; refine Fin.ext ?_
      match b with
      | ⟨0, _⟩ => rfl
      | ⟨1, _⟩ => rfl
    rw [hsi]
  have hs1 : (rowsScatterDims N M C wf).start (ix2 e c) idx 1 = 0 := by
    unfold ScatterDims.start
    exact dif_neg h10
  have hk0 : (0 : Fin 2) ∉ (rowsScatterDims N M C wf).sKept := fun h => by
    have := (List.mem_filter.mp h).2
    simp at this
  have hk1 : (1 : Fin 2) ∈ (rowsScatterDims N M C wf).sKept :=
    List.mem_filter.mpr ⟨List.mem_finRange _, by simp⟩
  have hw0 : (rowsScatterDims N M C wf).window (ix2 e c) 0 = 0 := by
    unfold ScatterDims.window
    exact dif_neg hk0
  have hw1 : (rowsScatterDims N M C wf).window (ix2 e c) 1 = c.val := by
    unfold ScatterDims.window
    rw [dif_pos hk1]
    rfl
  unfold ScatterDims.resultIdx?
  split
  · rename_i h
    have h0 := h 0
    rw [hs0, hw0] at h0
    have hv : 0 ≤ (idx (ix2 e (0 : Fin 1))).toInt ∧ (idx (ix2 e (0 : Fin 1))).toInt < (N : Int) := by
      have hsz : ((⟨2, ![N, C]⟩ : Shape).size 0 : Nat) = N := rfl
      rw [hsz] at h0
      simpa using h0
    have hrow : scatterRowOf? N (idx (ix2 e (0 : Fin 1)))
        = some ⟨(idx (ix2 e (0 : Fin 1))).toInt.toNat, by omega⟩ := by
      unfold scatterRowOf?; rw [dif_pos hv]
    rw [hrow, Option.map_some]
    congr 1
    funext a; refine Fin.ext ?_
    match a with
    | ⟨0, _⟩ =>
      show ((rowsScatterDims N M C wf).start (ix2 e c) idx 0
        + ((rowsScatterDims N M C wf).window (ix2 e c) 0 : Int)).toNat = (idx (ix2 e (0 : Fin 1))).toInt.toNat
      rw [hs0, hw0]; simp
    | ⟨1, _⟩ =>
      show ((rowsScatterDims N M C wf).start (ix2 e c) idx 1
        + ((rowsScatterDims N M C wf).window (ix2 e c) 1 : Int)).toNat = c.val
      rw [hs1, hw1]; simp
  · rename_i h
    have hv : ¬ (0 ≤ (idx (ix2 e (0 : Fin 1))).toInt ∧ (idx (ix2 e (0 : Fin 1))).toInt < (N : Int)) := by
      intro hv
      apply h
      intro a
      match a with
      | ⟨0, _⟩ =>
        show 0 ≤ (rowsScatterDims N M C wf).start (ix2 e c) idx 0
            + ((rowsScatterDims N M C wf).window (ix2 e c) 0 : Int)
          ∧ (rowsScatterDims N M C wf).start (ix2 e c) idx 0
            + ((rowsScatterDims N M C wf).window (ix2 e c) 0 : Int) < (N : Int)
        rw [hs0, hw0]; simpa using hv
      | ⟨1, _⟩ =>
        show 0 ≤ (rowsScatterDims N M C wf).start (ix2 e c) idx 1
            + ((rowsScatterDims N M C wf).window (ix2 e c) 1 : Int)
          ∧ (rowsScatterDims N M C wf).start (ix2 e c) idx 1
            + ((rowsScatterDims N M C wf).window (ix2 e c) 1 : Int) < (C : Int)
        rw [hs1, hw1]; have := c.isLt; omega
    have hrow : scatterRowOf? N (idx (ix2 e (0 : Fin 1))) = none := by
      unfold scatterRowOf?; rw [dif_neg hv]
    rw [hrow]; rfl

/-- Update `(e, c)` of a row scatter lands at `(n, j)` exactly when `e`'s row is `n` and `c = j`. -/
theorem resultIdx?_rowsDims_eq_some_iff {N M C w : Nat}
    (wf : ScatterDims.WF ⟨2, ![N, C]⟩ ⟨2, ![M, 1]⟩ ⟨2, ![M, C]⟩ [1] [0] [0] 1)
    (idx : IVec ⟨2, ![M, 1]⟩ w) (e : Fin M) (c : Fin C) (n : Fin N) (j : Fin C) :
    (rowsScatterDims N M C wf).resultIdx? (ix2 e c) idx = some (ix2 n j)
      ↔ scatterRowOf? N (idx (ix2 e (0 : Fin 1))) = some n ∧ c = j := by
  rw [resultIdx?_rowsDims]
  cases hr : scatterRowOf? N (idx (ix2 e (0 : Fin 1))) with
  | none => simp
  | some r =>
    rw [Option.map_some]
    constructor
    · intro h
      have h' := Option.some.inj h
      have e0 : r = n := congrFun h' 0
      have e1 : c = j := congrFun h' 1
      exact ⟨by rw [e0], e1⟩
    · rintro ⟨h1, h2⟩
      rw [Option.some.inj h1, h2]

/-- The extended-real scatter-add of update rows, for the literal record, read at `(n, j)`. -/
theorem hostScatterAdd_rowsDims_apply {N M C w : Nat}
    (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w)
    (upd : (⟨2, ![M, C]⟩ : Shape).Idx → EReal) (n : Fin N) (j : Fin C) :
    Ideal.hostScatterAdd (rowsScatterDims N M C wf) x idx upd (ix2 n j)
      = x (ix2 n j) + ∑ e ∈ Finset.univ.filter
          (fun e : Fin M => scatterRowOf? N (idx (ix2 e (0 : Fin 1))) = some n), upd (ix2 e j) := by
  unfold Ideal.hostScatterAdd
  congr 1
  rw [Finset.sum_filter, sum_idx2, Finset.sum_filter]
  refine Finset.sum_congr rfl (fun e _ => ?_)
  by_cases hr : scatterRowOf? N (idx (ix2 e (0 : Fin 1))) = some n
  · rw [if_pos hr, Finset.sum_eq_single j]
    · rw [if_pos ((resultIdx?_rowsDims_eq_some_iff wf idx e j n j).mpr ⟨hr, rfl⟩)]
    · intro b _ hb
      rw [if_neg (fun h => hb ((resultIdx?_rowsDims_eq_some_iff wf idx e b n j).mp h).2)]
    · intro h; exact absurd (Finset.mem_univ j) h
  · rw [if_neg hr]
    exact Finset.sum_eq_zero (fun b _ =>
      if_neg (fun h => hr ((resultIdx?_rowsDims_eq_some_iff wf idx e b n j).mp h).1))

/-- **A scatter-add of update rows into a table, on the extended reals, read at `(n, j)`**: with
update window axis `1`, inserted window axis `0`, scatter axis to operand axis `[0]` and index vector
axis `1`, element `(n, j)` of the result is the operand's element `(n, j)` plus the sum of the
updates' elements `(e, j)` over the rows `e` whose index `idx[e, 0]`, read signed, is `n`. -/
theorem scatterAdd_rows_apply {N M C w : Nat} {φ : FTy}
    (d : ScatterDims ⟨2, ![N, C]⟩ ⟨2, ![M, 1]⟩ ⟨2, ![M, C]⟩)
    (huw : d.updateWindowDims = [1]) (hiw : d.insertedWindowDims = [0])
    (hsd : d.scatterDimsToOperandDims = [0]) (hiv : d.indexVectorDim = 1)
    (x : FVec Ideal ⟨2, ![N, C]⟩ φ) (idx : IVec ⟨2, ![M, 1]⟩ w) (upd : FVec Ideal ⟨2, ![M, C]⟩ φ)
    (n : Fin N) (j : Fin C) :
    Host.scatterAdd (F := Ideal) d x idx upd (ix2 n j)
      = x (ix2 n j) + ∑ e ∈ Finset.univ.filter
          (fun e : Fin M => scatterRowOf? N (idx (ix2 e (0 : Fin 1))) = some n), upd (ix2 e j) := by
  obtain ⟨uw, iw, sd, iv, wf⟩ := d
  dsimp only at huw hiw hsd hiv
  subst huw hiw hsd hiv
  exact hostScatterAdd_rowsDims_apply wf x idx upd n j

/-- Where update `e` of an entry scatter lands: at entry `scatterRowOf? (idx[e, 0])`. -/
theorem resultIdx?_flatDims {N M w : Nat}
    (wf : ScatterDims.WF ⟨1, ![N]⟩ ⟨2, ![M, 1]⟩ ⟨1, ![M]⟩ [] [0] [0] 1)
    (idx : IVec ⟨2, ![M, 1]⟩ w) (e : Fin M) :
    (flatScatterDims N M wf).resultIdx? (ix1 e) idx
      = (scatterRowOf? N (idx (ix2 e (0 : Fin 1)))).map (fun r => ix1 r) := by
  have hs0 : (flatScatterDims N M wf).start (ix1 e) idx 0 = (idx (ix2 e (0 : Fin 1))).toInt := by
    unfold ScatterDims.start
    rw [dif_pos (List.mem_singleton.mpr rfl)]
    have hsi : ScatterDims.siIdx (flatScatterDims N M wf) (ix1 e)
        ⟨List.idxOf (0 : Fin 1) [0], List.idxOf_lt_length_iff.2 (List.mem_singleton.mpr rfl)⟩
          = ix2 e (0 : Fin 1) := by
      funext b; refine Fin.ext ?_
      match b with
      | ⟨0, _⟩ => rfl
      | ⟨1, _⟩ => rfl
    rw [hsi]
  have hk0 : (0 : Fin 1) ∉ (flatScatterDims N M wf).sKept := fun h => by
    have := (List.mem_filter.mp h).2
    simp at this
  have hw0 : (flatScatterDims N M wf).window (ix1 e) 0 = 0 := by
    unfold ScatterDims.window
    exact dif_neg hk0
  unfold ScatterDims.resultIdx?
  split
  · rename_i h
    have h0 := h 0
    rw [hs0, hw0] at h0
    have hv : 0 ≤ (idx (ix2 e (0 : Fin 1))).toInt ∧ (idx (ix2 e (0 : Fin 1))).toInt < (N : Int) := by
      have hsz : ((⟨1, ![N]⟩ : Shape).size 0 : Nat) = N := rfl
      rw [hsz] at h0
      simpa using h0
    have hrow : scatterRowOf? N (idx (ix2 e (0 : Fin 1)))
        = some ⟨(idx (ix2 e (0 : Fin 1))).toInt.toNat, by omega⟩ := by
      unfold scatterRowOf?; rw [dif_pos hv]
    rw [hrow, Option.map_some]
    congr 1
    funext a
    obtain rfl : a = 0 := Subsingleton.elim _ _
    refine Fin.ext ?_
    show ((flatScatterDims N M wf).start (ix1 e) idx 0
      + ((flatScatterDims N M wf).window (ix1 e) 0 : Int)).toNat = (idx (ix2 e (0 : Fin 1))).toInt.toNat
    rw [hs0, hw0]; simp
  · rename_i h
    have hv : ¬ (0 ≤ (idx (ix2 e (0 : Fin 1))).toInt ∧ (idx (ix2 e (0 : Fin 1))).toInt < (N : Int)) := by
      intro hv
      apply h
      intro a
      obtain rfl : a = 0 := Subsingleton.elim _ _
      show 0 ≤ (flatScatterDims N M wf).start (ix1 e) idx 0
          + ((flatScatterDims N M wf).window (ix1 e) 0 : Int)
        ∧ (flatScatterDims N M wf).start (ix1 e) idx 0
          + ((flatScatterDims N M wf).window (ix1 e) 0 : Int) < (N : Int)
      rw [hs0, hw0]; simpa using hv
    have hrow : scatterRowOf? N (idx (ix2 e (0 : Fin 1))) = none := by
      unfold scatterRowOf?; rw [dif_neg hv]
    rw [hrow]; rfl

/-- Update `e` of an entry scatter lands at `n` exactly when `e`'s row is `n`. -/
theorem resultIdx?_flatDims_eq_some_iff {N M w : Nat}
    (wf : ScatterDims.WF ⟨1, ![N]⟩ ⟨2, ![M, 1]⟩ ⟨1, ![M]⟩ [] [0] [0] 1)
    (idx : IVec ⟨2, ![M, 1]⟩ w) (e : Fin M) (n : Fin N) :
    (flatScatterDims N M wf).resultIdx? (ix1 e) idx = some (ix1 n)
      ↔ scatterRowOf? N (idx (ix2 e (0 : Fin 1))) = some n := by
  rw [resultIdx?_flatDims]
  cases hr : scatterRowOf? N (idx (ix2 e (0 : Fin 1))) with
  | none => simp
  | some r =>
    rw [Option.map_some]
    constructor
    · intro h
      have e0 : r = n := congrFun (Option.some.inj h) 0
      rw [e0]
    · intro h
      rw [Option.some.inj h]

/-- The extended-real scatter-add of update entries, for the literal record, read at `n`. -/
theorem hostScatterAdd_flatDims_apply {N M w : Nat}
    (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w)
    (upd : (⟨1, ![M]⟩ : Shape).Idx → EReal) (n : Fin N) :
    Ideal.hostScatterAdd (flatScatterDims N M wf) x idx upd (ix1 n)
      = x (ix1 n) + ∑ e ∈ Finset.univ.filter
          (fun e : Fin M => scatterRowOf? N (idx (ix2 e (0 : Fin 1))) = some n), upd (ix1 e) := by
  unfold Ideal.hostScatterAdd
  congr 1
  rw [Finset.sum_filter, sum_idx1, Finset.sum_filter]
  refine Finset.sum_congr rfl (fun e _ => ?_)
  by_cases hr : scatterRowOf? N (idx (ix2 e (0 : Fin 1))) = some n
  · rw [if_pos hr, if_pos ((resultIdx?_flatDims_eq_some_iff wf idx e n).mpr hr)]
  · rw [if_neg hr, if_neg (fun h => hr ((resultIdx?_flatDims_eq_some_iff wf idx e n).mp h))]

/-- **A scatter-add of update entries into a vector, on the extended reals, read at `n`**: with
no update window axis, inserted window axis `0`, scatter axis to operand axis `[0]` and index
vector axis `1`, entry `n` of the result is the operand's entry `n` plus the sum of the updates'
entries `e` over the `e` whose index `idx[e, 0]`, read signed, is `n`. -/
theorem scatterAdd_flat_apply {N M w : Nat} {φ : FTy}
    (d : ScatterDims ⟨1, ![N]⟩ ⟨2, ![M, 1]⟩ ⟨1, ![M]⟩)
    (huw : d.updateWindowDims = []) (hiw : d.insertedWindowDims = [0])
    (hsd : d.scatterDimsToOperandDims = [0]) (hiv : d.indexVectorDim = 1)
    (x : FVec Ideal ⟨1, ![N]⟩ φ) (idx : IVec ⟨2, ![M, 1]⟩ w) (upd : FVec Ideal ⟨1, ![M]⟩ φ)
    (n : Fin N) :
    Host.scatterAdd (F := Ideal) d x idx upd (ix1 n)
      = x (ix1 n) + ∑ e ∈ Finset.univ.filter
          (fun e : Fin M => scatterRowOf? N (idx (ix2 e (0 : Fin 1))) = some n), upd (ix1 e) := by
  obtain ⟨uw, iw, sd, iv, wf⟩ := d
  dsimp only at huw hiw hsd hiv
  subst huw hiw hsd hiv
  exact hostScatterAdd_flatDims_apply wf x idx upd n

end Scatter

end LibGatherScatterRead

end
-- ==== Proof.LibWeightedMix.lean ====
import Mathlib.Data.EReal.Inv
import Mathlib.Algebra.BigOperators.Group.Finset.Basic
import Mathlib.Algebra.BigOperators.Ring.Finset
import Mathlib.Tactic.Ring

/-!
# A weighted mix under a finite sum, in the extended reals

For real families `f A B C : K → ℝ` over a finite index type and real weights `w₀ w₁ w₂`, read in the
extended reals,

  `∑ k, f k * ((w₀ * A k + w₁ * B k) + w₂ * C k) = ((w₀ * ∑ k, f k * A k) + w₁ * ∑ k, f k * B k) + w₂ * ∑ k, f k * C k`:

contracting against a weighted mix of three families is the weighted mix of the three contractions. The
extended reals are not a ring (addition and multiplication do not distribute at the infinities), so the law
is proved for real entries: the coercion `ℝ → EReal` is pushed out of every product and sum, and the
identity is then distributivity in `ℝ`.

* `coe_finset_sum`: the coercion commutes with a finite sum.
* `sum_mul_mix`: the law for families given as real functions.
* `sum_mul_mix_of_real`: the law for extended-real families each of whose entries is a real number.
* `exists_real_add`, `exists_real_mul`, `exists_real_sum`, `exists_real_sum_mul`: sums, products and finite sums
  (of products) of real numbers are real numbers.
-/

namespace LibWeightedMix

open scoped BigOperators

variable {K : Type*}

/-- The coercion of the reals into the extended reals commutes with a finite sum. -/
theorem coe_finset_sum (s : Finset K) (f : K → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The sum of two real numbers is a real number. -/
theorem exists_real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy
  exact ⟨a + b, (EReal.coe_add a b).symm⟩

/-- The product of two real numbers is a real number. -/
theorem exists_real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy
  exact ⟨a * b, (EReal.coe_mul a b).symm⟩

/-- A finite sum of real numbers is a real number. -/
theorem exists_real_sum (s : Finset K) (g : K → EReal) (hg : ∀ k, ∃ r : ℝ, g k = (r : EReal)) :
    ∃ r : ℝ, ∑ k ∈ s, g k = (r : EReal) := by
  choose g' hg' using hg
  exact ⟨∑ k ∈ s, g' k, by simp only [hg', coe_finset_sum]⟩

/-- A finite sum of products of real numbers is a real number. -/
theorem exists_real_sum_mul (s : Finset K) (f A : K → EReal) (hf : ∀ k, ∃ r : ℝ, f k = (r : EReal))
    (hA : ∀ k, ∃ r : ℝ, A k = (r : EReal)) : ∃ r : ℝ, ∑ k ∈ s, f k * A k = (r : EReal) :=
  exists_real_sum s _ fun k => exists_real_mul (hf k) (hA k)

variable [Fintype K]

/-- Contracting against a weighted mix of three real families is the weighted mix of the three contractions. -/
theorem sum_mul_mix (f A B C : K → ℝ) (w0 w1 w2 : ℝ) :
    ∑ k, (f k : EReal) * (((w0 : EReal) * (A k : EReal) + (w1 : EReal) * (B k : EReal)) + (w2 : EReal) * (C k : EReal))
      = (((w0 : EReal) * ∑ k, (f k : EReal) * (A k : EReal)) + (w1 : EReal) * ∑ k, (f k : EReal) * (B k : EReal))
          + (w2 : EReal) * ∑ k, (f k : EReal) * (C k : EReal) := by
  simp only [← EReal.coe_mul, ← EReal.coe_add, ← coe_finset_sum]
  congr 1
  simp only [Finset.mul_sum, ← Finset.sum_add_distrib]
  exact Finset.sum_congr rfl fun k _ => by ring

/-- The same law for extended-real families and weights each of which is a real number. -/
theorem sum_mul_mix_of_real (f A B C : K → EReal) (w0 w1 w2 : EReal)
    (hf : ∀ k, ∃ r : ℝ, f k = (r : EReal)) (hA : ∀ k, ∃ r : ℝ, A k = (r : EReal))
    (hB : ∀ k, ∃ r : ℝ, B k = (r : EReal)) (hC : ∀ k, ∃ r : ℝ, C k = (r : EReal))
    (h0 : ∃ r : ℝ, w0 = (r : EReal)) (h1 : ∃ r : ℝ, w1 = (r : EReal)) (h2 : ∃ r : ℝ, w2 = (r : EReal)) :
    ∑ k, f k * ((w0 * A k + w1 * B k) + w2 * C k)
      = ((w0 * ∑ k, f k * A k) + w1 * ∑ k, f k * B k) + w2 * ∑ k, f k * C k := by
  choose f' hf' using hf
  choose A' hA' using hA
  choose B' hB' using hB
  choose C' hC' using hC
  obtain ⟨r0, rfl⟩ := h0
  obtain ⟨r1, rfl⟩ := h1
  obtain ⟨r2, rfl⟩ := h2
  simp only [hf', hA', hB', hC']
  exact sum_mul_mix f' A' B' C' r0 r1 r2

end LibWeightedMix
-- ==== Proof.LibRealArrays.lean ====
/-
# Arrays of extended reals whose entries are real numbers

On the extended reals a float input that passes the test |v| < +∞ is a real number, and real entries stay real through
the host operations a gather–scatter aggregation is made of.

* `IsReal v` — every entry of the array `v` is (the coercion of) a real number.
* `real_of_abs_lt_top` — an extended real whose absolute value is below +∞ is a real number; `inf_word` — the f32 word
  0x7F800000 denotes +∞.
* `isReal_of_all` — the printed form of `jnp.all(|x| < inf)` (a reduce by `and` of the comparison against the
  broadcast +∞ word, equal to 1) gives `IsReal x`, at any shape and any list of reduced axes.
* `isReal_broadcastInDim`, `isReal_zero`, `isReal_one` — a broadcast re-indexes; the splats of 0.0 and 1.0 are real.
* `isReal_gather_rows` — a row gather of a real table is real; `isReal_scatterAdd_rows` — a scatter-add of real rows
  into a real table is real (each entry gains a finite sum of entries).
* `max_one_real` — the maximum of a real array with an array of ones is real and at least 1;
  `isReal_div` — a real array divided by a real array whose entries are at least 1 is real (the quotient is then
  the product with a real inverse, never the division's corner at zero).
-/
import proofs.«121209_j33517924778468_2_alg».proof.Proof.LibGatherScatterRead
import proofs.«121209_j33517924778468_2_alg».proof.Proof.LibWeightedMix
import Idealize.ShloMosaic.Lib.ReduceAll
import Idealize.ShloMosaic.PureOps.Ideal.Laws
import Idealize.ShloMosaic.Lib.ValueIdx
import Mathlib.Tactic.Linarith

noncomputable section

namespace LibRealArrays

open Idealize.ShloMosaic Idealize.ShloMosaic.ValueIdx
open scoped BigOperators

/-- Every entry of the array is a real number. -/
def IsReal {s : Shape} (v : s.Idx → EReal) : Prop := ∀ i, ∃ r : ℝ, v i = (r : EReal)

/-! ## From an all-finite test -/

/-- A rank-0 array has one index. -/
instance : Subsingleton (⟨0, ![]⟩ : Shape).Idx := ⟨fun _ _ => funext fun d => d.elim0⟩

/-- The word 0x7F800000 denotes +∞. -/
theorem inf_word : Ideal.ofBits .f32 0x7F800000#32 = ⊤ := by simp [Ideal.ofBits, Ideal.ieee]

/-- The zero word denotes 0. -/
theorem zero_word : Ideal.ofBits .f32 0x00000000#32 = ((0 : ℝ) : EReal) := by simp [Ideal.ofBits, Ideal.ieee]

/-- The word 0x3F800000 denotes 1. -/
theorem one_word : Ideal.ofBits .f32 0x3F800000#32 = ((1 : ℝ) : EReal) := by
  simp [Ideal.ofBits, Ideal.ieee, -EReal.coe_mul]; norm_num

/-- An extended real whose absolute value is below +∞ is a real number. -/
theorem real_of_abs_lt_top (v : EReal) (h : max v (-v) < ⊤) : ∃ r : ℝ, v = (r : EReal) := by
  induction v using EReal.rec with
  | bot => simp at h
  | coe r => exact ⟨r, rfl⟩
  | top => simp at h

/-- An array all of whose entries pass |v| < +∞ has real entries. -/
theorem isReal_of_all {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (h : Host.reduce IntOp.andi (cmpf .olt (Host.absf x)
        (broadcastInDim s ![] hb (constant (F := Ideal) ⟨0, ![]⟩ .f32 0x7F800000#32))) (constantI ⟨0, ![]⟩ 1 1#1) hr hu ix0 = 1#1) :
    IsReal x := fun i => by
  have hi := Host.reduce_andi_all _ _ hr hu _ h i
  simp only [cmpf, Host.absf, broadcastInDim, constant, Ideal.cmpf_def, Ideal.hostAbsf_def, Ideal.absf_def,
    Ideal.ofBits_def, inf_word] at hi
  refine real_of_abs_lt_top _ ?_
  by_contra hlt
  have h0 : Ideal.cmp CmpFPredicate.olt (max (x i) (-x i)) ⊤ = 0#1 := by
    show BitVec.ofBool (decide (max (x i) (-x i) < ⊤)) = 0#1
    rw [decide_eq_false hlt]; rfl
  rw [h0] at hi
  exact absurd hi (by decide)

/-! ## Real entries are preserved -/

/-- A broadcast re-indexes its operand. -/
theorem isReal_broadcastInDim {s t : Shape} (dims : Fin s.rank → Fin t.rank) (h : s.BroadcastsInDim t dims)
    (x : s.Idx → EReal) (hx : IsReal x) : IsReal (broadcastInDim t dims h x) := fun _ => hx _

/-- A splat of the zero word. -/
theorem isReal_zero (s : Shape) : IsReal (constant (F := Ideal) s .f32 0x00000000#32) := fun _ =>
  ⟨0, by show Ideal.ofBits .f32 0x00000000#32 = _; exact zero_word⟩

/-- A splat of the word of 1.0. -/
theorem isReal_one (s : Shape) : IsReal (constant (F := Ideal) s .f32 0x3F800000#32) := fun _ =>
  ⟨1, by show Ideal.ofBits .f32 0x3F800000#32 = _; exact one_word⟩

/-- A row gather re-reads rows of its table. -/
theorem isReal_gather_rows {N M C w : Nat} (hN : 0 < N)
    (d : GatherDims ⟨2, ![N, C]⟩ ⟨2, ![M, 1]⟩ ⟨2, ![M, C]⟩)
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → EReal) (idx : IVec ⟨2, ![M, 1]⟩ w) (hx : IsReal x) :
    IsReal (Host.gather d x idx) := fun i => by
  obtain ⟨e, j, rfl⟩ : ∃ (e : Fin M) (j : Fin C), i = ix2 e j := ⟨i 0, i 1, eq_ix2 i⟩
  rw [LibGatherScatterRead.gather_rows_apply hN d hod hcs hob hsb hsm hiv hss]
  exact hx _

/-- A scatter-add of real rows into a real table is a real table: each entry gains a finite sum of entries. -/
theorem isReal_scatterAdd_rows {N M C w : Nat}
    (d : ScatterDims ⟨2, ![N, C]⟩ ⟨2, ![M, 1]⟩ ⟨2, ![M, C]⟩)
    (huw : d.updateWindowDims = [1]) (hiw : d.insertedWindowDims = [0])
    (hsd : d.scatterDimsToOperandDims = [0]) (hiv : d.indexVectorDim = 1)
    (x : FVec Ideal ⟨2, ![N, C]⟩ .f32) (idx : IVec ⟨2, ![M, 1]⟩ w) (upd : FVec Ideal ⟨2, ![M, C]⟩ .f32)
    (hx : IsReal x) (hu : IsReal upd) : IsReal (Host.scatterAdd (F := Ideal) d x idx upd) := fun i => by
  obtain ⟨n, j, rfl⟩ : ∃ (n : Fin N) (j : Fin C), i = ix2 n j := ⟨i 0, i 1, eq_ix2 i⟩
  rw [LibGatherScatterRead.scatterAdd_rows_apply d huw hiw hsd hiv]
  exact LibWeightedMix.exists_real_add (hx _) (LibWeightedMix.exists_real_sum _ _ fun e => hu _)

/-- The maximum of a real array with an array of ones: real, and at least 1. -/
theorem max_one_real {s : Shape} (c one : FVec Ideal s .f32) (hc : IsReal c) (h1 : ∀ i, one i = ((1 : ℝ) : EReal)) (i : s.Idx) :
    ∃ r : ℝ, maximumf (F := Ideal) c one i = (r : EReal) ∧ 1 ≤ r := by
  obtain ⟨cr, hcr⟩ := hc i
  refine ⟨max cr 1, ?_, le_max_right _ _⟩
  show max (c i) (one i) = _
  rw [hcr, h1]
  exact (EReal.coe_strictMono.monotone.map_max).symm

/-- Dividing a real array by a real array whose entries are at least 1 gives a real array. -/
theorem isReal_div {s : Shape} (a b : FVec Ideal s .f32) (ha : IsReal a)
    (hb : ∀ i, ∃ r : ℝ, b i = (r : EReal) ∧ 1 ≤ r) : IsReal (Host.divf (F := Ideal) a b) := fun i => by
  obtain ⟨ar, har⟩ := ha i
  obtain ⟨br, hbr, hb1⟩ := hb i
  refine ⟨ar * (1 / br), ?_⟩
  show Ideal.div (a i) (b i) = _
  rw [har, hbr, Ideal.div_coe (by linarith : br ≠ 0), ← EReal.coe_mul]

end LibRealArrays

end
-- ==== Proof.KIPayload.lean ====
/-
  The kernel body's stored values read at one index, at the extended reals.

  The body works on a block of 256 rows.  Read at row p and column q, the zero-padded x is x(p,q) below column 768 and 0
  beyond; each low-rank projection is a finite sum of products; a 64-column slice of the projections followed by the
  side-by-side stacking of the x part and the h part is one of two entries by the stacked coordinate; a [1,1024] row
  broadcast down the rows is the row's entry at column q; and the accumulating product from the zero block is the sum
  over the 128 stacked coordinates.  So a gate's pre-activation at (p,q) is
      xpad(p,q)·dW(q) + h(p,q)·dU(q) + bias(q) + Σ_k low(p,k)·[Wv ; Uv](k,q),
  and the two results are the cell formulas of these four numbers with the sigmoid 1/2·tanh(z/2) + 1/2.
-/
import proofs.«121209_j33517924778468_2_alg».proof.Proof.KIVals
import proofs.«121209_j33517924778468_2_alg».proof.Proof.Spec
import proofs.«121209_j33517924778468_2_alg».proof.Proof.LibPlainDot
import proofs.«121209_j33517924778468_2_alg».proof.Proof.LibRealArrays
import Idealize.ShloMosaic.Lib.Pipeline.Value
import Idealize.ShloMosaic.Lib.ValueIdx

set_option maxRecDepth 16384

noncomputable section

namespace Cert.KIPayload

open Idealize.ShloMosaic Idealize.ShloMosaic.ValueIdx Idealize.SL.Sem
open Cert.KernelIdeal Cert.KernelIdeal.Gen Cert.KernelIdeal.Hand
open scoped BigOperators

/-! ## The values, by coordinates -/

/-- x with zero columns appended, at (p, q). -/
def padX (x0 : Vec Ideal S256x768 .f32) (p : Fin 256) (q : Fin 1024) : EReal :=
  if hq : q.val < 768 then x0 (ix2 p (⟨q.val, hq⟩ : Fin 768)) else 0

/-- x's low-rank projection (four gates side by side), at (p, j). -/
def projX (x0 : Vec Ideal S256x768 .f32) (x3 : Vec Ideal S768x256 .bf16) (p : Fin 256) (j : Fin 256) : EReal :=
  ∑ i : Fin 768, x0 (ix2 p i) * x3 (ix2 i j)

/-- h's low-rank projection (four gates side by side), at (p, j). -/
def projH (x1 : Vec Ideal S256x1024 .f32) (x4 : Vec Ideal S1024x256 .bf16) (p : Fin 256) (j : Fin 256) : EReal :=
  ∑ i : Fin 1024, x1 (ix2 p i) * x4 (ix2 i j)

/-- Gate g's stacked low-rank row [x part | h part], at (p, k). -/
def lowB (x0 : Vec Ideal S256x768 .f32) (x1 : Vec Ideal S256x1024 .f32) (x3 : Vec Ideal S768x256 .bf16)
    (x4 : Vec Ideal S1024x256 .bf16) (g : Fin 4) (p : Fin 256) (k : Fin 128) : EReal :=
  if hk : k.val < 64 then projX x0 x3 p ⟨64 * g.val + k.val, by have := g.isLt; omega⟩
  else projH x1 x4 p ⟨64 * g.val + (k.val - 64), by have := g.isLt; have := k.isLt; omega⟩

/-- Gate g's pre-activation, at (p, q). -/
def gateB (x0 : Vec Ideal S256x768 .f32) (x1 : Vec Ideal S256x1024 .f32) (x3 : Vec Ideal S768x256 .bf16)
    (x4 : Vec Ideal S1024x256 .bf16) (wu8 : Vec Ideal S128x1024 .bf16) (bias dw du : Vec Ideal S1x1024 .f32)
    (g : Fin 4) (p : Fin 256) (q : Fin 1024) : EReal :=
  ((padX x0 p q * dw (ix2 (0 : Fin 1) q) + x1 (ix2 p q) * du (ix2 (0 : Fin 1) q)) + bias (ix2 (0 : Fin 1) q))
    + ∑ k : Fin 128, lowB x0 x1 x3 x4 g p k * wu8 (ix2 k q)

/-! ## Whole-block loads -/

theorem zeros2 : (![0, 0] : Fin 2 → Nat) = fun _ => 0 := funext fun a => by fin_cases a <;> rfl

theorem ld_rX (x : Vec Ideal S256x768 .f32) : View.ld x rX = x := View.ld_unit_zero (S := S256x768) zeros2 _ x
theorem ld_rH (x : Vec Ideal S256x1024 .f32) : View.ld x rH = x := View.ld_unit_zero (S := S256x1024) zeros2 _ x
theorem ld_rWu (x : Vec Ideal S768x256 .bf16) : View.ld x rWu = x := View.ld_unit_zero (S := S768x256) zeros2 _ x
theorem ld_rUu (x : Vec Ideal S1024x256 .bf16) : View.ld x rUu = x := View.ld_unit_zero (S := S1024x256) zeros2 _ x
theorem ld_rWU (x : Vec Ideal S128x1024 .bf16) : View.ld x rWU = x := View.ld_unit_zero (S := S128x1024) zeros2 _ x
theorem ld_rRow (x : Vec Ideal S1x1024 .f32) : View.ld x rRow = x := View.ld_unit_zero (S := S1x1024) zeros2 _ x

/-! ## The zero-padded x -/

theorem pay1_at (x0 : Vec Ideal S256x768 .f32) (p : Fin 256) (q : Fin 1024) :
    k0_pay1 x0 (ix2 p q) = padX x0 p q := by
  unfold k0_pay1 padX
  by_cases hq : q.val < 768
  · rw [dif_pos hq]
    exact concatenate_pair_apply_left (t := S256x1024) (s₁ := S256x768) (s₂ := S256x256) 1 x0 _ _ (ix2 p q) rfl
      (ix2 p (⟨q.val, hq⟩ : Fin 768)) (fun b => by fin_cases b <;> rfl)
  · rw [dif_neg hq]
    have hq' : q.val - 768 < 256 := by have := q.isLt; omega
    refine (concatenate_pair_apply_right (t := S256x1024) (s₁ := S256x768) (s₂ := S256x256) 1 x0 _ _ (ix2 p q) rfl rfl
      (ix2 p (⟨q.val - 768, hq'⟩ : Fin 256)) (fun b hb => ?_) ?_).trans ?_
    · fin_cases b
      · rfl
      · exact absurd rfl hb
    · show (q.val - 768) + 768 = q.val
      omega
    · show Ideal.ofBits .f32 0x00000000#32 = 0
      rw [LibRealArrays.zero_word, EReal.coe_zero]

/-! ## The low-rank projections -/

theorem pay2_at (x0 : Vec Ideal S256x768 .f32) (x3 : Vec Ideal S768x256 .bf16) (p j : Fin 256) :
    k0_pay2 x0 x3 (ix2 p j) = projX x0 x3 p j := by
  unfold k0_pay2 projX
  show FloatOps.matmul dot_S256x768_S768x256_S256x256_1_0_0_1_n_n none
    (truncf .bf16 (x0 : FVec Ideal S256x768 .f32) bitsLt_bf16_f32 : FVec Ideal S256x768 .bf16)
    (shapeCast S768x256 (x3 : FVec Ideal S768x256 .bf16) shapeCasts_S768x256_S768x256 : FVec Ideal S768x256 .bf16)
    (constant S256x256 .f32 0x00000000#32) (ix2 p j) = _
  rw [shapeCast_self]
  exact PlainDot.matmul_zero_apply (M := 256) (K := 768) (N := 256) dot_S256x768_S768x256_S256x256_1_0_0_1_n_n
    rfl rfl rfl rfl rfl rfl rfl rfl none _ _ p j

theorem pay3_at (x1 : Vec Ideal S256x1024 .f32) (x4 : Vec Ideal S1024x256 .bf16) (p j : Fin 256) :
    k0_pay3 x1 x4 (ix2 p j) = projH x1 x4 p j := by
  unfold k0_pay3 projH
  show FloatOps.matmul dot_S256x1024_S1024x256_S256x256_1_0_0_1_n_n none
    (truncf .bf16 (x1 : FVec Ideal S256x1024 .f32) bitsLt_bf16_f32 : FVec Ideal S256x1024 .bf16)
    (shapeCast S1024x256 (x4 : FVec Ideal S1024x256 .bf16) shapeCasts_S1024x256_S1024x256 : FVec Ideal S1024x256 .bf16)
    (constant S256x256 .f32 0x00000000#32) (ix2 p j) = _
  rw [shapeCast_self]
  exact PlainDot.matmul_zero_apply (M := 256) (K := 1024) (N := 256) dot_S256x1024_S1024x256_S256x256_1_0_0_1_n_n
    rfl rfl rfl rfl rfl rfl rfl rfl none _ _ p j

/-! ## A 64-column slice of each projection, the two stacked side by side -/

/-- Columns off … off+63 of two 256-column blocks, side by side. -/
def lowCat (off : Nat) (hs : S256x256.Slices ![0, off] S256x64) (v13 v14 : FVec Ideal S256x256 .bf16) :
    FVec Ideal S256x128 .bf16 :=
  concatenate S256x128 1 [⟨S256x64, extractStridedSlice S256x64 ![0, off] v13 hs⟩,
    ⟨S256x64, extractStridedSlice S256x64 ![0, off] v14 hs⟩] concatenates_S256x64_S256x64_S256x128_d1

theorem lowCat_at (off : Nat) (hoff : off + 64 ≤ 256) (hs : S256x256.Slices ![0, off] S256x64)
    (v13 v14 : FVec Ideal S256x256 .bf16) (p : Fin 256) (k : Fin 128) :
    lowCat off hs v13 v14 (ix2 p k)
      = if hk : k.val < 64 then v13 (ix2 p (⟨off + k.val, by omega⟩ : Fin 256))
        else v14 (ix2 p (⟨off + (k.val - 64), by have := k.isLt; omega⟩ : Fin 256)) := by
  unfold lowCat
  by_cases hk : k.val < 64
  · rw [dif_pos hk]
    refine (concatenate_pair_apply_left (t := S256x128) (s₁ := S256x64) (s₂ := S256x64) 1 _ _ _ (ix2 p k) rfl
      (ix2 p (⟨k.val, hk⟩ : Fin 64)) (fun b => by fin_cases b <;> rfl)).trans ?_
    refine extractStridedSlice_apply (s := S256x256) (t := S256x64) ![0, off] v13 hs _
      (ix2 p (⟨off + k.val, by omega⟩ : Fin 256)) (fun a => ?_)
    fin_cases a
    · show p.val = 0 + p.val
      omega
    · rfl
  · rw [dif_neg hk]
    have hk' : k.val - 64 < 64 := by have := k.isLt; omega
    refine (concatenate_pair_apply_right (t := S256x128) (s₁ := S256x64) (s₂ := S256x64) 1 _ _ _ (ix2 p k) rfl rfl
      (ix2 p (⟨k.val - 64, hk'⟩ : Fin 64)) (fun b hb => ?_) ?_).trans ?_
    · fin_cases b
      · rfl
      · exact absurd rfl hb
    · show (k.val - 64) + 64 = k.val
      omega
    · refine extractStridedSlice_apply (s := S256x256) (t := S256x64) ![0, off] v14 hs _
        (ix2 p (⟨off + (k.val - 64), by omega⟩ : Fin 256)) (fun a => ?_)
      fin_cases a
      · show p.val = 0 + p.val
        omega
      · rfl

/-- Gate g's stacked low-rank row is the slice at offset 64·g of the two projections. -/
theorem low_at (g : Fin 4) (off : Nat) (hg : off = 64 * g.val) (hs : S256x256.Slices ![0, off] S256x64)
    (x0 : Vec Ideal S256x768 .f32) (x1 : Vec Ideal S256x1024 .f32) (x3 : Vec Ideal S768x256 .bf16)
    (x4 : Vec Ideal S1024x256 .bf16) (p : Fin 256) (k : Fin 128) :
    lowCat off hs (k0_pay2 x0 x3) (k0_pay3 x1 x4) (ix2 p k) = lowB x0 x1 x3 x4 g p k := by
  subst hg
  rw [lowCat_at (64 * g.val) (by have := g.isLt; omega)]
  unfold lowB
  by_cases hk : k.val < 64
  · rw [dif_pos hk, dif_pos hk]; exact pay2_at x0 x3 p _
  · rw [dif_neg hk, dif_neg hk]; exact pay3_at x1 x4 p _

/-! ## One gate's pre-activation -/

/-- A [1,1024] row broadcast down 256 rows, at (p, q), is the row's entry at column q. -/
theorem row_at (v : FVec Ideal S1x1024 .f32) (p : Fin 256) (q : Fin 1024) :
    broadcastTo S256x1024 v broadcasts_S1x1024_S256x1024 (ix2 p q) = v (ix2 (0 : Fin 1) q) :=
  broadcastTo_apply (s := S1x1024) (t := S256x1024) v broadcasts_S1x1024_S256x1024 (ix2 p q) (ix2 (0 : Fin 1) q)
    (fun a => by fin_cases a <;> rfl)

/-- The gate's pre-activation as the body computes it from its parts. -/
def gateTerm (xp hb : FVec Ideal S256x1024 .f32) (lw : FVec Ideal S256x128 .bf16) (w : FVec Ideal S128x1024 .bf16)
    (bias dw du : Vec Ideal S1x1024 .f32) : FVec Ideal S256x1024 .f32 :=
  addf (addf (addf (mulf xp (broadcastTo S256x1024 (shapeCast S1x1024 dw shapeCasts_S1x1024_S1x1024) broadcasts_S1x1024_S256x1024))
        (mulf hb (broadcastTo S256x1024 (shapeCast S1x1024 du shapeCasts_S1x1024_S1x1024) broadcasts_S1x1024_S256x1024)))
      (broadcastTo S256x1024 bias broadcasts_S1x1024_S256x1024))
    (matmul dot_S256x128_S128x1024_S256x1024_1_0_0_1_n_n none lw w (constant S256x1024 .f32 0x00000000#32))

theorem gateTerm_at (xp hb : FVec Ideal S256x1024 .f32) (lw : FVec Ideal S256x128 .bf16) (w : FVec Ideal S128x1024 .bf16)
    (bias dw du : Vec Ideal S1x1024 .f32) (p : Fin 256) (q : Fin 1024) :
    gateTerm xp hb lw w bias dw du (ix2 p q)
      = ((xp (ix2 p q) * dw (ix2 (0 : Fin 1) q) + hb (ix2 p q) * du (ix2 (0 : Fin 1) q)) + bias (ix2 (0 : Fin 1) q))
        + ∑ k : Fin 128, lw (ix2 p k) * w (ix2 k q) := by
  unfold gateTerm
  rw [addf_apply, addf_apply, addf_apply, mulf_apply, mulf_apply, row_at, row_at, row_at, shapeCast_self, shapeCast_self]
  congr 1
  exact PlainDot.matmul_zero_apply (M := 256) (K := 128) (N := 1024) dot_S256x128_S128x1024_S256x1024_1_0_0_1_n_n
    rfl rfl rfl rfl rfl rfl rfl rfl none lw w p q

/-! ## The payloads are these terms -/

theorem pay4_eq (v0 : Vec Ideal S256x768 .f32) (v1 : Vec Ideal S256x1024 .f32) (v7 : Vec Ideal S768x256 .bf16)
    (v10 : Vec Ideal S1024x256 .bf16) (v18 : Vec Ideal S128x1024 .bf16) (v21 v25 v30 : Vec Ideal S1x1024 .f32) :
    k0_pay4 v0 v1 v7 v10 v18 v21 v25 v30
      = gateTerm (k0_pay1 v0) v1 (lowCat 0 slices_S256x256_o0_0_S256x64 (k0_pay2 v0 v7) (k0_pay3 v1 v10))
          (shapeCast S128x1024 (v18 : FVec Ideal S128x1024 .bf16) shapeCasts_S128x1024_S128x1024) v30 v21 v25 := rfl

theorem pay5_eq (v0 : Vec Ideal S256x768 .f32) (v1 : Vec Ideal S256x1024 .f32) (v7 : Vec Ideal S768x256 .bf16)
    (v10 : Vec Ideal S1024x256 .bf16) :
    k0_pay5 v0 v1 v7 v10 = lowCat 64 slices_S256x256_o0_64_S256x64 (k0_pay2 v0 v7) (k0_pay3 v1 v10) := rfl

theorem pay6_eq (v1 : Vec Ideal S256x1024 .f32) (v6 : FVec Ideal S256x1024 .f32) (v36 : FVec Ideal S256x128 .bf16)
    (v37 : Vec Ideal S128x1024 .bf16) (v40 v44 v49 : Vec Ideal S1x1024 .f32) :
    k0_pay6 v1 v6 v36 v37 v40 v44 v49
      = gateTerm v6 v1 v36 (shapeCast S128x1024 (v37 : FVec Ideal S128x1024 .bf16) shapeCasts_S128x1024_S128x1024)
          v49 v40 v44 := rfl

theorem pay7_eq (v1 : Vec Ideal S256x1024 .f32) (v6 : FVec Ideal S256x1024 .f32) (v13 v14 : FVec Ideal S256x256 .bf16)
    (v56 : Vec Ideal S128x1024 .bf16) (v59 v63 v68 : Vec Ideal S1x1024 .f32) :
    k0_pay7 v1 v6 v13 v14 v56 v59 v63 v68
      = gateTerm v6 v1 (lowCat 128 slices_S256x256_o0_128_S256x64 v13 v14)
          (shapeCast S128x1024 (v56 : FVec Ideal S128x1024 .bf16) shapeCasts_S128x1024_S128x1024) v68 v59 v63 := rfl

theorem pay8_eq (v13 v14 : FVec Ideal S256x256 .bf16) :
    k0_pay8 v13 v14 = lowCat 192 slices_S256x256_o0_192_S256x64 v13 v14 := rfl

theorem pay9_eq (v75 : Vec Ideal S128x1024 .bf16) : k0_pay9 v75 = v75 :=
  shapeCast_self (s := S128x1024) (v75 : FVec Ideal S128x1024 .bf16) shapeCasts_S128x1024_S128x1024

/-- The new cell value is the cell formula of the three pre-activations and the old cell value. -/
theorem pay10_at (v2 : Vec Ideal S256x1024 .f32) (v33 v52 v71 : FVec Ideal S256x1024 .f32) (i : S256x1024.Idx) :
    k0_pay10 v2 v33 v52 v71 i = Cert.Spec.cellC Cert.Spec.ksig (v33 i) (v52 i) (v71 i) (v2 i) := rfl

/-- The new hidden value is the cell formula with the output gate's pre-activation computed in place. -/
theorem pay11_at (v1 v2 : Vec Ideal S256x1024 .f32) (v6 v33 v52 v71 : FVec Ideal S256x1024 .f32)
    (v74 : FVec Ideal S256x128 .bf16) (v76 : FVec Ideal S128x1024 .bf16) (v78 v82 v87 : Vec Ideal S1x1024 .f32)
    (i : S256x1024.Idx) :
    k0_pay11 v1 v2 v6 v33 v52 v71 v74 v76 v78 v82 v87 i
      = Cert.Spec.cellH Cert.Spec.ksig (v33 i) (v52 i) (v71 i) (gateTerm v6 v1 v74 v76 v87 v78 v82 i) (v2 i) := rfl

/-! ## The four pre-activations of the body -/

section Body

variable (x0 : Vec Ideal S256x768 .f32) (x1 : Vec Ideal S256x1024 .f32) (x2 : Vec Ideal S256x1024 .f32)
  (x3 : Vec Ideal S768x256 .bf16) (x4 : Vec Ideal S1024x256 .bf16)
  (x5 x6 x7 x8 : Vec Ideal S128x1024 .bf16)
  (x9 x10 x11 x12 x13 x14 x15 x16 x17 x18 x19 x20 : Vec Ideal S1x1024 .f32)
  (p : Fin 256) (q : Fin 1024)

/-- A gate term built from the padded x, h, a slice of the two projections, and the gate's rows. -/
theorem gateTerm_low_at (g : Fin 4) (off : Nat) (hg : off = 64 * g.val) (hs : S256x256.Slices ![0, off] S256x64)
    (wu8 : Vec Ideal S128x1024 .bf16) (bias dw du : Vec Ideal S1x1024 .f32) :
    gateTerm (k0_pay1 x0) x1 (lowCat off hs (k0_pay2 x0 x3) (k0_pay3 x1 x4)) wu8 bias dw du (ix2 p q)
      = gateB x0 x1 x3 x4 wu8 bias dw du g p q := by
  rw [gateTerm_at, pay1_at]
  unfold gateB
  congr 1
  exact Finset.sum_congr rfl fun k _ => by rw [low_at g off hg hs]

theorem preF_at : preF x0 x1 x3 x4 x5 x9 x13 x17 (ix2 p q) = gateB x0 x1 x3 x4 x5 x9 x13 x17 0 p q := by
  unfold preF
  simp only [ld_rX, ld_rH, ld_rWu, ld_rUu, ld_rWU, ld_rRow]
  rw [pay4_eq, shapeCast_self]
  exact gateTerm_low_at x0 x1 x3 x4 p q 0 0 rfl _ x5 x9 x13 x17

theorem preI_at : preI x0 x1 x3 x4 x6 x10 x14 x18 (ix2 p q) = gateB x0 x1 x3 x4 x6 x10 x14 x18 1 p q := by
  unfold preI xpad lowI
  simp only [ld_rX, ld_rH, ld_rWu, ld_rUu, ld_rWU, ld_rRow]
  rw [pay6_eq, pay5_eq, shapeCast_self]
  exact gateTerm_low_at x0 x1 x3 x4 p q 1 64 rfl _ x6 x10 x14 x18

theorem preG_at : preG x0 x1 x3 x4 x7 x11 x15 x19 (ix2 p q) = gateB x0 x1 x3 x4 x7 x11 x15 x19 2 p q := by
  unfold preG xpad xproj hproj
  simp only [ld_rX, ld_rH, ld_rWu, ld_rUu, ld_rWU, ld_rRow]
  rw [pay7_eq, shapeCast_self]
  exact gateTerm_low_at x0 x1 x3 x4 p q 2 128 rfl _ x7 x11 x15 x19

/-- The output gate's pre-activation, computed inside the last payload. -/
theorem preO_at :
    gateTerm (xpad x0) (View.ld x1 rH) (lowO x0 x1 x3 x4) (k0_pay9 (View.ld x8 rWU)) (View.ld x12 rRow) (View.ld x16 rRow)
        (View.ld x20 rRow) (ix2 p q)
      = gateB x0 x1 x3 x4 x8 x12 x16 x20 3 p q := by
  unfold xpad lowO xproj hproj
  simp only [ld_rX, ld_rH, ld_rWu, ld_rUu, ld_rWU, ld_rRow]
  rw [pay8_eq, pay9_eq]
  exact gateTerm_low_at x0 x1 x3 x4 p q 3 192 rfl _ x8 x12 x16 x20

/-! ## The two results -/

theorem cNext_at :
    cNext (F := Ideal) x0 x1 x2 x3 x4 x5 x6 x7 x9 x10 x11 x13 x14 x15 x17 x18 x19 (ix2 p q)
      = Cert.Spec.cellC Cert.Spec.ksig (gateB x0 x1 x3 x4 x5 x9 x13 x17 0 p q) (gateB x0 x1 x3 x4 x6 x10 x14 x18 1 p q)
          (gateB x0 x1 x3 x4 x7 x11 x15 x19 2 p q) (x2 (ix2 p q)) := by
  unfold cNext
  rw [pay10_at, preF_at, preI_at, preG_at, ld_rH]

theorem hNext_at :
    hNext (F := Ideal) x0 x1 x2 x3 x4 x5 x6 x7 x8 x9 x10 x11 x12 x13 x14 x15 x16 x17 x18 x19 x20 (ix2 p q)
      = Cert.Spec.cellH Cert.Spec.ksig (gateB x0 x1 x3 x4 x5 x9 x13 x17 0 p q) (gateB x0 x1 x3 x4 x6 x10 x14 x18 1 p q)
          (gateB x0 x1 x3 x4 x7 x11 x15 x19 2 p q) (gateB x0 x1 x3 x4 x8 x12 x16 x20 3 p q) (x2 (ix2 p q)) := by
  unfold hNext
  rw [pay11_at, preF_at, preI_at, preG_at, preO_at, ld_rH]

end Body

/-! ## A block's gate is the array's gate at the block's row -/

section Rows

open Cert.Spec

variable {x : A2 16384 768} {h : A2 16384 1024} {wu : A2 768 64} {wv : A2 64 1024} {uu : A2 1024 64} {uv : A2 64 1024}
  {b : A2 1 1024} {wd : A2 1 768} {ud : A2 1 1024}

/-- If the blocks hold row r of x and h, gate g's columns of the side-by-side first factors, the stacked second factors,
    the bias row and the two corrected diagonal rows, then the block's gate at (p, q) is the kernel form of the gate at
    (r, q). -/
theorem gateB_eq_kerGate (x0 : Vec Ideal S256x768 .f32) (x1 : Vec Ideal S256x1024 .f32) (x3 : Vec Ideal S768x256 .bf16)
    (x4 : Vec Ideal S1024x256 .bf16) (wu8 : Vec Ideal S128x1024 .bf16) (bias dw du : Vec Ideal S1x1024 .f32)
    (g : Fin 4) (p : Fin 256) (r : Fin 16384)
    (hx0 : ∀ i : Fin 768, x0 (ix2 p i) = x (ix2 r i))
    (hx1 : ∀ q : Fin 1024, x1 (ix2 p q) = h (ix2 r q))
    (hx3 : ∀ (i : Fin 768) (k : Fin 64),
      x3 (ix2 i (⟨64 * g.val + k.val, by have := g.isLt; have := k.isLt; omega⟩ : Fin 256)) = wu (ix2 i k))
    (hx4 : ∀ (i : Fin 1024) (k : Fin 64),
      x4 (ix2 i (⟨64 * g.val + k.val, by have := g.isLt; have := k.isLt; omega⟩ : Fin 256)) = uu (ix2 i k))
    (hw : ∀ (k : Fin 128) (q : Fin 1024), wu8 (ix2 k q) = stackV wv uv k q)
    (hbias : ∀ q : Fin 1024, bias (ix2 (0 : Fin 1) q) = b (ix2 (0 : Fin 1) q))
    (hdw : ∀ q : Fin 1024, dw (ix2 (0 : Fin 1) q)
      = if hq : q.val < 768 then wd (ix2 (0 : Fin 1) (lo q hq)) - diagW wu wv (lo q hq) else 0)
    (hdu : ∀ q : Fin 1024, du (ix2 (0 : Fin 1) q) = ud (ix2 (0 : Fin 1) q) - diagU uu uv q)
    (q : Fin 1024) :
    gateB x0 x1 x3 x4 wu8 bias dw du g p q = kerGate x h wu wv uu uv b wd ud r q := by
  have hpad : padX x0 p q = if hq : q.val < 768 then x (ix2 r (lo q hq)) else 0 := by
    unfold padX
    by_cases hq : q.val < 768
    · rw [dif_pos hq, dif_pos hq]; exact hx0 _
    · rw [dif_neg hq, dif_neg hq]
  have hlow : ∀ k : Fin 128, lowB x0 x1 x3 x4 g p k = stackLow x h wu uu r k := fun k => by
    unfold lowB stackLow
    by_cases hk : k.val < 64
    · rw [dif_pos hk, dif_pos hk]
      unfold projX xlow
      exact Finset.sum_congr rfl fun i _ => by rw [hx0 i]; exact congrArg _ (hx3 i ⟨k.val, hk⟩)
    · rw [dif_neg hk, dif_neg hk]
      unfold projH hlow
      exact Finset.sum_congr rfl fun i _ => by
        rw [hx1 i]; exact congrArg _ (hx4 i ⟨k.val - 64, by have := k.isLt; omega⟩)
  unfold gateB kerGate
  rw [hpad, hdw q, hdu q, hbias q, hx1 q]
  congr 1
  exact Finset.sum_congr rfl fun k _ => by rw [hlow k, hw k q]

end Rows

/-! ## The two results at a row of the arrays -/

section Results

open Cert.Spec

variable {x : A2 16384 768} {h cv : A2 16384 1024}
  {wuf wui wug wuo : A2 768 64} {wvf wvi wvg wvo : A2 64 1024}
  {uuf uui uug uuo : A2 1024 64} {uvf uvi uvg uvo : A2 64 1024}
  {bf bi bg bo : A2 1 1024} {wd : A2 1 768} {ud : A2 1 1024}

/-- If the blocks hold row r of x, h and the old cell, the four gates' first factors side by side, and per gate the
    stacked second factors, the bias row and the two corrected diagonal rows, then the new cell block at (p, q) is the
    cell formula of the kernel forms of the gates at (r, q). -/
theorem cNext_rows (x0 : Vec Ideal S256x768 .f32) (x1 x2 : Vec Ideal S256x1024 .f32) (x3 : Vec Ideal S768x256 .bf16)
    (x4 : Vec Ideal S1024x256 .bf16) (x5 x6 x7 : Vec Ideal S128x1024 .bf16)
    (x9 x10 x11 x13 x14 x15 x17 x18 x19 : Vec Ideal S1x1024 .f32) (p : Fin 256) (r : Fin 16384)
    (hx0 : ∀ i : Fin 768, x0 (ix2 p i) = x (ix2 r i))
    (hx1 : ∀ q : Fin 1024, x1 (ix2 p q) = h (ix2 r q))
    (hx2 : ∀ q : Fin 1024, x2 (ix2 p q) = cv (ix2 r q))
    (hx3f : ∀ (i : Fin 768) (k : Fin 64), x3 (ix2 i (⟨64 * 0 + k.val, by have := k.isLt; omega⟩ : Fin 256)) = wuf (ix2 i k))
    (hx3i : ∀ (i : Fin 768) (k : Fin 64), x3 (ix2 i (⟨64 * 1 + k.val, by have := k.isLt; omega⟩ : Fin 256)) = wui (ix2 i k))
    (hx3g : ∀ (i : Fin 768) (k : Fin 64), x3 (ix2 i (⟨64 * 2 + k.val, by have := k.isLt; omega⟩ : Fin 256)) = wug (ix2 i k))
    (hx4f : ∀ (i : Fin 1024) (k : Fin 64), x4 (ix2 i (⟨64 * 0 + k.val, by have := k.isLt; omega⟩ : Fin 256)) = uuf (ix2 i k))
    (hx4i : ∀ (i : Fin 1024) (k : Fin 64), x4 (ix2 i (⟨64 * 1 + k.val, by have := k.isLt; omega⟩ : Fin 256)) = uui (ix2 i k))
    (hx4g : ∀ (i : Fin 1024) (k : Fin 64), x4 (ix2 i (⟨64 * 2 + k.val, by have := k.isLt; omega⟩ : Fin 256)) = uug (ix2 i k))
    (hw5 : ∀ (k : Fin 128) (q : Fin 1024), x5 (ix2 k q) = stackV wvf uvf k q)
    (hw6 : ∀ (k : Fin 128) (q : Fin 1024), x6 (ix2 k q) = stackV wvi uvi k q)
    (hw7 : ∀ (k : Fin 128) (q : Fin 1024), x7 (ix2 k q) = stackV wvg uvg k q)
    (hb9 : ∀ q : Fin 1024, x9 (ix2 (0 : Fin 1) q) = bf (ix2 (0 : Fin 1) q))
    (hb10 : ∀ q : Fin 1024, x10 (ix2 (0 : Fin 1) q) = bi (ix2 (0 : Fin 1) q))
    (hb11 : ∀ q : Fin 1024, x11 (ix2 (0 : Fin 1) q) = bg (ix2 (0 : Fin 1) q))
    (hd13 : ∀ q : Fin 1024, x13 (ix2 (0 : Fin 1) q)
      = if hq : q.val < 768 then wd (ix2 (0 : Fin 1) (lo q hq)) - diagW wuf wvf (lo q hq) else 0)
    (hd14 : ∀ q : Fin 1024, x14 (ix2 (0 : Fin 1) q)
      = if hq : q.val < 768 then wd (ix2 (0 : Fin 1) (lo q hq)) - diagW wui wvi (lo q hq) else 0)
    (hd15 : ∀ q : Fin 1024, x15 (ix2 (0 : Fin 1) q)
      = if hq : q.val < 768 then wd (ix2 (0 : Fin 1) (lo q hq)) - diagW wug wvg (lo q hq) else 0)
    (hd17 : ∀ q : Fin 1024, x17 (ix2 (0 : Fin 1) q) = ud (ix2 (0 : Fin 1) q) - diagU uuf uvf q)
    (hd18 : ∀ q : Fin 1024, x18 (ix2 (0 : Fin 1) q) = ud (ix2 (0 : Fin 1) q) - diagU uui uvi q)
    (hd19 : ∀ q : Fin 1024, x19 (ix2 (0 : Fin 1) q) = ud (ix2 (0 : Fin 1) q) - diagU uug uvg q)
    (q : Fin 1024) :
    cNext (F := Ideal) x0 x1 x2 x3 x4 x5 x6 x7 x9 x10 x11 x13 x14 x15 x17 x18 x19 (ix2 p q)
      = cellC ksig (kerGate x h wuf wvf uuf uvf bf wd ud r q) (kerGate x h wui wvi uui uvi bi wd ud r q)
          (kerGate x h wug wvg uug uvg bg wd ud r q) (cv (ix2 r q)) := by
  rw [cNext_at,
    gateB_eq_kerGate x0 x1 x3 x4 x5 x9 x13 x17 0 p r hx0 hx1 (fun i k => hx3f i k) (fun i k => hx4f i k) hw5 hb9 hd13 hd17 q,
    gateB_eq_kerGate x0 x1 x3 x4 x6 x10 x14 x18 1 p r hx0 hx1 (fun i k => hx3i i k) (fun i k => hx4i i k) hw6 hb10 hd14 hd18 q,
    gateB_eq_kerGate x0 x1 x3 x4 x7 x11 x15 x19 2 p r hx0 hx1 (fun i k => hx3g i k) (fun i k => hx4g i k) hw7 hb11 hd15 hd19 q,
    hx2 q]

/-- The same for the new hidden block, with the output gate. -/
theorem hNext_rows (x0 : Vec Ideal S256x768 .f32) (x1 x2 : Vec Ideal S256x1024 .f32) (x3 : Vec Ideal S768x256 .bf16)
    (x4 : Vec Ideal S1024x256 .bf16) (x5 x6 x7 x8 : Vec Ideal S128x1024 .bf16)
    (x9 x10 x11 x12 x13 x14 x15 x16 x17 x18 x19 x20 : Vec Ideal S1x1024 .f32) (p : Fin 256) (r : Fin 16384)
    (hx0 : ∀ i : Fin 768, x0 (ix2 p i) = x (ix2 r i))
    (hx1 : ∀ q : Fin 1024, x1 (ix2 p q) = h (ix2 r q))
    (hx2 : ∀ q : Fin 1024, x2 (ix2 p q) = cv (ix2 r q))
    (hx3f : ∀ (i : Fin 768) (k : Fin 64), x3 (ix2 i (⟨64 * 0 + k.val, by have := k.isLt; omega⟩ : Fin 256)) = wuf (ix2 i k))
    (hx3i : ∀ (i : Fin 768) (k : Fin 64), x3 (ix2 i (⟨64 * 1 + k.val, by have := k.isLt; omega⟩ : Fin 256)) = wui (ix2 i k))
    (hx3g : ∀ (i : Fin 768) (k : Fin 64), x3 (ix2 i (⟨64 * 2 + k.val, by have := k.isLt; omega⟩ : Fin 256)) = wug (ix2 i k))
    (hx3o : ∀ (i : Fin 768) (k : Fin 64), x3 (ix2 i (⟨64 * 3 + k.val, by have := k.isLt; omega⟩ : Fin 256)) = wuo (ix2 i k))
    (hx4f : ∀ (i : Fin 1024) (k : Fin 64), x4 (ix2 i (⟨64 * 0 + k.val, by have := k.isLt; omega⟩ : Fin 256)) = uuf (ix2 i k))
    (hx4i : ∀ (i : Fin 1024) (k : Fin 64), x4 (ix2 i (⟨64 * 1 + k.val, by have := k.isLt; omega⟩ : Fin 256)) = uui (ix2 i k))
    (hx4g : ∀ (i : Fin 1024) (k : Fin 64), x4 (ix2 i (⟨64 * 2 + k.val, by have := k.isLt; omega⟩ : Fin 256)) = uug (ix2 i k))
    (hx4o : ∀ (i : Fin 1024) (k : Fin 64), x4 (ix2 i (⟨64 * 3 + k.val, by have := k.isLt; omega⟩ : Fin 256)) = uuo (ix2 i k))
    (hw5 : ∀ (k : Fin 128) (q : Fin 1024), x5 (ix2 k q) = stackV wvf uvf k q)
    (hw6 : ∀ (k : Fin 128) (q : Fin 1024), x6 (ix2 k q) = stackV wvi uvi k q)
    (hw7 : ∀ (k : Fin 128) (q : Fin 1024), x7 (ix2 k q) = stackV wvg uvg k q)
    (hw8 : ∀ (k : Fin 128) (q : Fin 1024), x8 (ix2 k q) = stackV wvo uvo k q)
    (hb9 : ∀ q : Fin 1024, x9 (ix2 (0 : Fin 1) q) = bf (ix2 (0 : Fin 1) q))
    (hb10 : ∀ q : Fin 1024, x10 (ix2 (0 : Fin 1) q) = bi (ix2 (0 : Fin 1) q))
    (hb11 : ∀ q : Fin 1024, x11 (ix2 (0 : Fin 1) q) = bg (ix2 (0 : Fin 1) q))
    (hb12 : ∀ q : Fin 1024, x12 (ix2 (0 : Fin 1) q) = bo (ix2 (0 : Fin 1) q))
    (hd13 : ∀ q : Fin 1024, x13 (ix2 (0 : Fin 1) q)
      = if hq : q.val < 768 then wd (ix2 (0 : Fin 1) (lo q hq)) - diagW wuf wvf (lo q hq) else 0)
    (hd14 : ∀ q : Fin 1024, x14 (ix2 (0 : Fin 1) q)
      = if hq : q.val < 768 then wd (ix2 (0 : Fin 1) (lo q hq)) - diagW wui wvi (lo q hq) else 0)
    (hd15 : ∀ q : Fin 1024, x15 (ix2 (0 : Fin 1) q)
      = if hq : q.val < 768 then wd (ix2 (0 : Fin 1) (lo q hq)) - diagW wug wvg (lo q hq) else 0)
    (hd16 : ∀ q : Fin 1024, x16 (ix2 (0 : Fin 1) q)
      = if hq : q.val < 768 then wd (ix2 (0 : Fin 1) (lo q hq)) - diagW wuo wvo (lo q hq) else 0)
    (hd17 : ∀ q : Fin 1024, x17 (ix2 (0 : Fin 1) q) = ud (ix2 (0 : Fin 1) q) - diagU uuf uvf q)
    (hd18 : ∀ q : Fin 1024, x18 (ix2 (0 : Fin 1) q) = ud (ix2 (0 : Fin 1) q) - diagU uui uvi q)
    (hd19 : ∀ q : Fin 1024, x19 (ix2 (0 : Fin 1) q) = ud (ix2 (0 : Fin 1) q) - diagU uug uvg q)
    (hd20 : ∀ q : Fin 1024, x20 (ix2 (0 : Fin 1) q) = ud (ix2 (0 : Fin 1) q) - diagU uuo uvo q)
    (q : Fin 1024) :
    hNext (F := Ideal) x0 x1 x2 x3 x4 x5 x6 x7 x8 x9 x10 x11 x12 x13 x14 x15 x16 x17 x18 x19 x20 (ix2 p q)
      = cellH ksig (kerGate x h wuf wvf uuf uvf bf wd ud r q) (kerGate x h wui wvi uui uvi bi wd ud r q)
          (kerGate x h wug wvg uug uvg bg wd ud r q) (kerGate x h wuo wvo uuo uvo bo wd ud r q) (cv (ix2 r q)) := by
  rw [hNext_at,
    gateB_eq_kerGate x0 x1 x3 x4 x5 x9 x13 x17 0 p r hx0 hx1 (fun i k => hx3f i k) (fun i k => hx4f i k) hw5 hb9 hd13 hd17 q,
    gateB_eq_kerGate x0 x1 x3 x4 x6 x10 x14 x18 1 p r hx0 hx1 (fun i k => hx3i i k) (fun i k => hx4i i k) hw6 hb10 hd14 hd18 q,
    gateB_eq_kerGate x0 x1 x3 x4 x7 x11 x15 x19 2 p r hx0 hx1 (fun i k => hx3g i k) (fun i k => hx4g i k) hw7 hb11 hd15 hd19 q,
    gateB_eq_kerGate x0 x1 x3 x4 x8 x12 x16 x20 3 p r hx0 hx1 (fun i k => hx3o i k) (fun i k => hx4o i k) hw8 hb12 hd16 hd20 q,
    hx2 q]

end Results

end Cert.KIPayload

end
-- ==== Proof.KIOperands.lean ====
/-
  The operands the kernel is handed, read at an index.

  Before its one pipelined region the program computes thirteen arrays from its arguments: the four gates' first
  factors for x, and for h, laid side by side; per gate the two second factors stacked; per gate the row
  wd − diag(wu·wv) padded with zeros to 1024 columns and the row ud − diag(uu·uv).  Each is a composition of array
  operations of the argument arrays; read at an index it is the entry the specification names.  A change of float
  format is the identity on extended reals.
-/
import proofs.«121209_j33517924778468_2_alg».proof.Proof.KIFrameBase
import proofs.«121209_j33517924778468_2_alg».proof.Proof.Spec
import Idealize.ShloMosaic.Lib.StableHlo.Run
import Idealize.ShloMosaic.Lib.Pipeline.Value
import Idealize.ShloMosaic.Lib.ValueIdx
import Idealize.ShloMosaic.PureOps.Ideal.Laws
import Idealize.ShloMosaic.Lib.IdealHost

set_option maxRecDepth 16384

noncomputable section

namespace Cert.KIOperands

open Idealize.ShloMosaic Idealize.ShloMosaic.TcCoe Idealize.ShloMosaic.ValueIdx
open Idealize.SL.Sem
open Cert.KernelIdeal Cert.KernelIdeal.Gen Cert.KernelIdeal.Hand Cert.Spec

/-- An array of 32-bit floats of shape s, its entries extended reals. -/
abbrev Arr (s : Shape) : Type := FVec Ideal s .f32
/-- An array of 16-bit floats of shape s, its entries extended reals. -/
abbrev ArrB (s : Shape) : Type := FVec Ideal s .bf16

/-! ## The host lines as functions of the argument arrays -/

/-- The diagonal of wu·wv as the host computes it: the row sums of wu times the transposed first 768 columns of wv. -/
def sumW (wu : Arr S768x64) (wv : Arr S64x1024) : Arr S768 :=
  Host.reduceAdd (F := Ideal) (mulf wu (transpose S768x64 [1, 0] (extractStridedSlice S64x768 ![0, 0] wv slices_S64x1024_S64x768_0_0)
    transposes_S64x768_S768x64_1_0)) (constant S_ .f32 0x00000000#32) reducesTo_S768x64_S768_d1 h_S_

/-- The diagonal of uu·uv as the host computes it: the row sums of uu times the transposed uv. -/
def sumU (uu : Arr S1024x64) (uv : Arr S64x1024) : Arr S1024 :=
  Host.reduceAdd (F := Ideal) (mulf uu (transpose S1024x64 [1, 0] uv transposes_S64x1024_S1024x64_1_0))
    (constant S_ .f32 0x00000000#32) reducesTo_S1024x64_S1024_d1 h_S_

/-- The row wd − diag(wu·wv), padded with 256 zero columns. -/
def rowW (wu : Arr S768x64) (wv : Arr S64x1024) (wd : Arr S1x768) : Arr S1x1024 :=
  pad S1x1024 ![0, 0] ![0, 256] ![0, 0] (subf (F := Ideal) wd (fun i => shapeCast S1x768 (sumW wu wv) shapeCasts_S768_S1x768 i))
    (sitofp (F := Ideal) .f32 (constantI S_ 32 0#32)) pads_S1x768_S1x1024_000_02560 h_S_

/-- The row ud − diag(uu·uv). -/
def rowU (uu : Arr S1024x64) (uv : Arr S64x1024) (ud : Arr S1x1024) : Arr S1x1024 :=
  subf (F := Ideal) ud (fun i => shapeCast S1x1024 (sumU uu uv) shapeCasts_S1024_S1x1024 i)

/-- The second factors of a gate stacked: wv on top of uv. -/
def stk (wv uv : Arr S64x1024) : ArrB S128x1024 :=
  truncf (F := Ideal) .bf16 (concatenate S128x1024 0 [⟨S64x1024, wv⟩, ⟨S64x1024, uv⟩] concatenates_S64x1024_S64x1024_S128x1024_d0)
    bitsLt_bf16_f32

/-- The four gates' first factors for x side by side. -/
def catW (w0 w1 w2 w3 : Arr S768x64) : ArrB S768x256 :=
  truncf (F := Ideal) .bf16 (concatenate S768x256 1 [⟨S768x64, w0⟩, ⟨S768x64, w1⟩, ⟨S768x64, w2⟩, ⟨S768x64, w3⟩]
    concatenates_S768x64_S768x64_S768x64_S768x64_S768x256_d1) bitsLt_bf16_f32

/-- The four gates' first factors for h side by side. -/
def catU (u0 u1 u2 u3 : Arr S1024x64) : ArrB S1024x256 :=
  truncf (F := Ideal) .bf16 (concatenate S1024x256 1 [⟨S1024x64, u0⟩, ⟨S1024x64, u1⟩, ⟨S1024x64, u2⟩, ⟨S1024x64, u3⟩]
    concatenates_S1024x64_S1024x64_S1024x64_S1024x64_S1024x256_d1) bitsLt_bf16_f32

/-! ## Those functions read at an index -/

/-- The host's diagonal of wu·wv at c is the specification's. -/
theorem sumW_at (wu : Arr S768x64) (wv : Arr S64x1024) (c : Fin 768) : sumW wu wv (ix1 c) = diagW wu wv c := by
  unfold sumW diagW
  simp only [Host.reduceAdd, Ideal.hostReduceAdd_def]
  rw [Ideal.hostReduceAdd_single reducesTo_S768x64_S768_d1 (by decide),
    show (constant (F := Ideal) S_ .f32 0x00000000#32) (Shape.Idx.first h_S_) = 0 from Ideal.ofBits_zero_f32, zero_add]
  refine Finset.sum_congr rfl fun (k : Fin 64) _ => ?_
  refine (congrArg (mulf wu _) (show _ = ix2 c k from
    funext fun a => Fin.ext (by match a with | ⟨0, _⟩ => rfl | ⟨1, _⟩ => rfl))).trans ?_
  rw [mulf_apply, transpose_apply [1, 0] _ transposes_S64x768_S768x64_1_0 (ix2 c k) (ix2 k c)
      (fun b => match b with | ⟨0, _⟩ => rfl | ⟨1, _⟩ => rfl),
    extractStridedSlice_apply ![0, 0] wv slices_S64x1024_S64x768_0_0 (ix2 k c)
      (ix2 k (⟨c.val, by have := c.isLt; omega⟩ : Fin 1024))
      (fun a => match a with
        | ⟨0, _⟩ => by show k.val = 0 + k.val; omega
        | ⟨1, _⟩ => by show c.val = 0 + c.val; omega)]

/-- The host's diagonal of uu·uv at q is the specification's. -/
theorem sumU_at (uu : Arr S1024x64) (uv : Arr S64x1024) (q : Fin 1024) : sumU uu uv (ix1 q) = diagU uu uv q := by
  unfold sumU diagU
  simp only [Host.reduceAdd, Ideal.hostReduceAdd_def]
  rw [Ideal.hostReduceAdd_single reducesTo_S1024x64_S1024_d1 (by decide),
    show (constant (F := Ideal) S_ .f32 0x00000000#32) (Shape.Idx.first h_S_) = 0 from Ideal.ofBits_zero_f32, zero_add]
  refine Finset.sum_congr rfl fun (k : Fin 64) _ => ?_
  refine (congrArg (mulf uu _) (show _ = ix2 q k from
    funext fun a => Fin.ext (by match a with | ⟨0, _⟩ => rfl | ⟨1, _⟩ => rfl))).trans ?_
  rw [mulf_apply, transpose_apply [1, 0] uv transposes_S64x1024_S1024x64_1_0 (ix2 q k) (ix2 k q)
      (fun b => match b with | ⟨0, _⟩ => rfl | ⟨1, _⟩ => rfl)]

/-- The row ud − diag(uu·uv) at column q. -/
theorem rowU_at (uu : Arr S1024x64) (uv : Arr S64x1024) (ud : Arr S1x1024) (q : Fin 1024) :
    rowU uu uv ud (ix2 (0 : Fin 1) q) = ud (ix2 (0 : Fin 1) q) - diagU uu uv q := by
  unfold rowU
  rw [subf_apply, shapeCast_apply (sumU uu uv) shapeCasts_S1024_S1x1024 (ix2 (0 : Fin 1) q) (ix1 q)
    (by rw [Shape.rowMajor_val_one, Shape.rowMajor_val_two]; show q.val = 0 * 1024 + q.val; omega), sumU_at]

/-- The integer zero converted to a float is zero. -/
theorem padv_at (i : S_.Idx) : sitofp (F := Ideal) .f32 (constantI S_ 32 0#32) i = 0 := by
  show (((0#32 : BitVec 32).toInt : ℝ) : EReal) = 0
  rw [show (0#32 : BitVec 32).toInt = 0 from by decide, Int.cast_zero, EReal.coe_zero]

/-- The padded row wd − diag(wu·wv) at column q: the difference below column 768, zero from there on. -/
theorem rowW_at (wu : Arr S768x64) (wv : Arr S64x1024) (wd : Arr S1x768) (q : Fin 1024) :
    rowW wu wv wd (ix2 (0 : Fin 1) q)
      = if hq : q.val < 768 then wd (ix2 (0 : Fin 1) (lo q hq)) - diagW wu wv (lo q hq) else 0 := by
  unfold rowW pad
  by_cases hq : q.val < 768
  · rw [dif_pos hq, dif_pos (fun a => match a with
      | ⟨0, _⟩ => ⟨Nat.zero_le _, rfl, by show (0 - 0) / (0 + 1) < 1; omega⟩
      | ⟨1, _⟩ => ⟨Nat.zero_le _, by show (q.val - 0) % (0 + 1) = 0; omega, by show (q.val - 0) / (0 + 1) < 768; omega⟩)]
    refine (congrArg (subf (F := Ideal) wd _) (show _ = ix2 (0 : Fin 1) (lo q hq) from
      funext fun a => Fin.ext (by
        match a with
        | ⟨0, _⟩ => show ((0 : Nat) - 0) / (0 + 1) = 0; omega
        | ⟨1, _⟩ => show (q.val - 0) / (0 + 1) = q.val; omega))).trans ?_
    rw [subf_apply, shapeCast_apply (sumW wu wv) shapeCasts_S768_S1x768 (ix2 (0 : Fin 1) (lo q hq)) (ix1 (lo q hq))
      (by rw [Shape.rowMajor_val_one, Shape.rowMajor_val_two]; show q.val = 0 * 768 + q.val; omega), sumW_at]
  · rw [dif_neg hq, dif_neg (fun hin => hq (by
      have := (hin ⟨1, by decide⟩).2.2
      revert this
      show (q.val - 0) / (0 + 1) < 768 → _
      omega))]
    exact padv_at _

/-- The stacked second factors at (k, q): wv's row k above row 64, uv's row k − 64 from there on. -/
theorem stk_at (wv uv : Arr S64x1024) (k : Fin 128) (q : Fin 1024) : stk wv uv (ix2 k q) = stackV wv uv k q := by
  unfold stk stackV
  by_cases hk : k.val < 64
  · rw [dif_pos hk]
    exact concatenate_pair_apply_left (t := S128x1024) (s₁ := S64x1024) (s₂ := S64x1024) 0 wv uv
      concatenates_S64x1024_S64x1024_S128x1024_d0 (ix2 k q) rfl
      (ix2 (⟨k.val, hk⟩ : Fin 64) q) (fun b => match b with | ⟨0, _⟩ => rfl | ⟨1, _⟩ => rfl)
  · rw [dif_neg hk]
    exact concatenate_pair_apply_right (t := S128x1024) (s₁ := S64x1024) (s₂ := S64x1024) 0 wv uv
      concatenates_S64x1024_S64x1024_S128x1024_d0 (ix2 k q) rfl rfl
      (ix2 (⟨k.val - 64, by have := k.isLt; omega⟩ : Fin 64) q)
      (fun b hb => match b, hb with | ⟨0, _⟩, hb => absurd rfl hb | ⟨1, _⟩, _ => rfl)
      (by show (k.val - 64) + 64 = k.val; omega)

/-- Piece g of the four first factors for x laid side by side: columns 64·g … 64·g + 63 are the g-th factor. -/
theorem catW_piece (w0 w1 w2 w3 : Arr S768x64) (g : Nat) (hg : g < 4) (x : Arr S768x64)
    (hx : ([⟨S768x64, w0⟩, ⟨S768x64, w1⟩, ⟨S768x64, w2⟩, ⟨S768x64, w3⟩] : List ((s : Shape) × (s.Idx → EReal)))[g]'hg
      = ⟨S768x64, x⟩) (i : Fin 768) (k : Fin 64) :
    catW w0 w1 w2 w3 (ix2 i (⟨64 * g + k.val, by have := k.isLt; omega⟩ : Fin 256)) = x (ix2 i k) := by
  unfold catW
  refine concatenate_apply_piece (t := S768x256) 1 [⟨S768x64, w0⟩, ⟨S768x64, w1⟩, ⟨S768x64, w2⟩, ⟨S768x64, w3⟩]
    concatenates_S768x64_S768x64_S768x64_S768x64_S768x256_d1 _ g hg
    S768x64 x hx rfl (64 * g) ?_ (ix2 i k) ?_ ?_
  · interval_cases g <;> rfl
  · intro b hb
    match b, hb with
    | ⟨0, _⟩, _ => rfl
    | ⟨1, _⟩, hb => exact absurd rfl hb
  · rfl

/-- Piece g of the four first factors for h laid side by side. -/
theorem catU_piece (u0 u1 u2 u3 : Arr S1024x64) (g : Nat) (hg : g < 4) (x : Arr S1024x64)
    (hx : ([⟨S1024x64, u0⟩, ⟨S1024x64, u1⟩, ⟨S1024x64, u2⟩, ⟨S1024x64, u3⟩] : List ((s : Shape) × (s.Idx → EReal)))[g]'hg
      = ⟨S1024x64, x⟩) (i : Fin 1024) (k : Fin 64) :
    catU u0 u1 u2 u3 (ix2 i (⟨64 * g + k.val, by have := k.isLt; omega⟩ : Fin 256)) = x (ix2 i k) := by
  unfold catU
  refine concatenate_apply_piece (t := S1024x256) 1 [⟨S1024x64, u0⟩, ⟨S1024x64, u1⟩, ⟨S1024x64, u2⟩, ⟨S1024x64, u3⟩]
    concatenates_S1024x64_S1024x64_S1024x64_S1024x64_S1024x256_d1 _ g hg
    S1024x64 x hx rfl (64 * g) ?_ (ix2 i k) ?_ ?_
  · interval_cases g <;> rfl
  · intro b hb
    match b, hb with
    | ⟨0, _⟩, _ => rfl
    | ⟨1, _⟩, hb => exact absurd rfl hb
  · rfl

/-! ## The operands the region is handed, as those functions of the launch contents -/

set_option maxHeartbeats 4000000 in
theorem V_main_v6 (m : (ℓ : Loc nD τ sig) → Buf (Elt Ideal) ℓ) (c : Dev nD) :
    (V m c main_v6 : Arr S1x1024) = rowW (m ((c : Thread nD τ).loc main_arg3)) (m ((c : Thread nD τ).loc main_arg11)) (m ((c : Thread nD τ).loc main_arg23)) := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

set_option maxHeartbeats 4000000 in
theorem V_main_v13 (m : (ℓ : Loc nD τ sig) → Buf (Elt Ideal) ℓ) (c : Dev nD) :
    (V m c main_v13 : Arr S1x1024) = rowW (m ((c : Thread nD τ).loc main_arg4)) (m ((c : Thread nD τ).loc main_arg12)) (m ((c : Thread nD τ).loc main_arg23)) := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

set_option maxHeartbeats 4000000 in
theorem V_main_v20 (m : (ℓ : Loc nD τ sig) → Buf (Elt Ideal) ℓ) (c : Dev nD) :
    (V m c main_v20 : Arr S1x1024) = rowW (m ((c : Thread nD τ).loc main_arg5)) (m ((c : Thread nD τ).loc main_arg13)) (m ((c : Thread nD τ).loc main_arg23)) := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

set_option maxHeartbeats 4000000 in
theorem V_main_v27 (m : (ℓ : Loc nD τ sig) → Buf (Elt Ideal) ℓ) (c : Dev nD) :
    (V m c main_v27 : Arr S1x1024) = rowW (m ((c : Thread nD τ).loc main_arg6)) (m ((c : Thread nD τ).loc main_arg14)) (m ((c : Thread nD τ).loc main_arg23)) := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

set_option maxHeartbeats 4000000 in
theorem V_main_v32 (m : (ℓ : Loc nD τ sig) → Buf (Elt Ideal) ℓ) (c : Dev nD) :
    (V m c main_v32 : Arr S1x1024) = rowU (m ((c : Thread nD τ).loc main_arg7)) (m ((c : Thread nD τ).loc main_arg15)) (m ((c : Thread nD τ).loc main_arg24)) := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

set_option maxHeartbeats 4000000 in
theorem V_main_v37 (m : (ℓ : Loc nD τ sig) → Buf (Elt Ideal) ℓ) (c : Dev nD) :
    (V m c main_v37 : Arr S1x1024) = rowU (m ((c : Thread nD τ).loc main_arg8)) (m ((c : Thread nD τ).loc main_arg16)) (m ((c : Thread nD τ).loc main_arg24)) := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

set_option maxHeartbeats 4000000 in
theorem V_main_v42 (m : (ℓ : Loc nD τ sig) → Buf (Elt Ideal) ℓ) (c : Dev nD) :
    (V m c main_v42 : Arr S1x1024) = rowU (m ((c : Thread nD τ).loc main_arg9)) (m ((c : Thread nD τ).loc main_arg17)) (m ((c : Thread nD τ).loc main_arg24)) := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

set_option maxHeartbeats 4000000 in
theorem V_main_v47 (m : (ℓ : Loc nD τ sig) → Buf (Elt Ideal) ℓ) (c : Dev nD) :
    (V m c main_v47 : Arr S1x1024) = rowU (m ((c : Thread nD τ).loc main_arg10)) (m ((c : Thread nD τ).loc main_arg18)) (m ((c : Thread nD τ).loc main_arg24)) := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

set_option maxHeartbeats 4000000 in
theorem V_main_v53 (m : (ℓ : Loc nD τ sig) → Buf (Elt Ideal) ℓ) (c : Dev nD) :
    (V m c main_v53 : ArrB S128x1024) = stk (m ((c : Thread nD τ).loc main_arg11)) (m ((c : Thread nD τ).loc main_arg15)) := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

set_option maxHeartbeats 4000000 in
theorem V_main_v55 (m : (ℓ : Loc nD τ sig) → Buf (Elt Ideal) ℓ) (c : Dev nD) :
    (V m c main_v55 : ArrB S128x1024) = stk (m ((c : Thread nD τ).loc main_arg12)) (m ((c : Thread nD τ).loc main_arg16)) := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

set_option maxHeartbeats 4000000 in
theorem V_main_v57 (m : (ℓ : Loc nD τ sig) → Buf (Elt Ideal) ℓ) (c : Dev nD) :
    (V m c main_v57 : ArrB S128x1024) = stk (m ((c : Thread nD τ).loc main_arg13)) (m ((c : Thread nD τ).loc main_arg17)) := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

set_option maxHeartbeats 4000000 in
theorem V_main_v59 (m : (ℓ : Loc nD τ sig) → Buf (Elt Ideal) ℓ) (c : Dev nD) :
    (V m c main_v59 : ArrB S128x1024) = stk (m ((c : Thread nD τ).loc main_arg14)) (m ((c : Thread nD τ).loc main_arg18)) := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

set_option maxHeartbeats 4000000 in
theorem V_main_v49 (m : (ℓ : Loc nD τ sig) → Buf (Elt Ideal) ℓ) (c : Dev nD) :
    (V m c main_v49 : ArrB S768x256) = catW (m ((c : Thread nD τ).loc main_arg3)) (m ((c : Thread nD τ).loc main_arg4)) (m ((c : Thread nD τ).loc main_arg5)) (m ((c : Thread nD τ).loc main_arg6)) := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

set_option maxHeartbeats 4000000 in
theorem V_main_v51 (m : (ℓ : Loc nD τ sig) → Buf (Elt Ideal) ℓ) (c : Dev nD) :
    (V m c main_v51 : ArrB S1024x256) = catU (m ((c : Thread nD τ).loc main_arg7)) (m ((c : Thread nD τ).loc main_arg8)) (m ((c : Thread nD τ).loc main_arg9)) (m ((c : Thread nD τ).loc main_arg10)) := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

/-! ## The operands read at an index -/

/-- Column q of the padded row wd − diag(wu·wv): the factor the kernel multiplies the padded x by. -/
def wRow (wu : A2 768 64) (wv : A2 64 1024) (wd : A2 1 768) (q : Fin 1024) : EReal :=
  if hq : q.val < 768 then wd (ix2 (0 : Fin 1) (lo q hq)) - diagW wu wv (lo q hq) else 0

/-- Column q of the row ud − diag(uu·uv): the factor the kernel multiplies h by. -/
def uRow (uu : A2 1024 64) (uv : A2 64 1024) (ud : A2 1 1024) (q : Fin 1024) : EReal :=
  ud (ix2 (0 : Fin 1) q) - diagU uu uv q

/-- The kernel's pre-activation in terms of the two rows. -/
theorem kerGate_rows (x : A2 16384 768) (h : A2 16384 1024) (wu : A2 768 64) (wv : A2 64 1024) (uu : A2 1024 64)
    (uv : A2 64 1024) (b : A2 1 1024) (wd : A2 1 768) (ud : A2 1 1024) (r : Fin 16384) (q : Fin 1024) :
    kerGate x h wu wv uu uv b wd ud r q
      = ((((if hq : q.val < 768 then x (ix2 r (lo q hq)) else 0) * wRow wu wv wd q + h (ix2 r q) * uRow uu uv ud q)
          + b (ix2 (0 : Fin 1) q)) + ∑ k : Fin 128, stackLow x h wu uu r k * stackV wv uv k q) := rfl

section Reads

variable (m : (ℓ : Loc nD τ sig) → Buf (Elt Ideal) ℓ) (c : Dev nD)

/-- Gate f's padded row wd − diag(wu·wv), at column q. -/
theorem main_v6_at (q : Fin 1024) :
    (V m c main_v6 : Arr S1x1024) (ix2 (0 : Fin 1) q)
      = wRow (m ((c : Thread nD τ).loc main_arg3)) (m ((c : Thread nD τ).loc main_arg11)) (m ((c : Thread nD τ).loc main_arg23)) q :=
  (congrFun (V_main_v6 m c) _).trans (rowW_at _ _ _ q)

/-- Gate i's padded row wd − diag(wu·wv), at column q. -/
theorem main_v13_at (q : Fin 1024) :
    (V m c main_v13 : Arr S1x1024) (ix2 (0 : Fin 1) q)
      = wRow (m ((c : Thread nD τ).loc main_arg4)) (m ((c : Thread nD τ).loc main_arg12)) (m ((c : Thread nD τ).loc main_arg23)) q :=
  (congrFun (V_main_v13 m c) _).trans (rowW_at _ _ _ q)

/-- Gate g's padded row wd − diag(wu·wv), at column q. -/
theorem main_v20_at (q : Fin 1024) :
    (V m c main_v20 : Arr S1x1024) (ix2 (0 : Fin 1) q)
      = wRow (m ((c : Thread nD τ).loc main_arg5)) (m ((c : Thread nD τ).loc main_arg13)) (m ((c : Thread nD τ).loc main_arg23)) q :=
  (congrFun (V_main_v20 m c) _).trans (rowW_at _ _ _ q)

/-- Gate o's padded row wd − diag(wu·wv), at column q. -/
theorem main_v27_at (q : Fin 1024) :
    (V m c main_v27 : Arr S1x1024) (ix2 (0 : Fin 1) q)
      = wRow (m ((c : Thread nD τ).loc main_arg6)) (m ((c : Thread nD τ).loc main_arg14)) (m ((c : Thread nD τ).loc main_arg23)) q :=
  (congrFun (V_main_v27 m c) _).trans (rowW_at _ _ _ q)

/-- Gate f's row ud − diag(uu·uv), at column q. -/
theorem main_v32_at (q : Fin 1024) :
    (V m c main_v32 : Arr S1x1024) (ix2 (0 : Fin 1) q)
      = uRow (m ((c : Thread nD τ).loc main_arg7)) (m ((c : Thread nD τ).loc main_arg15)) (m ((c : Thread nD τ).loc main_arg24)) q :=
  (congrFun (V_main_v32 m c) _).trans (rowU_at _ _ _ q)

/-- Gate i's row ud − diag(uu·uv), at column q. -/
theorem main_v37_at (q : Fin 1024) :
    (V m c main_v37 : Arr S1x1024) (ix2 (0 : Fin 1) q)
      = uRow (m ((c : Thread nD τ).loc main_arg8)) (m ((c : Thread nD τ).loc main_arg16)) (m ((c : Thread nD τ).loc main_arg24)) q :=
  (congrFun (V_main_v37 m c) _).trans (rowU_at _ _ _ q)

/-- Gate g's row ud − diag(uu·uv), at column q. -/
theorem main_v42_at (q : Fin 1024) :
    (V m c main_v42 : Arr S1x1024) (ix2 (0 : Fin 1) q)
      = uRow (m ((c : Thread nD τ).loc main_arg9)) (m ((c : Thread nD τ).loc main_arg17)) (m ((c : Thread nD τ).loc main_arg24)) q :=
  (congrFun (V_main_v42 m c) _).trans (rowU_at _ _ _ q)

/-- Gate o's row ud − diag(uu·uv), at column q. -/
theorem main_v47_at (q : Fin 1024) :
    (V m c main_v47 : Arr S1x1024) (ix2 (0 : Fin 1) q)
      = uRow (m ((c : Thread nD τ).loc main_arg10)) (m ((c : Thread nD τ).loc main_arg18)) (m ((c : Thread nD τ).loc main_arg24)) q :=
  (congrFun (V_main_v47 m c) _).trans (rowU_at _ _ _ q)

/-- Gate f's stacked second factors, at (k, q). -/
theorem main_v53_at (k : Fin 128) (q : Fin 1024) :
    (V m c main_v53 : ArrB S128x1024) (ix2 k q)
      = stackV (m ((c : Thread nD τ).loc main_arg11)) (m ((c : Thread nD τ).loc main_arg15)) k q :=
  (congrFun (V_main_v53 m c) _).trans (stk_at _ _ k q)

/-- Gate i's stacked second factors, at (k, q). -/
theorem main_v55_at (k : Fin 128) (q : Fin 1024) :
    (V m c main_v55 : ArrB S128x1024) (ix2 k q)
      = stackV (m ((c : Thread nD τ).loc main_arg12)) (m ((c : Thread nD τ).loc main_arg16)) k q :=
  (congrFun (V_main_v55 m c) _).trans (stk_at _ _ k q)

/-- Gate g's stacked second factors, at (k, q). -/
theorem main_v57_at (k : Fin 128) (q : Fin 1024) :
    (V m c main_v57 : ArrB S128x1024) (ix2 k q)
      = stackV (m ((c : Thread nD τ).loc main_arg13)) (m ((c : Thread nD τ).loc main_arg17)) k q :=
  (congrFun (V_main_v57 m c) _).trans (stk_at _ _ k q)

/-- Gate o's stacked second factors, at (k, q). -/
theorem main_v59_at (k : Fin 128) (q : Fin 1024) :
    (V m c main_v59 : ArrB S128x1024) (ix2 k q)
      = stackV (m ((c : Thread nD τ).loc main_arg14)) (m ((c : Thread nD τ).loc main_arg18)) k q :=
  (congrFun (V_main_v59 m c) _).trans (stk_at _ _ k q)

/-- The joined first factors for x: columns 0 … 63 are gate f's factor. -/
theorem main_v49_at_0 (i : Fin 768) (k : Fin 64) :
    (V m c main_v49 : ArrB S768x256) (ix2 i (⟨64 * 0 + k.val, by have := k.isLt; omega⟩ : Fin 256))
      = ((m ((c : Thread nD τ).loc main_arg3)) : Arr S768x64) (ix2 i k) :=
  (congrFun (V_main_v49 m c) _).trans (catW_piece _ _ _ _ 0 (by decide) _ rfl i k)

/-- The joined first factors for x: columns 64 … 127 are gate i's factor. -/
theorem main_v49_at_1 (i : Fin 768) (k : Fin 64) :
    (V m c main_v49 : ArrB S768x256) (ix2 i (⟨64 * 1 + k.val, by have := k.isLt; omega⟩ : Fin 256))
      = ((m ((c : Thread nD τ).loc main_arg4)) : Arr S768x64) (ix2 i k) :=
  (congrFun (V_main_v49 m c) _).trans (catW_piece _ _ _ _ 1 (by decide) _ rfl i k)

/-- The joined first factors for x: columns 128 … 191 are gate g's factor. -/
theorem main_v49_at_2 (i : Fin 768) (k : Fin 64) :
    (V m c main_v49 : ArrB S768x256) (ix2 i (⟨64 * 2 + k.val, by have := k.isLt; omega⟩ : Fin 256))
      = ((m ((c : Thread nD τ).loc main_arg5)) : Arr S768x64) (ix2 i k) :=
  (congrFun (V_main_v49 m c) _).trans (catW_piece _ _ _ _ 2 (by decide) _ rfl i k)

/-- The joined first factors for x: columns 192 … 255 are gate o's factor. -/
theorem main_v49_at_3 (i : Fin 768) (k : Fin 64) :
    (V m c main_v49 : ArrB S768x256) (ix2 i (⟨64 * 3 + k.val, by have := k.isLt; omega⟩ : Fin 256))
      = ((m ((c : Thread nD τ).loc main_arg6)) : Arr S768x64) (ix2 i k) :=
  (congrFun (V_main_v49 m c) _).trans (catW_piece _ _ _ _ 3 (by decide) _ rfl i k)

/-- The joined first factors for h: columns 0 … 63 are gate f's factor. -/
theorem main_v51_at_0 (i : Fin 1024) (k : Fin 64) :
    (V m c main_v51 : ArrB S1024x256) (ix2 i (⟨64 * 0 + k.val, by have := k.isLt; omega⟩ : Fin 256))
      = ((m ((c : Thread nD τ).loc main_arg7)) : Arr S1024x64) (ix2 i k) :=
  (congrFun (V_main_v51 m c) _).trans (catU_piece _ _ _ _ 0 (by decide) _ rfl i k)

/-- The joined first factors for h: columns 64 … 127 are gate i's factor. -/
theorem main_v51_at_1 (i : Fin 1024) (k : Fin 64) :
    (V m c main_v51 : ArrB S1024x256) (ix2 i (⟨64 * 1 + k.val, by have := k.isLt; omega⟩ : Fin 256))
      = ((m ((c : Thread nD τ).loc main_arg8)) : Arr S1024x64) (ix2 i k) :=
  (congrFun (V_main_v51 m c) _).trans (catU_piece _ _ _ _ 1 (by decide) _ rfl i k)

/-- The joined first factors for h: columns 128 … 191 are gate g's factor. -/
theorem main_v51_at_2 (i : Fin 1024) (k : Fin 64) :
    (V m c main_v51 : ArrB S1024x256) (ix2 i (⟨64 * 2 + k.val, by have := k.isLt; omega⟩ : Fin 256))
      = ((m ((c : Thread nD τ).loc main_arg9)) : Arr S1024x64) (ix2 i k) :=
  (congrFun (V_main_v51 m c) _).trans (catU_piece _ _ _ _ 2 (by decide) _ rfl i k)

/-- The joined first factors for h: columns 192 … 255 are gate o's factor. -/
theorem main_v51_at_3 (i : Fin 1024) (k : Fin 64) :
    (V m c main_v51 : ArrB S1024x256) (ix2 i (⟨64 * 3 + k.val, by have := k.isLt; omega⟩ : Fin 256))
      = ((m ((c : Thread nD τ).loc main_arg10)) : Arr S1024x64) (ix2 i k) :=
  (congrFun (V_main_v51 m c) _).trans (catU_piece _ _ _ _ 3 (by decide) _ rfl i k)

end Reads

end Cert.KIOperands

end
-- ==== Proof.KIValue.lean ====
/-
  The kernel's two result arrays as functions of the argument arrays.

  Every grid point t writes back rows 256·t … 256·t + 255 of each result; at row r = 256·t + p and column q the block's
  value is the cell formula of the four gates in their kernel form at (r, q), because the blocks the body loads are rows
  of x, h and the old cell, and whole copies of the host-prepared operands.  The blocks cover the arrays, so each result
  array IS that function of the arguments; the arguments themselves are left unchanged.
-/
import proofs.«121209_j33517924778468_2_alg».proof.Proof.KIFrameRun
import proofs.«121209_j33517924778468_2_alg».proof.Proof.KIBlocks
import proofs.«121209_j33517924778468_2_alg».proof.Proof.KIPayload
import proofs.«121209_j33517924778468_2_alg».proof.Proof.KIOperands

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-! ## The results by coordinates -/

/-- The new cell value at row r, column q. -/
def KCat (c : Dev nD) (r : Fin 16384) (q : Fin 1024) : EReal :=
  Cert.Spec.cellC Cert.Spec.ksig
    (Cert.Spec.kerGate (m ((c : Thread nD τ).loc main_arg0)) (m ((c : Thread nD τ).loc main_arg1)) (m ((c : Thread nD τ).loc main_arg3)) (m ((c : Thread nD τ).loc main_arg11)) (m ((c : Thread nD τ).loc main_arg7)) (m ((c : Thread nD τ).loc main_arg15)) (m ((c : Thread nD τ).loc main_arg19)) (m ((c : Thread nD τ).loc main_arg23)) (m ((c : Thread nD τ).loc main_arg24)) r q)
    (Cert.Spec.kerGate (m ((c : Thread nD τ).loc main_arg0)) (m ((c : Thread nD τ).loc main_arg1)) (m ((c : Thread nD τ).loc main_arg4)) (m ((c : Thread nD τ).loc main_arg12)) (m ((c : Thread nD τ).loc main_arg8)) (m ((c : Thread nD τ).loc main_arg16)) (m ((c : Thread nD τ).loc main_arg20)) (m ((c : Thread nD τ).loc main_arg23)) (m ((c : Thread nD τ).loc main_arg24)) r q)
    (Cert.Spec.kerGate (m ((c : Thread nD τ).loc main_arg0)) (m ((c : Thread nD τ).loc main_arg1)) (m ((c : Thread nD τ).loc main_arg5)) (m ((c : Thread nD τ).loc main_arg13)) (m ((c : Thread nD τ).loc main_arg9)) (m ((c : Thread nD τ).loc main_arg17)) (m ((c : Thread nD τ).loc main_arg21)) (m ((c : Thread nD τ).loc main_arg23)) (m ((c : Thread nD τ).loc main_arg24)) r q)
    ((m ((c : Thread nD τ).loc main_arg2)) (ix2 r q))

/-- The new hidden value at row r, column q. -/
def KHat (c : Dev nD) (r : Fin 16384) (q : Fin 1024) : EReal :=
  Cert.Spec.cellH Cert.Spec.ksig
    (Cert.Spec.kerGate (m ((c : Thread nD τ).loc main_arg0)) (m ((c : Thread nD τ).loc main_arg1)) (m ((c : Thread nD τ).loc main_arg3)) (m ((c : Thread nD τ).loc main_arg11)) (m ((c : Thread nD τ).loc main_arg7)) (m ((c : Thread nD τ).loc main_arg15)) (m ((c : Thread nD τ).loc main_arg19)) (m ((c : Thread nD τ).loc main_arg23)) (m ((c : Thread nD τ).loc main_arg24)) r q)
    (Cert.Spec.kerGate (m ((c : Thread nD τ).loc main_arg0)) (m ((c : Thread nD τ).loc main_arg1)) (m ((c : Thread nD τ).loc main_arg4)) (m ((c : Thread nD τ).loc main_arg12)) (m ((c : Thread nD τ).loc main_arg8)) (m ((c : Thread nD τ).loc main_arg16)) (m ((c : Thread nD τ).loc main_arg20)) (m ((c : Thread nD τ).loc main_arg23)) (m ((c : Thread nD τ).loc main_arg24)) r q)
    (Cert.Spec.kerGate (m ((c : Thread nD τ).loc main_arg0)) (m ((c : Thread nD τ).loc main_arg1)) (m ((c : Thread nD τ).loc main_arg5)) (m ((c : Thread nD τ).loc main_arg13)) (m ((c : Thread nD τ).loc main_arg9)) (m ((c : Thread nD τ).loc main_arg17)) (m ((c : Thread nD τ).loc main_arg21)) (m ((c : Thread nD τ).loc main_arg23)) (m ((c : Thread nD τ).loc main_arg24)) r q)
    (Cert.Spec.kerGate (m ((c : Thread nD τ).loc main_arg0)) (m ((c : Thread nD τ).loc main_arg1)) (m ((c : Thread nD τ).loc main_arg6)) (m ((c : Thread nD τ).loc main_arg14)) (m ((c : Thread nD τ).loc main_arg10)) (m ((c : Thread nD τ).loc main_arg18)) (m ((c : Thread nD τ).loc main_arg22)) (m ((c : Thread nD τ).loc main_arg23)) (m ((c : Thread nD τ).loc main_arg24)) r q)
    ((m ((c : Thread nD τ).loc main_arg2)) (ix2 r q))

/-- The new cell array. -/
def KC (c : Dev nD) : S16384x1024.Idx → Elt Ideal .f32 := fun j => KCat m c (j 0) (j 1)
/-- The new hidden array. -/
def KH (c : Dev nD) : S16384x1024.Idx → Elt Ideal .f32 := fun j => KHat m c (j 0) (j 1)

theorem KC_at (c : Dev nD) (r : Fin 16384) (q : Fin 1024) : KC m c (ix2 r q) = KCat m c r q := rfl
theorem KH_at (c : Dev nD) (r : Fin 16384) (q : Fin 1024) : KH m c (ix2 r q) = KHat m c r q := rfl

/-! ## One entry of a block -/

theorem cNext_point (c : Dev nD) (t : Fin cfg0.N) (p : Fin 256) (q : Fin 1024) (r : Fin 16384)
    (hr : r.val = 256 * t.val + p.val) :
    cNext (F := Ideal) (iblk m c 0 t) (iblk m c 1 t) (iblk m c 2 t) (iblk m c 3 t) (iblk m c 4 t) (iblk m c 5 t) (iblk m c 6 t) (iblk m c 7 t) (iblk m c 9 t) (iblk m c 10 t) (iblk m c 11 t) (iblk m c 13 t) (iblk m c 14 t) (iblk m c 15 t) (iblk m c 17 t) (iblk m c 18 t) (iblk m c 19 t) (ix2 p q) = KCat m c r q := by
  unfold KCat
  exact Cert.KIPayload.cNext_rows (x := (m ((c : Thread nD τ).loc main_arg0))) (h := (m ((c : Thread nD τ).loc main_arg1))) (cv := (m ((c : Thread nD τ).loc main_arg2)))
      (wuf := (m ((c : Thread nD τ).loc main_arg3))) (wui := (m ((c : Thread nD τ).loc main_arg4))) (wug := (m ((c : Thread nD τ).loc main_arg5))) (wvf := (m ((c : Thread nD τ).loc main_arg11))) (wvi := (m ((c : Thread nD τ).loc main_arg12))) (wvg := (m ((c : Thread nD τ).loc main_arg13)))
      (uuf := (m ((c : Thread nD τ).loc main_arg7))) (uui := (m ((c : Thread nD τ).loc main_arg8))) (uug := (m ((c : Thread nD τ).loc main_arg9))) (uvf := (m ((c : Thread nD τ).loc main_arg15))) (uvi := (m ((c : Thread nD τ).loc main_arg16))) (uvg := (m ((c : Thread nD τ).loc main_arg17)))
      (bf := (m ((c : Thread nD τ).loc main_arg19))) (bi := (m ((c : Thread nD τ).loc main_arg20))) (bg := (m ((c : Thread nD τ).loc main_arg21))) (wd := (m ((c : Thread nD τ).loc main_arg23))) (ud := (m ((c : Thread nD τ).loc main_arg24)))
    (iblk m c 0 t) (iblk m c 1 t) (iblk m c 2 t) (iblk m c 3 t) (iblk m c 4 t) (iblk m c 5 t) (iblk m c 6 t) (iblk m c 7 t) (iblk m c 9 t) (iblk m c 10 t) (iblk m c 11 t) (iblk m c 13 t) (iblk m c 14 t) (iblk m c 15 t) (iblk m c 17 t) (iblk m c 18 t) (iblk m c 19 t) p r
    (fun i => iblk0_at m c t p i r hr) (fun q => iblk1_at m c t p q r hr) (fun q => iblk2_at m c t p q r hr)
    (fun i k => (iblk3_at m c t i _).trans (Cert.KIOperands.main_v49_at_0 m c i k)) (fun i k => (iblk3_at m c t i _).trans (Cert.KIOperands.main_v49_at_1 m c i k)) (fun i k => (iblk3_at m c t i _).trans (Cert.KIOperands.main_v49_at_2 m c i k))
    (fun i k => (iblk4_at m c t i _).trans (Cert.KIOperands.main_v51_at_0 m c i k)) (fun i k => (iblk4_at m c t i _).trans (Cert.KIOperands.main_v51_at_1 m c i k)) (fun i k => (iblk4_at m c t i _).trans (Cert.KIOperands.main_v51_at_2 m c i k))
    (fun k q => (iblk5_at m c t k q).trans (Cert.KIOperands.main_v53_at m c k q)) (fun k q => (iblk6_at m c t k q).trans (Cert.KIOperands.main_v55_at m c k q)) (fun k q => (iblk7_at m c t k q).trans (Cert.KIOperands.main_v57_at m c k q))
    (fun q => (iblk9_at m c t 0 q).trans (congrFun (V_main_arg19 m c) (ix2 (0 : Fin 1) q))) (fun q => (iblk10_at m c t 0 q).trans (congrFun (V_main_arg20 m c) (ix2 (0 : Fin 1) q))) (fun q => (iblk11_at m c t 0 q).trans (congrFun (V_main_arg21 m c) (ix2 (0 : Fin 1) q)))
    (fun q => (iblk13_at m c t 0 q).trans (Cert.KIOperands.main_v6_at m c q)) (fun q => (iblk14_at m c t 0 q).trans (Cert.KIOperands.main_v13_at m c q)) (fun q => (iblk15_at m c t 0 q).trans (Cert.KIOperands.main_v20_at m c q))
    (fun q => (iblk17_at m c t 0 q).trans (Cert.KIOperands.main_v32_at m c q)) (fun q => (iblk18_at m c t 0 q).trans (Cert.KIOperands.main_v37_at m c q)) (fun q => (iblk19_at m c t 0 q).trans (Cert.KIOperands.main_v42_at m c q))
    q

theorem hNext_point (c : Dev nD) (t : Fin cfg0.N) (p : Fin 256) (q : Fin 1024) (r : Fin 16384)
    (hr : r.val = 256 * t.val + p.val) :
    hNext (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (ix2 p q) = KHat m c r q := by
  unfold KHat
  exact Cert.KIPayload.hNext_rows (x := (m ((c : Thread nD τ).loc main_arg0))) (h := (m ((c : Thread nD τ).loc main_arg1))) (cv := (m ((c : Thread nD τ).loc main_arg2)))
      (wuf := (m ((c : Thread nD τ).loc main_arg3))) (wui := (m ((c : Thread nD τ).loc main_arg4))) (wug := (m ((c : Thread nD τ).loc main_arg5))) (wuo := (m ((c : Thread nD τ).loc main_arg6))) (wvf := (m ((c : Thread nD τ).loc main_arg11))) (wvi := (m ((c : Thread nD τ).loc main_arg12))) (wvg := (m ((c : Thread nD τ).loc main_arg13))) (wvo := (m ((c : Thread nD τ).loc main_arg14)))
      (uuf := (m ((c : Thread nD τ).loc main_arg7))) (uui := (m ((c : Thread nD τ).loc main_arg8))) (uug := (m ((c : Thread nD τ).loc main_arg9))) (uuo := (m ((c : Thread nD τ).loc main_arg10))) (uvf := (m ((c : Thread nD τ).loc main_arg15))) (uvi := (m ((c : Thread nD τ).loc main_arg16))) (uvg := (m ((c : Thread nD τ).loc main_arg17))) (uvo := (m ((c : Thread nD τ).loc main_arg18)))
      (bf := (m ((c : Thread nD τ).loc main_arg19))) (bi := (m ((c : Thread nD τ).loc main_arg20))) (bg := (m ((c : Thread nD τ).loc main_arg21))) (bo := (m ((c : Thread nD τ).loc main_arg22))) (wd := (m ((c : Thread nD τ).loc main_arg23))) (ud := (m ((c : Thread nD τ).loc main_arg24)))
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) p r
    (fun i => iblk0_at m c t p i r hr) (fun q => iblk1_at m c t p q r hr) (fun q => iblk2_at m c t p q r hr)
    (fun i k => (iblk3_at m c t i _).trans (Cert.KIOperands.main_v49_at_0 m c i k)) (fun i k => (iblk3_at m c t i _).trans (Cert.KIOperands.main_v49_at_1 m c i k)) (fun i k => (iblk3_at m c t i _).trans (Cert.KIOperands.main_v49_at_2 m c i k)) (fun i k => (iblk3_at m c t i _).trans (Cert.KIOperands.main_v49_at_3 m c i k))
    (fun i k => (iblk4_at m c t i _).trans (Cert.KIOperands.main_v51_at_0 m c i k)) (fun i k => (iblk4_at m c t i _).trans (Cert.KIOperands.main_v51_at_1 m c i k)) (fun i k => (iblk4_at m c t i _).trans (Cert.KIOperands.main_v51_at_2 m c i k)) (fun i k => (iblk4_at m c t i _).trans (Cert.KIOperands.main_v51_at_3 m c i k))
    (fun k q => (iblk5_at m c t k q).trans (Cert.KIOperands.main_v53_at m c k q)) (fun k q => (iblk6_at m c t k q).trans (Cert.KIOperands.main_v55_at m c k q)) (fun k q => (iblk7_at m c t k q).trans (Cert.KIOperands.main_v57_at m c k q)) (fun k q => (iblk8_at m c t k q).trans (Cert.KIOperands.main_v59_at m c k q))
    (fun q => (iblk9_at m c t 0 q).trans (congrFun (V_main_arg19 m c) (ix2 (0 : Fin 1) q))) (fun q => (iblk10_at m c t 0 q).trans (congrFun (V_main_arg20 m c) (ix2 (0 : Fin 1) q))) (fun q => (iblk11_at m c t 0 q).trans (congrFun (V_main_arg21 m c) (ix2 (0 : Fin 1) q))) (fun q => (iblk12_at m c t 0 q).trans (congrFun (V_main_arg22 m c) (ix2 (0 : Fin 1) q)))
    (fun q => (iblk13_at m c t 0 q).trans (Cert.KIOperands.main_v6_at m c q)) (fun q => (iblk14_at m c t 0 q).trans (Cert.KIOperands.main_v13_at m c q)) (fun q => (iblk15_at m c t 0 q).trans (Cert.KIOperands.main_v20_at m c q)) (fun q => (iblk16_at m c t 0 q).trans (Cert.KIOperands.main_v27_at m c q))
    (fun q => (iblk17_at m c t 0 q).trans (Cert.KIOperands.main_v32_at m c q)) (fun q => (iblk18_at m c t 0 q).trans (Cert.KIOperands.main_v37_at m c q)) (fun q => (iblk19_at m c t 0 q).trans (Cert.KIOperands.main_v42_at m c q)) (fun q => (iblk20_at m c t 0 q).trans (Cert.KIOperands.main_v47_at m c q))
    q

/-! ## What each point writes back, and the whole arrays -/

theorem t_lt (t : Fin cfg0.N) : t.val < 64 := by
  have h : t.val < grid0.N := t.isLt
  have hN : grid0.N = 64 := N_0
  omega

/-- Point t writes back block t of the new cell array. -/
theorem flushed22_eq (c : Dev nD) (t : Fin cfg0.N) :
    (dats m 0 c).flushed 22 t = ((cfg0.win 22).blk t).view.read (Elt Ideal) (KC m c) := by
  show (cfg0.win 22).cut (grid0.coords t) ((dats m 0 c).after 22 t) = _
  rw [after0_22]
  unfold out0_22
  rw [View.canon_unit_zero hz]
  funext j
  obtain ⟨p, q, rfl⟩ : ∃ (p : Fin 256) (q : Fin 1024), j = ix2 p q := ⟨j 0, j 1, eq_ix2 j⟩
  have ht := t_lt t
  have hp := p.isLt
  show cNext (F := Ideal) (iblk m c 0 t) (iblk m c 1 t) (iblk m c 2 t) (iblk m c 3 t) (iblk m c 4 t) (iblk m c 5 t) (iblk m c 6 t) (iblk m c 7 t) (iblk m c 9 t) (iblk m c 10 t) (iblk m c 11 t) (iblk m c 13 t) (iblk m c 14 t) (iblk m c 15 t) (iblk m c 17 t) (iblk m c 18 t) (iblk m c 19 t) (ix2 p q) = KC m c (((cfg0.win 22).blk t).view.emb (ix2 p q))
  rw [emb22 t p q ⟨256 * t.val + p.val, by omega⟩ rfl, KC_at]
  exact cNext_point m c t p q ⟨256 * t.val + p.val, by omega⟩ rfl

/-- Point t writes back block t of the new hidden array. -/
theorem flushed21_eq (c : Dev nD) (t : Fin cfg0.N) :
    (dats m 0 c).flushed 21 t = ((cfg0.win 21).blk t).view.read (Elt Ideal) (KH m c) := by
  show (cfg0.win 21).cut (grid0.coords t) ((dats m 0 c).after 21 t) = _
  rw [after0_21]
  unfold out0_21
  rw [View.canon_unit_zero hz]
  funext j
  obtain ⟨p, q, rfl⟩ : ∃ (p : Fin 256) (q : Fin 1024), j = ix2 p q := ⟨j 0, j 1, eq_ix2 j⟩
  have ht := t_lt t
  have hp := p.isLt
  show hNext (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (ix2 p q) = KH m c (((cfg0.win 21).blk t).view.emb (ix2 p q))
  rw [emb21 t p q ⟨256 * t.val + p.val, by omega⟩ rfl, KH_at]
  exact hNext_point m c t p q ⟨256 * t.val + p.val, by omega⟩ rfl

/-- The new cell array after the run. -/
theorem final22 (c : Dev nD) : (dats m 0 c).arrAt 22 cfg0.N = KC m c :=
  (dats m 0 c).arrAt_eq_of_cover 22 (KC m c) (fun t _ => flushed22_eq m c t) cover22

/-- The new hidden array after the run. -/
theorem final21 (c : Dev nD) : (dats m 0 c).arrAt 21 cfg0.N = KH m c :=
  (dats m 0 c).arrAt_eq_of_cover 21 (KH m c) (fun t _ => flushed21_eq m c t) cover21

/-! ## The run, read -/

/-- After the region's run the hidden result's array is what the blocks written back make of it, -/
theorem post21 (r : PUnit × MemSt nD τ sig (Elt Ideal)) (h : Pipeline.FramePost cfgs (dats m) 0 (V m) r) (c : Dev nD) :
    r.2.mem ((c.tc : Thread nD τ).loc main_v60_0) = (dats m 0 c).arrAt 21 cfg0.N :=
  (h c).1 21

/-- and so is the cell result's. -/
theorem post22 (r : PUnit × MemSt nD τ sig (Elt Ideal)) (h : Pipeline.FramePost cfgs (dats m) 0 (V m) r) (c : Dev nD) :
    r.2.mem ((c.tc : Thread nD τ).loc main_v60_1) = (dats m 0 c).arrAt 22 cfg0.N :=
  (h c).1 22

/-- After the region's run every argument array is as launched. -/
theorem kept (r : PUnit × MemSt nD τ sig (Elt Ideal)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).1 9).trans (((dats m 0 c).arrAt_in 9 rfl _).trans ((A_eq m c 9).trans (V_main_arg19 m c))),
      ((h c).1 10).trans (((dats m 0 c).arrAt_in 10 rfl _).trans ((A_eq m c 10).trans (V_main_arg20 m c))),
      ((h c).1 11).trans (((dats m 0 c).arrAt_in 11 rfl _).trans ((A_eq m c 11).trans (V_main_arg21 m c))),
      ((h c).1 12).trans (((dats m 0 c).arrAt_in 12 rfl _).trans ((A_eq m c 12).trans (V_main_arg22 m c))),
      ((h c).2 main_arg23 (Pipeline.mem_restRefs_of main_arg23 (by decide) (by decide))).trans (V_main_arg23 m c),
      ((h c).2 main_arg24 (Pipeline.mem_restRefs_of main_arg24 (by decide) (by decide))).trans (V_main_arg24 m c)⟩

/-- The program runs to the end and leaves the two results at their functions of the arguments, the arguments unchanged. -/
theorem run_values : θ_run defs (onTc (τ := τ) (main (F := Ideal))) ⟨m, fun _ => 0, ρ⟩ (fun r => ∀ c : Dev nD,
      r.2.mem ((c.tc : Thread nD τ).loc main_v60_0) = KH m c
      ∧ r.2.mem ((c.tc : Thread nD τ).loc main_v60_1) = KC m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c => ⟨(post21 m r h c).trans (final21 m c), (post22 m r h c).trans (final22 m c),
      kept m r h c⟩) (run_main m ρ)

end Cert.KernelIdeal.Hand

end
-- ==== Proof.RefValue.lean ====
/-
  The reference program read at an index.

  Each of the four gates of the reference is the same composition of array operations: two padded products with the
  diagonal rows, two chains of two matrix products, a bias row broadcast down the rows, and two corrections built from
  the diagonals of the low-rank products.  Read at row r and column q that composition is the specification's
  reference pre-activation; the logistic function is printed as 1 / (1 + exp (-z)); and the two results are the cell
  formulas of the specification.
-/
import proofs.«121209_j33517924778468_2_alg».proof.Proof.Gen.ReferenceIdeal.Read
import proofs.«121209_j33517924778468_2_alg».proof.Proof.Spec
import Idealize.ShloMosaic.Lib.IdealHost

noncomputable section

namespace Cert.RefValue

open Cert.ReferenceIdeal Cert.ReferenceIdeal.Gen Cert.ReferenceIdeal.Read Cert.Spec
open Idealize.ShloMosaic Idealize.ShloMosaic.ValueIdx Idealize.ShloMosaic.TcCoe Idealize.SL.Sem Idealize.ShloMosaic.StableHlo

/-- An array of 32-bit floats of shape s, its entries extended reals. -/
abbrev Arr (s : Shape) : Type := (⟨s, .f32⟩ : BufTy).Contents (Elt Ideal)

/-! ## Indices with equal coordinates are equal -/

theorem idx2_ext {n0 n1 : Nat} (i j : (⟨2, ![n0, n1]⟩ : Shape).Idx) (h0 : (i 0).val = (j 0).val)
    (h1 : (i 1).val = (j 1).val) : i = j := by
  funext a; match a with | ⟨0, _⟩ => exact Fin.ext h0 | ⟨1, _⟩ => exact Fin.ext h1

theorem idx1_ext {n0 : Nat} (i j : (⟨1, ![n0]⟩ : Shape).Idx) (h0 : (i 0).val = (j 0).val) : i = j := by
  funext a; match a with | ⟨0, _⟩ => exact Fin.ext h0

/-! ## The zero pad and a padded array -/

/-- The pad is zero everywhere. -/
theorem v0_at (i : S16384x256.Idx) : val_main_v0 (F := Ideal) i = 0 := by
  rw [val_main_v0_apply, val_main_cst_apply, Ideal.ofBits_def, Ideal.ofBits_zero_f32]

/-- A [16384,768] array with 256 zero columns appended, at (r, q): the array below column 768, zero from there on. -/
theorem pad_at (y : Arr S16384x768) (r : Fin 16384) (q : Fin 1024) :
    concatenate S16384x1024 1 [⟨S16384x768, y⟩, ⟨S16384x256, (val_main_v0 (F := Ideal))⟩]
        concatenates_S16384x768_S16384x256_S16384x1024_d1 (ix2 r q)
      = if hq : q.val < 768 then y (ix2 r (lo q hq)) else 0 := by
  by_cases hq : q.val < 768
  · rw [dif_pos hq]
    refine concatenate_pair_apply_left (t := S16384x1024) (s₁ := S16384x768) (s₂ := S16384x256) _ y _ _ (ix2 r q) rfl
      (ix2 r (lo q hq)) ?_
    intro b
    match b with
    | ⟨0, _⟩ => rfl
    | ⟨1, _⟩ => rfl
  · rw [dif_neg hq]
    refine (concatenate_pair_apply_right (t := S16384x1024) (s₁ := S16384x768) (s₂ := S16384x256) _ y _ _ (ix2 r q)
      rfl rfl (ix2 r (⟨q.val - 768, by have := q.isLt; omega⟩ : Fin 256)) ?_ ?_).trans (v0_at _)
    · intro b hb
      match b, hb with
      | ⟨0, _⟩, _ => rfl
      | ⟨1, _⟩, hb => exact absurd rfl hb
    · show (q.val - 768) + 768 = q.val
      omega

/-! ## One gate, stage by stage

The stages of the first gate, over arbitrary arrays: x [16384,768], h [16384,1024], the low-rank factors wu [768,64],
uu [1024,64], wv, uv [64,1024], the bias row b [1,1024] and the diagonal rows wd [1,768], ud [1,1024]. -/

section Gate

variable (x : Arr S16384x768) (h : Arr S16384x1024) (wu : Arr S768x64) (uu : Arr S1024x64) (wv uv : Arr S64x1024)
  (b : Arr S1x1024) (wd : Arr S1x768) (ud : Arr S1x1024)

/-- wd broadcast down the rows, times x. -/
theorem v2_at (r : Fin 16384) (c : Fin 768) :
    val_main_v2 (F := Ideal) x wd (ix2 r c) = wd (ix2 (0 : Fin 1) c) * x (ix2 r c) := by
  rw [val_main_v2_apply, val_main_v1_apply, Ideal.mulf_def,
    show idx_main_v1 (ix2 r c) = ix2 (0 : Fin 1) c from idx2_ext _ _ rfl rfl]

/-- The padded product wd·x. -/
theorem v3_at (r : Fin 16384) (q : Fin 1024) :
    val_main_v3 (F := Ideal) x wd (ix2 r q)
      = if hq : q.val < 768 then wd (ix2 (0 : Fin 1) (lo q hq)) * x (ix2 r (lo q hq)) else 0 := by
  unfold val_main_v3
  rw [pad_at]
  exact dite_congr rfl (fun hq => v2_at x wd r (lo q hq)) (fun _ => rfl)

/-- ud broadcast down the rows, times h. -/
theorem v5_at (r : Fin 16384) (q : Fin 1024) :
    val_main_v5 (F := Ideal) h ud (ix2 r q) = ud (ix2 (0 : Fin 1) q) * h (ix2 r q) := by
  rw [val_main_v5_apply, val_main_v4_apply, Ideal.mulf_def,
    show idx_main_v4 (ix2 r q) = ix2 (0 : Fin 1) q from idx2_ext _ _ rfl rfl]

/-- x·wu. -/
theorem v6_at (r : Fin 16384) (k : Fin 64) : val_main_v6 (F := Ideal) x wu (ix2 r k) = xlow x wu r k := by
  rw [val_main_v6_apply]
  unfold xlow
  refine Finset.sum_congr rfl fun i _ => ?_
  rw [show lidx_main_v6 (ix2 r k) i = ix2 r i from idx2_ext _ _ rfl rfl,
    show ridx_main_v6 (ix2 r k) i = ix2 i k from idx2_ext _ _ rfl rfl]

/-- (x·wu)·wv. -/
theorem v7_at (r : Fin 16384) (q : Fin 1024) :
    val_main_v7 (F := Ideal) x wu wv (ix2 r q) = ∑ k : Fin 64, xlow x wu r k * wv (ix2 k q) := by
  rw [val_main_v7_apply]
  refine Finset.sum_congr rfl fun k _ => ?_
  rw [show lidx_main_v7 (ix2 r q) k = ix2 r k from idx2_ext _ _ rfl rfl,
    show ridx_main_v7 (ix2 r q) k = ix2 k q from idx2_ext _ _ rfl rfl, v6_at]

/-- h·uu. -/
theorem v8_at (r : Fin 16384) (k : Fin 64) : val_main_v8 (F := Ideal) h uu (ix2 r k) = hlow h uu r k := by
  rw [val_main_v8_apply]
  unfold hlow
  refine Finset.sum_congr rfl fun i _ => ?_
  rw [show lidx_main_v8 (ix2 r k) i = ix2 r i from idx2_ext _ _ rfl rfl,
    show ridx_main_v8 (ix2 r k) i = ix2 i k from idx2_ext _ _ rfl rfl]

/-- (h·uu)·uv. -/
theorem v9_at (r : Fin 16384) (q : Fin 1024) :
    val_main_v9 (F := Ideal) h uu uv (ix2 r q) = ∑ k : Fin 64, hlow h uu r k * uv (ix2 k q) := by
  rw [val_main_v9_apply]
  refine Finset.sum_congr rfl fun k _ => ?_
  rw [show lidx_main_v9 (ix2 r q) k = ix2 r k from idx2_ext _ _ rfl rfl,
    show ridx_main_v9 (ix2 r q) k = ix2 k q from idx2_ext _ _ rfl rfl, v8_at]

/-- The row sums of wu times the transposed first 768 columns of wv: the diagonal of wu·wv. -/
theorem v13_at (c : Fin 768) : val_main_v13 (F := Ideal) wu wv (ix1 c) = diagW wu wv c := by
  rw [val_main_v13_apply, val_main_cst_0_apply, Ideal.ofBits_def, Ideal.ofBits_zero_f32, zero_add]
  unfold diagW
  refine Finset.sum_congr rfl fun k _ => ?_
  rw [show idx_main_v13 (ix1 c) k = ix2 c k from idx2_ext _ _ rfl rfl, val_main_v12_apply, Ideal.mulf_def,
    val_main_v11_apply, val_main_v10_apply,
    show idx_main_v10 (idx_main_v11 (ix2 c k)) = ix2 k (⟨c.val, by omega⟩ : Fin 1024) from idx2_ext _ _ rfl rfl]

/-- The row sums of uu times the transposed uv: the diagonal of uu·uv. -/
theorem v16_at (q : Fin 1024) : val_main_v16 (F := Ideal) uu uv (ix1 q) = diagU uu uv q := by
  rw [val_main_v16_apply, val_main_cst_1_apply, Ideal.ofBits_def, Ideal.ofBits_zero_f32, zero_add]
  unfold diagU
  refine Finset.sum_congr rfl fun k _ => ?_
  rw [show idx_main_v16 (ix1 q) k = ix2 q k from idx2_ext _ _ rfl rfl, val_main_v15_apply, Ideal.mulf_def,
    val_main_v14_apply, show idx_main_v14 (ix2 q k) = ix2 k q from idx2_ext _ _ rfl rfl]

/-- x times the diagonal of wu·wv broadcast down the rows. -/
theorem v19_at (r : Fin 16384) (c : Fin 768) :
    val_main_v19 (F := Ideal) x wu wv (ix2 r c) = x (ix2 r c) * diagW wu wv c := by
  rw [val_main_v19_apply, val_main_v18_apply, val_main_v17_apply, Ideal.mulf_def,
    show idx_main_v17 (idx_main_v18 (ix2 r c)) = ix1 c from idx1_ext _ _ rfl, v13_at]

/-- The padded correction x·diag(wu·wv). -/
theorem v20_at (r : Fin 16384) (q : Fin 1024) :
    val_main_v20 (F := Ideal) x wu wv (ix2 r q)
      = if hq : q.val < 768 then x (ix2 r (lo q hq)) * diagW wu wv (lo q hq) else 0 := by
  unfold val_main_v20
  rw [pad_at]
  exact dite_congr rfl (fun hq => v19_at x wu wv r (lo q hq)) (fun _ => rfl)

/-- h times the diagonal of uu·uv broadcast down the rows. -/
theorem v23_at (r : Fin 16384) (q : Fin 1024) :
    val_main_v23 (F := Ideal) h uu uv (ix2 r q) = h (ix2 r q) * diagU uu uv q := by
  rw [val_main_v23_apply, val_main_v22_apply, val_main_v21_apply, Ideal.mulf_def,
    show idx_main_v21 (idx_main_v22 (ix2 r q)) = ix1 q from idx1_ext _ _ rfl, v16_at]

/-- The bias row broadcast down the rows. -/
theorem v27_at (r : Fin 16384) (q : Fin 1024) : val_main_v27 (F := Ideal) b (ix2 r q) = b (ix2 (0 : Fin 1) q) := by
  rw [val_main_v27_apply, show idx_main_v27 (ix2 r q) = ix2 (0 : Fin 1) q from idx2_ext _ _ rfl rfl]

/-- THE GATE: the first gate's composition, over arbitrary arrays, at (r, q) is the reference pre-activation. -/
theorem gate_at (r : Fin 16384) (q : Fin 1024) :
    val_main_v30 (F := Ideal) x h wu uu wv uv b wd ud (ix2 r q) = refGate x h wu wv uu uv b wd ud r q := by
  rw [val_main_v30_apply, val_main_v29_apply, val_main_v28_apply, val_main_v26_apply, val_main_v25_apply,
    val_main_v24_apply, v3_at, v7_at, v5_at, v9_at, v27_at, v20_at, v23_at]
  rfl

/-- The printed logistic function 1 / (1 + exp (-z)) of the gate. -/
theorem sig_at (i : S16384x1024.Idx) :
    val_main_v36 (F := Ideal) x h wu uu wv uv b wd ud i
      = Ideal.logistic (val_main_v30 (F := Ideal) x h wu uu wv uv b wd ud i) := by
  rw [val_main_v36_apply, val_main_v35_apply, val_main_cst_3_apply, val_main_v34_apply, val_main_v33_apply,
    val_main_cst_2_apply, val_main_v32_apply, val_main_v31_apply]
  simp only [Ideal.hostDivf_def, Ideal.ofBits_def, Ideal.ofBits_one_f32, Ideal.addf_def, Ideal.hostUnary_exp_def,
    Ideal.hostNegf_def, Ideal.negf_def]
  rfl

end Gate

/-! ## The other three gates are the same composition of the same operations -/

section Same

variable (x : Arr S16384x768) (h : Arr S16384x1024) (wu : Arr S768x64) (uu : Arr S1024x64) (wv uv : Arr S64x1024)
  (b : Arr S1x1024) (wd : Arr S1x768) (ud : Arr S1x1024)

/-- The second gate's logistic stage is the first gate's at the second gate's arrays. -/
theorem v72_eq : val_main_v72 (F := Ideal) x h wu uu wv uv b wd ud = val_main_v36 (F := Ideal) x h wu uu wv uv b wd ud := rfl
/-- The third gate's pre-activation is the first gate's at the third gate's arrays. -/
theorem v102_eq : val_main_v102 (F := Ideal) x h wu uu wv uv b wd ud = val_main_v30 (F := Ideal) x h wu uu wv uv b wd ud := rfl
/-- The fourth gate's logistic stage is the first gate's at the fourth gate's arrays. -/
theorem v139_eq : val_main_v139 (F := Ideal) x h wu uu wv uv b wd ud = val_main_v36 (F := Ideal) x h wu uu wv uv b wd ud := rfl

end Same

/-! ## The two results -/

section Results

variable (a0 : Arr S16384x768) (a1 a2 : Arr S16384x1024) (a3 a4 a5 a6 : Arr S768x64) (a7 a8 a9 a10 : Arr S1024x64)
  (a11 a12 a13 a14 a15 a16 a17 a18 : Arr S64x1024) (a19 a20 a21 a22 : Arr S1x1024) (a23 : Arr S1x768)
  (a24 : Arr S1x1024)

/-- The new cell value at (r, q). -/
theorem c_next_at (r : Fin 16384) (q : Fin 1024) :
    val_main_v142 (F := Ideal) a0 a1 a2 a3 a4 a5 a7 a8 a9 a11 a12 a13 a15 a16 a17 a19 a20 a21 a23 a24 (ix2 r q)
      = cellC Ideal.logistic (refGate a0 a1 a3 a11 a7 a15 a19 a23 a24 r q)
          (refGate a0 a1 a4 a12 a8 a16 a20 a23 a24 r q)
          (refGate a0 a1 a5 a13 a9 a17 a21 a23 a24 r q) (a2 (ix2 r q)) := by
  rw [val_main_v142_apply, val_main_v140_apply, val_main_v141_apply, val_main_v103_apply, v72_eq, v102_eq, sig_at, sig_at,
    gate_at, gate_at, gate_at]
  simp only [Ideal.addf_def, Ideal.mulf_def, Ideal.hostUnary_tanh_def]
  rfl

/-- The new hidden value at (r, q). -/
theorem h_next_at (r : Fin 16384) (q : Fin 1024) :
    val_main_v144 (F := Ideal) a0 a1 a2 a3 a4 a5 a6 a7 a8 a9 a10 a11 a12 a13 a14 a15 a16 a17 a18 a19 a20 a21 a22 a23 a24 (ix2 r q)
      = cellH Ideal.logistic (refGate a0 a1 a3 a11 a7 a15 a19 a23 a24 r q)
          (refGate a0 a1 a4 a12 a8 a16 a20 a23 a24 r q)
          (refGate a0 a1 a5 a13 a9 a17 a21 a23 a24 r q)
          (refGate a0 a1 a6 a14 a10 a18 a22 a23 a24 r q) (a2 (ix2 r q)) := by
  rw [val_main_v144_apply, val_main_v143_apply, c_next_at, v139_eq, sig_at, gate_at]
  simp only [Ideal.mulf_def, Ideal.hostUnary_tanh_def]
  rfl

/-- The new cell value as an array: the cell formula at each index's two coordinates. -/
def C : Arr S16384x1024 := fun j =>
  cellC Ideal.logistic (refGate a0 a1 a3 a11 a7 a15 a19 a23 a24 (j 0) (j 1))
    (refGate a0 a1 a4 a12 a8 a16 a20 a23 a24 (j 0) (j 1))
    (refGate a0 a1 a5 a13 a9 a17 a21 a23 a24 (j 0) (j 1)) (a2 j)

/-- The new hidden value as an array. -/
def H : Arr S16384x1024 := fun j =>
  cellH Ideal.logistic (refGate a0 a1 a3 a11 a7 a15 a19 a23 a24 (j 0) (j 1))
    (refGate a0 a1 a4 a12 a8 a16 a20 a23 a24 (j 0) (j 1))
    (refGate a0 a1 a5 a13 a9 a17 a21 a23 a24 (j 0) (j 1))
    (refGate a0 a1 a6 a14 a10 a18 a22 a23 a24 (j 0) (j 1)) (a2 j)

theorem C_at (r : Fin 16384) (q : Fin 1024) :
    C a0 a1 a2 a3 a4 a5 a7 a8 a9 a11 a12 a13 a15 a16 a17 a19 a20 a21 a23 a24 (ix2 r q)
      = cellC Ideal.logistic (refGate a0 a1 a3 a11 a7 a15 a19 a23 a24 r q)
          (refGate a0 a1 a4 a12 a8 a16 a20 a23 a24 r q)
          (refGate a0 a1 a5 a13 a9 a17 a21 a23 a24 r q) (a2 (ix2 r q)) := rfl

theorem H_at (r : Fin 16384) (q : Fin 1024) :
    H a0 a1 a2 a3 a4 a5 a6 a7 a8 a9 a10 a11 a12 a13 a14 a15 a16 a17 a18 a19 a20 a21 a22 a23 a24 (ix2 r q)
      = cellH Ideal.logistic (refGate a0 a1 a3 a11 a7 a15 a19 a23 a24 r q)
          (refGate a0 a1 a4 a12 a8 a16 a20 a23 a24 r q)
          (refGate a0 a1 a5 a13 a9 a17 a21 a23 a24 r q)
          (refGate a0 a1 a6 a14 a10 a18 a22 a23 a24 r q) (a2 (ix2 r q)) := rfl

/-- The reference's second result is the array of new cell values. -/
theorem c_next_eq :
    val_main_v142 (F := Ideal) a0 a1 a2 a3 a4 a5 a7 a8 a9 a11 a12 a13 a15 a16 a17 a19 a20 a21 a23 a24 = C a0 a1 a2 a3 a4 a5 a7 a8 a9 a11 a12 a13 a15 a16 a17 a19 a20 a21 a23 a24 := by
  funext j
  obtain ⟨r, q, rfl⟩ : ∃ (r : Fin 16384) (q : Fin 1024), j = ix2 r q := ⟨j 0, j 1, eq_ix2 j⟩
  exact c_next_at a0 a1 a2 a3 a4 a5 a7 a8 a9 a11 a12 a13 a15 a16 a17 a19 a20 a21 a23 a24 r q

/-- The reference's first result is the array of new hidden values. -/
theorem h_next_eq :
    val_main_v144 (F := Ideal) a0 a1 a2 a3 a4 a5 a6 a7 a8 a9 a10 a11 a12 a13 a14 a15 a16 a17 a18 a19 a20 a21 a22 a23 a24 = H a0 a1 a2 a3 a4 a5 a6 a7 a8 a9 a10 a11 a12 a13 a14 a15 a16 a17 a18 a19 a20 a21 a22 a23 a24 := by
  funext j
  obtain ⟨r, q, rfl⟩ : ∃ (r : Fin 16384) (q : Fin 1024), j = ix2 r q := ⟨j 0, j 1, eq_ix2 j⟩
  exact h_next_at a0 a1 a2 a3 a4 a5 a6 a7 a8 a9 a10 a11 a12 a13 a14 a15 a16 a17 a18 a19 a20 a21 a22 a23 a24 r q

end Results

/-! ## Equal argument arrays give equal results -/

/-- The array of new hidden values depends only on the 25 argument arrays. -/
theorem H_congr {a0 b0 : Arr S16384x768} {a1 b1 : Arr S16384x1024} {a2 b2 : Arr S16384x1024} {a3 b3 : Arr S768x64} {a4 b4 : Arr S768x64} {a5 b5 : Arr S768x64} {a6 b6 : Arr S768x64} {a7 b7 : Arr S1024x64} {a8 b8 : Arr S1024x64} {a9 b9 : Arr S1024x64} {a10 b10 : Arr S1024x64} {a11 b11 : Arr S64x1024} {a12 b12 : Arr S64x1024} {a13 b13 : Arr S64x1024} {a14 b14 : Arr S64x1024} {a15 b15 : Arr S64x1024} {a16 b16 : Arr S64x1024} {a17 b17 : Arr S64x1024} {a18 b18 : Arr S64x1024} {a19 b19 : Arr S1x1024} {a20 b20 : Arr S1x1024} {a21 b21 : Arr S1x1024} {a22 b22 : Arr S1x1024} {a23 b23 : Arr S1x768} {a24 b24 : Arr S1x1024}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) (h17 : a17 = b17) (h18 : a18 = b18) (h19 : a19 = b19) (h20 : a20 = b20) (h21 : a21 = b21) (h22 : a22 = b22) (h23 : a23 = b23) (h24 : a24 = b24) :
    H a0 a1 a2 a3 a4 a5 a6 a7 a8 a9 a10 a11 a12 a13 a14 a15 a16 a17 a18 a19 a20 a21 a22 a23 a24 = H b0 b1 b2 b3 b4 b5 b6 b7 b8 b9 b10 b11 b12 b13 b14 b15 b16 b17 b18 b19 b20 b21 b22 b23 b24 := by
  subst h0 h1 h2 h3 h4 h5 h6 h7 h8 h9 h10 h11 h12 h13 h14 h15 h16 h17 h18 h19 h20 h21 h22 h23 h24
  rfl

/-- The array of new cell values depends only on the 20 argument arrays it mentions. -/
theorem C_congr {a0 b0 : Arr S16384x768} {a1 b1 : Arr S16384x1024} {a2 b2 : Arr S16384x1024} {a3 b3 : Arr S768x64} {a4 b4 : Arr S768x64} {a5 b5 : Arr S768x64} {a7 b7 : Arr S1024x64} {a8 b8 : Arr S1024x64} {a9 b9 : Arr S1024x64} {a11 b11 : Arr S64x1024} {a12 b12 : Arr S64x1024} {a13 b13 : Arr S64x1024} {a15 b15 : Arr S64x1024} {a16 b16 : Arr S64x1024} {a17 b17 : Arr S64x1024} {a19 b19 : Arr S1x1024} {a20 b20 : Arr S1x1024} {a21 b21 : Arr S1x1024} {a23 b23 : Arr S1x768} {a24 b24 : Arr S1x1024}
    (h0 : a0 = b0) (h1 : a1 = b1) (h2 : a2 = b2) (h3 : a3 = b3) (h4 : a4 = b4) (h5 : a5 = b5) (h7 : a7 = b7) (h8 : a8 = b8) (h9 : a9 = b9) (h11 : a11 = b11) (h12 : a12 = b12) (h13 : a13 = b13) (h15 : a15 = b15) (h16 : a16 = b16) (h17 : a17 = b17) (h19 : a19 = b19) (h20 : a20 = b20) (h21 : a21 = b21) (h23 : a23 = b23) (h24 : a24 = b24) :
    C a0 a1 a2 a3 a4 a5 a7 a8 a9 a11 a12 a13 a15 a16 a17 a19 a20 a21 a23 a24 = C b0 b1 b2 b3 b4 b5 b7 b8 b9 b11 b12 b13 b15 b16 b17 b19 b20 b21 b23 b24 := by
  subst h0 h1 h2 h3 h4 h5 h7 h8 h9 h11 h12 h13 h15 h16 h17 h19 h20 h21 h23 h24
  rfl

/-! ## The results as the run of the reference states them -/

/-- What the reference's run leaves in its first result: the new hidden values of the arguments' launch contents. -/
theorem res_out0_eq (m : (ℓ : Loc nD τ sig) → Buf (Elt Ideal) ℓ) (c : Dev nD) :
    Cert.ReferenceIdeal.Value.res_main_v144 m c
      = H (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) :=
  (val_main_v144_eq m c).trans (h_next_eq ..)

/-- What the reference's run leaves in its second result: the new cell values of the arguments' launch contents. -/
theorem res_out1_eq (m : (ℓ : Loc nD τ sig) → Buf (Elt Ideal) ℓ) (c : Dev nD) :
    Cert.ReferenceIdeal.Value.res_main_v142 m c
      = C (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg11)) (m ((c.tc : Thread nD τ).loc main_arg12)) (m ((c.tc : Thread nD τ).loc main_arg13)) (m ((c.tc : Thread nD τ).loc main_arg15)) (m ((c.tc : Thread nD τ).loc main_arg16)) (m ((c.tc : Thread nD τ).loc main_arg17)) (m ((c.tc : Thread nD τ).loc main_arg19)) (m ((c.tc : Thread nD τ).loc main_arg20)) (m ((c.tc : Thread nD τ).loc main_arg21)) (m ((c.tc : Thread nD τ).loc main_arg23)) (m ((c.tc : Thread nD τ).loc main_arg24)) :=
  (val_main_v142_eq m c).trans (c_next_eq ..)

end Cert.RefValue

end
-- ==== Proof.GateLaw.lean ====
/-
  The algebra of one gate of the low-rank LSTM cell with diagonal correction, and of its sigmoid.

  When every entry of every input is a real number, the kernel form of a gate's pre-activation equals the reference form:
  the sum over the 128 stacked low-rank coordinates is the sum over the first 64 plus the sum over the last 64, and
      a·(w − d) + g·(u − e) + b + (s₁ + s₂) = w·a + s₁ + u·g + s₂ + b − a·d − g·e
  is distributivity in the real numbers.  The pre-activation is then itself a real number, and for a real z
      1/2·tanh(z/2) + 1/2 = 1/(1 + e^(−z)).
-/
import proofs.«121209_j33517924778468_2_alg».proof.Proof.Spec
import proofs.«121209_j33517924778468_2_alg».proof.Proof.LibWeightedMix
import Mathlib.Analysis.SpecialFunctions.Trigonometric.DerivHyp
import Mathlib.Algebra.BigOperators.Fin
import Mathlib.Tactic.Ring
import Mathlib.Tactic.FieldSimp
import Mathlib.Tactic.NormNum
import Mathlib.Tactic.Positivity

noncomputable section

namespace Cert.GateLaw

open Idealize.ShloMosaic Idealize.ShloMosaic.ValueIdx Cert.Spec
open scoped BigOperators

/-- Every entry of the family is a real number. -/
def R {ι : Type*} (f : ι → EReal) : Prop := ∀ i, ∃ t : ℝ, f i = (t : EReal)

/-! ## Real numbers are closed under the operations of a gate -/

theorem real_zero : ∃ t : ℝ, (0 : EReal) = (t : EReal) := ⟨0, EReal.coe_zero.symm⟩

theorem real_sub {a b : EReal} (ha : ∃ t : ℝ, a = (t : EReal)) (hb : ∃ t : ℝ, b = (t : EReal)) :
    ∃ t : ℝ, a - b = (t : EReal) := by
  obtain ⟨s, rfl⟩ := ha; obtain ⟨t, rfl⟩ := hb
  exact ⟨s - t, (EReal.coe_sub s t).symm⟩

section Gate

variable {x : A2 16384 768} {h : A2 16384 1024} {wu : A2 768 64} {wv : A2 64 1024} {uu : A2 1024 64} {uv : A2 64 1024}
  {b : A2 1 1024} {wd : A2 1 768} {ud : A2 1 1024}

theorem xlow_real (hx : R x) (hwu : R wu) (r : Fin 16384) (k : Fin 64) : ∃ t : ℝ, xlow x wu r k = (t : EReal) :=
  LibWeightedMix.exists_real_sum_mul _ _ _ (fun i => hx (ix2 r i)) (fun i => hwu (ix2 i k))

theorem hlow_real (hh : R h) (huu : R uu) (r : Fin 16384) (k : Fin 64) : ∃ t : ℝ, hlow h uu r k = (t : EReal) :=
  LibWeightedMix.exists_real_sum_mul _ _ _ (fun j => hh (ix2 r j)) (fun j => huu (ix2 j k))

theorem diagW_real (hwu : R wu) (hwv : R wv) (q : Fin 768) : ∃ t : ℝ, diagW wu wv q = (t : EReal) :=
  LibWeightedMix.exists_real_sum_mul _ _ _ (fun k => hwu (ix2 q k)) (fun k => hwv (ix2 k _))

theorem diagU_real (huu : R uu) (huv : R uv) (q : Fin 1024) : ∃ t : ℝ, diagU uu uv q = (t : EReal) :=
  LibWeightedMix.exists_real_sum_mul _ _ _ (fun k => huu (ix2 q k)) (fun k => huv (ix2 k q))

theorem xstate_real (hx : R x) (hwu : R wu) (hwv : R wv) (r : Fin 16384) (q : Fin 1024) :
    ∃ t : ℝ, ∑ k : Fin 64, xlow x wu r k * wv (ix2 k q) = (t : EReal) :=
  LibWeightedMix.exists_real_sum_mul _ _ _ (fun k => xlow_real hx hwu r k) (fun k => hwv (ix2 k q))

theorem hstate_real (hh : R h) (huu : R uu) (huv : R uv) (r : Fin 16384) (q : Fin 1024) :
    ∃ t : ℝ, ∑ k : Fin 64, hlow h uu r k * uv (ix2 k q) = (t : EReal) :=
  LibWeightedMix.exists_real_sum_mul _ _ _ (fun k => hlow_real hh huu r k) (fun k => huv (ix2 k q))

/-! ## The stacked sum splits -/

/-- The sum over the 128 stacked coordinates is the sum over the first 64 plus the sum over the last 64. -/
theorem sum_stack (x : A2 16384 768) (h : A2 16384 1024) (wu : A2 768 64) (wv : A2 64 1024) (uu : A2 1024 64)
    (uv : A2 64 1024) (r : Fin 16384) (q : Fin 1024) :
    ∑ k : Fin 128, stackLow x h wu uu r k * stackV wv uv k q
      = ∑ k : Fin 64, xlow x wu r k * wv (ix2 k q) + ∑ k : Fin 64, hlow h uu r k * uv (ix2 k q) := by
  have hsplit := Fin.sum_univ_add (a := 64) (b := 64)
    (fun k : Fin (64 + 64) => stackLow x h wu uu r k * stackV wv uv k q)
  refine hsplit.trans (congrArg₂ (· + ·) (Finset.sum_congr rfl fun k _ => ?_) (Finset.sum_congr rfl fun k _ => ?_))
  · have hk : (Fin.castAdd 64 k : Fin (64 + 64)).val < 64 := by simp
    simp only [stackLow, stackV, dif_pos hk]
    rfl
  · have hk : ¬ (Fin.natAdd 64 k : Fin (64 + 64)).val < 64 := by simp
    have hk' : (⟨(Fin.natAdd 64 k : Fin (64 + 64)).val - 64, by simp⟩ : Fin 64) = k := by
      apply Fin.ext; simp
    simp only [stackLow, stackV, dif_neg hk, hk']

/-! ## The identity of real numbers -/

theorem gate_alg (a w dw g u du bb s1 s2 : ℝ) :
    ((((a : EReal) * ((w : EReal) - (dw : EReal)) + (g : EReal) * ((u : EReal) - (du : EReal))) + (bb : EReal))
        + ((s1 : EReal) + (s2 : EReal)))
      = (((((((w : EReal) * (a : EReal) + (s1 : EReal)) + (u : EReal) * (g : EReal)) + (s2 : EReal)) + (bb : EReal))
          - (a : EReal) * (dw : EReal)) - (g : EReal) * (du : EReal)) := by
  simp only [← EReal.coe_mul, ← EReal.coe_add, ← EReal.coe_sub]
  congr 1
  ring

theorem gate_alg_pad (g u du bb s1 s2 : ℝ) :
    ((((0 : EReal) * (0 : EReal) + (g : EReal) * ((u : EReal) - (du : EReal))) + (bb : EReal))
        + ((s1 : EReal) + (s2 : EReal)))
      = (((((((0 : EReal) + (s1 : EReal)) + (u : EReal) * (g : EReal)) + (s2 : EReal)) + (bb : EReal))
          - (0 : EReal)) - (g : EReal) * (du : EReal)) := by
  rw [← EReal.coe_zero]
  simp only [← EReal.coe_mul, ← EReal.coe_add, ← EReal.coe_sub]
  congr 1
  ring

/-! ## The two forms of a gate agree -/

theorem kerGate_eq_refGate (hx : R x) (hh : R h) (hwu : R wu) (hwv : R wv) (huu : R uu) (huv : R uv) (hb : R b)
    (hwd : R wd) (hud : R ud) (r : Fin 16384) (q : Fin 1024) :
    kerGate x h wu wv uu uv b wd ud r q = refGate x h wu wv uu uv b wd ud r q := by
  unfold kerGate refGate
  rw [sum_stack]
  obtain ⟨s1, hs1⟩ := xstate_real hx hwu hwv r q
  obtain ⟨s2, hs2⟩ := hstate_real hh huu huv r q
  obtain ⟨g, hg⟩ := hh (ix2 r q)
  obtain ⟨u, hu⟩ := hud (ix2 (0 : Fin 1) q)
  obtain ⟨du, hdu⟩ := diagU_real huu huv q
  obtain ⟨bb, hbb⟩ := hb (ix2 (0 : Fin 1) q)
  rw [hs1, hs2, hg, hu, hdu, hbb]
  by_cases hq : q.val < 768
  · obtain ⟨a, ha⟩ := hx (ix2 r (lo q hq))
    obtain ⟨w, hw⟩ := hwd (ix2 (0 : Fin 1) (lo q hq))
    obtain ⟨dw, hdw⟩ := diagW_real hwu hwv (lo q hq)
    simp only [dif_pos hq]
    rw [ha, hw, hdw]
    exact gate_alg a w dw g u du bb s1 s2
  · simp only [dif_neg hq]
    exact gate_alg_pad g u du bb s1 s2

/-- The reference's pre-activation is a real number. -/
theorem refGate_real (hx : R x) (hh : R h) (hwu : R wu) (hwv : R wv) (huu : R uu) (huv : R uv) (hb : R b)
    (hwd : R wd) (hud : R ud) (r : Fin 16384) (q : Fin 1024) :
    ∃ t : ℝ, refGate x h wu wv uu uv b wd ud r q = (t : EReal) := by
  unfold refGate
  refine real_sub (real_sub (LibWeightedMix.exists_real_add (LibWeightedMix.exists_real_add
    (LibWeightedMix.exists_real_add (LibWeightedMix.exists_real_add ?_ (xstate_real hx hwu hwv r q))
      (LibWeightedMix.exists_real_mul (hud _) (hh _))) (hstate_real hh huu huv r q)) (hb _)) ?_)
    (LibWeightedMix.exists_real_mul (hh _) (diagU_real huu huv q))
  · by_cases hq : q.val < 768
    · rw [dif_pos hq]; exact LibWeightedMix.exists_real_mul (hwd _) (hx _)
    · rw [dif_neg hq]; exact real_zero
  · by_cases hq : q.val < 768
    · rw [dif_pos hq]; exact LibWeightedMix.exists_real_mul (hx _) (diagW_real hwu hwv _)
    · rw [dif_neg hq]; exact real_zero

end Gate

/-! ## The sigmoid -/

/-- The literal one half is the real number 1/2. -/
theorem half_eq : half = ((1 / 2 : ℝ) : EReal) := by
  unfold half
  simp [Ideal.ofBits, Ideal.ieee, -EReal.coe_mul]; norm_num

/-- For a real z, 1/2·tanh(z/2) + 1/2 = 1/(1 + e^(−z)). -/
theorem real_sigmoid (t : ℝ) : (1 / 2 : ℝ) * Real.tanh ((1 / 2 : ℝ) * t) + 1 / 2 = (1 + Real.exp (-t))⁻¹ := by
  rw [Real.tanh_eq_sinh_div_cosh, Real.sinh_eq, Real.cosh_eq]
  have e1 : Real.exp (-t) = Real.exp (-(1 / 2 * t)) * Real.exp (-(1 / 2 * t)) := by
    rw [← Real.exp_add]; congr 1; ring
  have e2 : Real.exp (1 / 2 * t) = (Real.exp (-(1 / 2 * t)))⁻¹ := by
    rw [Real.exp_neg, inv_inv]
  have hn : 0 < Real.exp (-(1 / 2 * t)) := Real.exp_pos _
  rw [e1, e2]
  generalize Real.exp (-(1 / 2 * t)) = y at hn
  have h2 : 1 + y * y ≠ 0 := by positivity
  have h1 : y⁻¹ + y ≠ 0 := by positivity
  field_simp
  ring

theorem ksig_coe (t : ℝ) : ksig (t : EReal) = Ideal.logistic (t : EReal) := by
  unfold ksig
  rw [half_eq, Ideal.logistic_coe, ← EReal.coe_mul, Ideal.tanh_coe, ← EReal.coe_mul, ← EReal.coe_add, real_sigmoid]

/-- On a real argument the kernel's sigmoid is the logistic function. -/
theorem ksig_of_real {z : EReal} (hz : ∃ t : ℝ, z = (t : EReal)) : ksig z = Ideal.logistic z := by
  obtain ⟨t, rfl⟩ := hz
  exact ksig_coe t

/-! ## The cell -/

theorem cellC_sig {f i : EReal} (g cv : EReal) (hf : ∃ t : ℝ, f = (t : EReal)) (hi : ∃ t : ℝ, i = (t : EReal)) :
    cellC ksig f i g cv = cellC Ideal.logistic f i g cv := by
  unfold cellC
  rw [ksig_of_real hf, ksig_of_real hi]

theorem cellH_sig {f i o : EReal} (g cv : EReal) (hf : ∃ t : ℝ, f = (t : EReal)) (hi : ∃ t : ℝ, i = (t : EReal))
    (ho : ∃ t : ℝ, o = (t : EReal)) :
    cellH ksig f i g o cv = cellH Ideal.logistic f i g o cv := by
  unfold cellH
  rw [cellC_sig g cv hf hi, ksig_of_real ho]

section Cell

variable {x : A2 16384 768} {h : A2 16384 1024} {wd : A2 1 768} {ud : A2 1 1024}
  {wuf wui wug wuo : A2 768 64} {wvf wvi wvg wvo : A2 64 1024}
  {uuf uui uug uuo : A2 1024 64} {uvf uvi uvg uvo : A2 64 1024}
  {bf bi bg bo : A2 1 1024}

/-- The new cell value: the kernel's form (its gates, its sigmoid) equals the reference's. -/
theorem cellC_eq (hx : R x) (hh : R h) (hwd : R wd) (hud : R ud)
    (hwuf : R wuf) (hwvf : R wvf) (huuf : R uuf) (huvf : R uvf) (hbf : R bf)
    (hwui : R wui) (hwvi : R wvi) (huui : R uui) (huvi : R uvi) (hbi : R bi)
    (hwug : R wug) (hwvg : R wvg) (huug : R uug) (huvg : R uvg) (hbg : R bg)
    (r : Fin 16384) (q : Fin 1024) (cv : EReal) :
    cellC ksig (kerGate x h wuf wvf uuf uvf bf wd ud r q) (kerGate x h wui wvi uui uvi bi wd ud r q)
        (kerGate x h wug wvg uug uvg bg wd ud r q) cv
      = cellC Ideal.logistic (refGate x h wuf wvf uuf uvf bf wd ud r q) (refGate x h wui wvi uui uvi bi wd ud r q)
        (refGate x h wug wvg uug uvg bg wd ud r q) cv := by
  rw [kerGate_eq_refGate hx hh hwuf hwvf huuf huvf hbf hwd hud, kerGate_eq_refGate hx hh hwui hwvi huui huvi hbi hwd hud,
    kerGate_eq_refGate hx hh hwug hwvg huug huvg hbg hwd hud]
  exact cellC_sig _ _ (refGate_real hx hh hwuf hwvf huuf huvf hbf hwd hud r q)
    (refGate_real hx hh hwui hwvi huui huvi hbi hwd hud r q)

/-- The new hidden value: the kernel's form equals the reference's. -/
theorem cellH_eq (hx : R x) (hh : R h) (hwd : R wd) (hud : R ud)
    (hwuf : R wuf) (hwvf : R wvf) (huuf : R uuf) (huvf : R uvf) (hbf : R bf)
    (hwui : R wui) (hwvi : R wvi) (huui : R uui) (huvi : R uvi) (hbi : R bi)
    (hwug : R wug) (hwvg : R wvg) (huug : R uug) (huvg : R uvg) (hbg : R bg)
    (hwuo : R wuo) (hwvo : R wvo) (huuo : R uuo) (huvo : R uvo) (hbo : R bo)
    (r : Fin 16384) (q : Fin 1024) (cv : EReal) :
    cellH ksig (kerGate x h wuf wvf uuf uvf bf wd ud r q) (kerGate x h wui wvi uui uvi bi wd ud r q)
        (kerGate x h wug wvg uug uvg bg wd ud r q) (kerGate x h wuo wvo uuo uvo bo wd ud r q) cv
      = cellH Ideal.logistic (refGate x h wuf wvf uuf uvf bf wd ud r q) (refGate x h wui wvi uui uvi bi wd ud r q)
        (refGate x h wug wvg uug uvg bg wd ud r q) (refGate x h wuo wvo uuo uvo bo wd ud r q) cv := by
  rw [kerGate_eq_refGate hx hh hwuf hwvf huuf huvf hbf hwd hud, kerGate_eq_refGate hx hh hwui hwvi huui huvi hbi hwd hud,
    kerGate_eq_refGate hx hh hwug hwvg huug huvg hbg hwd hud, kerGate_eq_refGate hx hh hwuo hwvo huuo huvo hbo hwd hud]
  exact cellH_sig _ _ (refGate_real hx hh hwuf hwvf huuf huvf hbf hwd hud r q)
    (refGate_real hx hh hwui hwvi huui huvi hbi hwd hud r q) (refGate_real hx hh hwuo hwvo huuo huvo hbo hwd hud r q)

end Cell

end Cert.GateLaw

end
-- ==== Proof.RealInputs.lean ====
/-
  The inputs are real numbers.

  The precondition says that each of the 25 input arrays passes the test "every entry has absolute value below +∞",
  the 25 results joined by "and".  On the extended reals an entry with |v| < +∞ is neither +∞ nor −∞ (nor the junk value,
  which is −∞ here), hence a real number.  So under the precondition every entry of every input array is a real number.
-/
import proofs.«121209_j33517924778468_2_alg».proof.Defs
import proofs.«121209_j33517924778468_2_alg».proof.Proof.Gen.Pre_finite_inputs
import proofs.«121209_j33517924778468_2_alg».proof.Proof.LibRealArrays

noncomputable section

namespace Cert.RealInputs

open Idealize.ShloMosaic Idealize.SL.Sem Idealize.ShloMosaic.ValueIdx Cert.Pre_finite_inputs LibRealArrays

/-- The printed predicate, read on 25 arrays of extended reals: if it is all ones, every array has real entries. -/
theorem fn_real [Cert.Pre_finite_inputs.Facts]
    (a0 : FVec Ideal S16384x768 .f32)
    (a1 : FVec Ideal S16384x1024 .f32)
    (a2 : FVec Ideal S16384x1024 .f32)
    (a3 : FVec Ideal S768x64 .f32)
    (a4 : FVec Ideal S768x64 .f32)
    (a5 : FVec Ideal S768x64 .f32)
    (a6 : FVec Ideal S768x64 .f32)
    (a7 : FVec Ideal S1024x64 .f32)
    (a8 : FVec Ideal S1024x64 .f32)
    (a9 : FVec Ideal S1024x64 .f32)
    (a10 : FVec Ideal S1024x64 .f32)
    (a11 : FVec Ideal S64x1024 .f32)
    (a12 : FVec Ideal S64x1024 .f32)
    (a13 : FVec Ideal S64x1024 .f32)
    (a14 : FVec Ideal S64x1024 .f32)
    (a15 : FVec Ideal S64x1024 .f32)
    (a16 : FVec Ideal S64x1024 .f32)
    (a17 : FVec Ideal S64x1024 .f32)
    (a18 : FVec Ideal S64x1024 .f32)
    (a19 : FVec Ideal S1x1024 .f32)
    (a20 : FVec Ideal S1x1024 .f32)
    (a21 : FVec Ideal S1x1024 .f32)
    (a22 : FVec Ideal S1x1024 .f32)
    (a23 : FVec Ideal S1x768 .f32)
    (a24 : FVec Ideal S1x1024 .f32)
    (h : Cert.Pre_finite_inputs.fn (F := Ideal) a0 a1 a2 a3 a4 a5 a6 a7 a8 a9 a10 a11 a12 a13 a14 a15 a16 a17 a18 a19 a20 a21 a22 a23 a24 = fun _ => 1#1) :
    IsReal a0 ∧ IsReal a1 ∧ IsReal a2 ∧ IsReal a3 ∧ IsReal a4 ∧ IsReal a5 ∧ IsReal a6 ∧ IsReal a7 ∧ IsReal a8 ∧ IsReal a9 ∧ IsReal a10 ∧ IsReal a11 ∧ IsReal a12 ∧ IsReal a13 ∧ IsReal a14 ∧ IsReal a15 ∧ IsReal a16 ∧ IsReal a17 ∧ IsReal a18 ∧ IsReal a19 ∧ IsReal a20 ∧ IsReal a21 ∧ IsReal a22 ∧ IsReal a23 ∧ IsReal a24 := by
  have h0 := congrFun h ValueIdx.ix0
  simp only [Cert.Pre_finite_inputs.fn, fn_part1, fn_part2, fn_part3, fn_part4, fn_part5, fn_part6, fn_part7,
    Idealize.ShloMosaic.andi, IntOp.andi_eq_one] at h0
  obtain ⟨⟨⟨⟨⟨⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩, h19⟩, h20⟩, h21⟩, h22⟩, h23⟩, h24⟩ := h0
  exact ⟨isReal_of_all a0 _ _ _ h0,
    isReal_of_all a1 _ _ _ h1,
    isReal_of_all a2 _ _ _ h2,
    isReal_of_all a3 _ _ _ h3,
    isReal_of_all a4 _ _ _ h4,
    isReal_of_all a5 _ _ _ h5,
    isReal_of_all a6 _ _ _ h6,
    isReal_of_all a7 _ _ _ h7,
    isReal_of_all a8 _ _ _ h8,
    isReal_of_all a9 _ _ _ h9,
    isReal_of_all a10 _ _ _ h10,
    isReal_of_all a11 _ _ _ h11,
    isReal_of_all a12 _ _ _ h12,
    isReal_of_all a13 _ _ _ h13,
    isReal_of_all a14 _ _ _ h14,
    isReal_of_all a15 _ _ _ h15,
    isReal_of_all a16 _ _ _ h16,
    isReal_of_all a17 _ _ _ h17,
    isReal_of_all a18 _ _ _ h18,
    isReal_of_all a19 _ _ _ h19,
    isReal_of_all a20 _ _ _ h20,
    isReal_of_all a21 _ _ _ h21,
    isReal_of_all a22 _ _ _ h22,
    isReal_of_all a23 _ _ _ h23,
    isReal_of_all a24 _ _ _ h24⟩

/-- Under the precondition, on every device, each of the 25 argument buffers has only real entries. -/
theorem real_args [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ t : ℝ, m ((c.tc : Thread Cert.KernelIdeal.nD Cert.KernelIdeal.τ).loc Cert.KernelIdeal.main_arg0) i = (t : EReal))
      ∧ (∀ i, ∃ t : ℝ, m ((c.tc : Thread Cert.KernelIdeal.nD Cert.KernelIdeal.τ).loc Cert.KernelIdeal.main_arg1) i = (t : EReal))
      ∧ (∀ i, ∃ t : ℝ, m ((c.tc : Thread Cert.KernelIdeal.nD Cert.KernelIdeal.τ).loc Cert.KernelIdeal.main_arg2) i = (t : EReal))
      ∧ (∀ i, ∃ t : ℝ, m ((c.tc : Thread Cert.KernelIdeal.nD Cert.KernelIdeal.τ).loc Cert.KernelIdeal.main_arg3) i = (t : EReal))
      ∧ (∀ i, ∃ t : ℝ, m ((c.tc : Thread Cert.KernelIdeal.nD Cert.KernelIdeal.τ).loc Cert.KernelIdeal.main_arg4) i = (t : EReal))
      ∧ (∀ i, ∃ t : ℝ, m ((c.tc : Thread Cert.KernelIdeal.nD Cert.KernelIdeal.τ).loc Cert.KernelIdeal.main_arg5) i = (t : EReal))
      ∧ (∀ i, ∃ t : ℝ, m ((c.tc : Thread Cert.KernelIdeal.nD Cert.KernelIdeal.τ).loc Cert.KernelIdeal.main_arg6) i = (t : EReal))
      ∧ (∀ i, ∃ t : ℝ, m ((c.tc : Thread Cert.KernelIdeal.nD Cert.KernelIdeal.τ).loc Cert.KernelIdeal.main_arg7) i = (t : EReal))
      ∧ (∀ i, ∃ t : ℝ, m ((c.tc : Thread Cert.KernelIdeal.nD Cert.KernelIdeal.τ).loc Cert.KernelIdeal.main_arg8) i = (t : EReal))
      ∧ (∀ i, ∃ t : ℝ, m ((c.tc : Thread Cert.KernelIdeal.nD Cert.KernelIdeal.τ).loc Cert.KernelIdeal.main_arg9) i = (t : EReal))
      ∧ (∀ i, ∃ t : ℝ, m ((c.tc : Thread Cert.KernelIdeal.nD Cert.KernelIdeal.τ).loc Cert.KernelIdeal.main_arg10) i = (t : EReal))
      ∧ (∀ i, ∃ t : ℝ, m ((c.tc : Thread Cert.KernelIdeal.nD Cert.KernelIdeal.τ).loc Cert.KernelIdeal.main_arg11) i = (t : EReal))
      ∧ (∀ i, ∃ t : ℝ, m ((c.tc : Thread Cert.KernelIdeal.nD Cert.KernelIdeal.τ).loc Cert.KernelIdeal.main_arg12) i = (t : EReal))
      ∧ (∀ i, ∃ t : ℝ, m ((c.tc : Thread Cert.KernelIdeal.nD Cert.KernelIdeal.τ).loc Cert.KernelIdeal.main_arg13) i = (t : EReal))
      ∧ (∀ i, ∃ t : ℝ, m ((c.tc : Thread Cert.KernelIdeal.nD Cert.KernelIdeal.τ).loc Cert.KernelIdeal.main_arg14) i = (t : EReal))
      ∧ (∀ i, ∃ t : ℝ, m ((c.tc : Thread Cert.KernelIdeal.nD Cert.KernelIdeal.τ).loc Cert.KernelIdeal.main_arg15) i = (t : EReal))
      ∧ (∀ i, ∃ t : ℝ, m ((c.tc : Thread Cert.KernelIdeal.nD Cert.KernelIdeal.τ).loc Cert.KernelIdeal.main_arg16) i = (t : EReal))
      ∧ (∀ i, ∃ t : ℝ, m ((c.tc : Thread Cert.KernelIdeal.nD Cert.KernelIdeal.τ).loc Cert.KernelIdeal.main_arg17) i = (t : EReal))
      ∧ (∀ i, ∃ t : ℝ, m ((c.tc : Thread Cert.KernelIdeal.nD Cert.KernelIdeal.τ).loc Cert.KernelIdeal.main_arg18) i = (t : EReal))
      ∧ (∀ i, ∃ t : ℝ, m ((c.tc : Thread Cert.KernelIdeal.nD Cert.KernelIdeal.τ).loc Cert.KernelIdeal.main_arg19) i = (t : EReal))
      ∧ (∀ i, ∃ t : ℝ, m ((c.tc : Thread Cert.KernelIdeal.nD Cert.KernelIdeal.τ).loc Cert.KernelIdeal.main_arg20) i = (t : EReal))
      ∧ (∀ i, ∃ t : ℝ, m ((c.tc : Thread Cert.KernelIdeal.nD Cert.KernelIdeal.τ).loc Cert.KernelIdeal.main_arg21) i = (t : EReal))
      ∧ (∀ i, ∃ t : ℝ, m ((c.tc : Thread Cert.KernelIdeal.nD Cert.KernelIdeal.τ).loc Cert.KernelIdeal.main_arg22) i = (t : EReal))
      ∧ (∀ i, ∃ t : ℝ, m ((c.tc : Thread Cert.KernelIdeal.nD Cert.KernelIdeal.τ).loc Cert.KernelIdeal.main_arg23) i = (t : EReal))
      ∧ (∀ i, ∃ t : ℝ, m ((c.tc : Thread Cert.KernelIdeal.nD Cert.KernelIdeal.τ).loc Cert.KernelIdeal.main_arg24) i = (t : EReal)) :=
  fn_real _ _ _ _ _ _ _ _ _ _ _ _ _ _ _ _ _ _ _ _ _ _ _ _ _ (hpre c)

theorem real_arg0 [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ t : ℝ, m ((c.tc : Thread Cert.KernelIdeal.nD Cert.KernelIdeal.τ).loc Cert.KernelIdeal.main_arg0) i = (t : EReal) :=
  (real_args m hpre c).1

theorem real_arg1 [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ t : ℝ, m ((c.tc : Thread Cert.KernelIdeal.nD Cert.KernelIdeal.τ).loc Cert.KernelIdeal.main_arg1) i = (t : EReal) :=
  (real_args m hpre c).2.1

theorem real_arg2 [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ t : ℝ, m ((c.tc : Thread Cert.KernelIdeal.nD Cert.KernelIdeal.τ).loc Cert.KernelIdeal.main_arg2) i = (t : EReal) :=
  (real_args m hpre c).2.2.1

theorem real_arg3 [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ t : ℝ, m ((c.tc : Thread Cert.KernelIdeal.nD Cert.KernelIdeal.τ).loc Cert.KernelIdeal.main_arg3) i = (t : EReal) :=
  (real_args m hpre c).2.2.2.1

theorem real_arg4 [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ t : ℝ, m ((c.tc : Thread Cert.KernelIdeal.nD Cert.KernelIdeal.τ).loc Cert.KernelIdeal.main_arg4) i = (t : EReal) :=
  (real_args m hpre c).2.2.2.2.1

theorem real_arg5 [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ t : ℝ, m ((c.tc : Thread Cert.KernelIdeal.nD Cert.KernelIdeal.τ).loc Cert.KernelIdeal.main_arg5) i = (t : EReal) :=
  (real_args m hpre c).2.2.2.2.2.1

theorem real_arg6 [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ t : ℝ, m ((c.tc : Thread Cert.KernelIdeal.nD Cert.KernelIdeal.τ).loc Cert.KernelIdeal.main_arg6) i = (t : EReal) :=
  (real_args m hpre c).2.2.2.2.2.2.1

theorem real_arg7 [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ t : ℝ, m ((c.tc : Thread Cert.KernelIdeal.nD Cert.KernelIdeal.τ).loc Cert.KernelIdeal.main_arg7) i = (t : EReal) :=
  (real_args m hpre c).2.2.2.2.2.2.2.1

theorem real_arg8 [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ t : ℝ, m ((c.tc : Thread Cert.KernelIdeal.nD Cert.KernelIdeal.τ).loc Cert.KernelIdeal.main_arg8) i = (t : EReal) :=
  (real_args m hpre c).2.2.2.2.2.2.2.2.1

theorem real_arg9 [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ t : ℝ, m ((c.tc : Thread Cert.KernelIdeal.nD Cert.KernelIdeal.τ).loc Cert.KernelIdeal.main_arg9) i = (t : EReal) :=
  (real_args m hpre c).2.2.2.2.2.2.2.2.2.1

theorem real_arg10 [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ t : ℝ, m ((c.tc : Thread Cert.KernelIdeal.nD Cert.KernelIdeal.τ).loc Cert.KernelIdeal.main_arg10) i = (t : EReal) :=
  (real_args m hpre c).2.2.2.2.2.2.2.2.2.2.1

theorem real_arg11 [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ t : ℝ, m ((c.tc : Thread Cert.KernelIdeal.nD Cert.KernelIdeal.τ).loc Cert.KernelIdeal.main_arg11) i = (t : EReal) :=
  (real_args m hpre c).2.2.2.2.2.2.2.2.2.2.2.1

theorem real_arg12 [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ t : ℝ, m ((c.tc : Thread Cert.KernelIdeal.nD Cert.KernelIdeal.τ).loc Cert.KernelIdeal.main_arg12) i = (t : EReal) :=
  (real_args m hpre c).2.2.2.2.2.2.2.2.2.2.2.2.1

theorem real_arg13 [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ t : ℝ, m ((c.tc : Thread Cert.KernelIdeal.nD Cert.KernelIdeal.τ).loc Cert.KernelIdeal.main_arg13) i = (t : EReal) :=
  (real_args m hpre c).2.2.2.2.2.2.2.2.2.2.2.2.2.1

theorem real_arg14 [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ t : ℝ, m ((c.tc : Thread Cert.KernelIdeal.nD Cert.KernelIdeal.τ).loc Cert.KernelIdeal.main_arg14) i = (t : EReal) :=
  (real_args m hpre c).2.2.2.2.2.2.2.2.2.2.2.2.2.2.1

theorem real_arg15 [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ t : ℝ, m ((c.tc : Thread Cert.KernelIdeal.nD Cert.KernelIdeal.τ).loc Cert.KernelIdeal.main_arg15) i = (t : EReal) :=
  (real_args m hpre c).2.2.2.2.2.2.2.2.2.2.2.2.2.2.2.1

theorem real_arg16 [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ t : ℝ, m ((c.tc : Thread Cert.KernelIdeal.nD Cert.KernelIdeal.τ).loc Cert.KernelIdeal.main_arg16) i = (t : EReal) :=
  (real_args m hpre c).2.2.2.2.2.2.2.2.2.2.2.2.2.2.2.2.1

theorem real_arg17 [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ t : ℝ, m ((c.tc : Thread Cert.KernelIdeal.nD Cert.KernelIdeal.τ).loc Cert.KernelIdeal.main_arg17) i = (t : EReal) :=
  (real_args m hpre c).2.2.2.2.2.2.2.2.2.2.2.2.2.2.2.2.2.1

theorem real_arg18 [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ t : ℝ, m ((c.tc : Thread Cert.KernelIdeal.nD Cert.KernelIdeal.τ).loc Cert.KernelIdeal.main_arg18) i = (t : EReal) :=
  (real_args m hpre c).2.2.2.2.2.2.2.2.2.2.2.2.2.2.2.2.2.2.1

theorem real_arg19 [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ t : ℝ, m ((c.tc : Thread Cert.KernelIdeal.nD Cert.KernelIdeal.τ).loc Cert.KernelIdeal.main_arg19) i = (t : EReal) :=
  (real_args m hpre c).2.2.2.2.2.2.2.2.2.2.2.2.2.2.2.2.2.2.2.1

theorem real_arg20 [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ t : ℝ, m ((c.tc : Thread Cert.KernelIdeal.nD Cert.KernelIdeal.τ).loc Cert.KernelIdeal.main_arg20) i = (t : EReal) :=
  (real_args m hpre c).2.2.2.2.2.2.2.2.2.2.2.2.2.2.2.2.2.2.2.2.1

theorem real_arg21 [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ t : ℝ, m ((c.tc : Thread Cert.KernelIdeal.nD Cert.KernelIdeal.τ).loc Cert.KernelIdeal.main_arg21) i = (t : EReal) :=
  (real_args m hpre c).2.2.2.2.2.2.2.2.2.2.2.2.2.2.2.2.2.2.2.2.2.1

theorem real_arg22 [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ t : ℝ, m ((c.tc : Thread Cert.KernelIdeal.nD Cert.KernelIdeal.τ).loc Cert.KernelIdeal.main_arg22) i = (t : EReal) :=
  (real_args m hpre c).2.2.2.2.2.2.2.2.2.2.2.2.2.2.2.2.2.2.2.2.2.2.1

theorem real_arg23 [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ t : ℝ, m ((c.tc : Thread Cert.KernelIdeal.nD Cert.KernelIdeal.τ).loc Cert.KernelIdeal.main_arg23) i = (t : EReal) :=
  (real_args m hpre c).2.2.2.2.2.2.2.2.2.2.2.2.2.2.2.2.2.2.2.2.2.2.2.1

theorem real_arg24 [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ t : ℝ, m ((c.tc : Thread Cert.KernelIdeal.nD Cert.KernelIdeal.τ).loc Cert.KernelIdeal.main_arg24) i = (t : EReal) :=
  (real_args m hpre c).2.2.2.2.2.2.2.2.2.2.2.2.2.2.2.2.2.2.2.2.2.2.2.2

end Cert.RealInputs

end
-- ==== Proof.lean ====
/-
  The low-rank LSTM cell kernel against its jnp reference.

  The three programs run to the end and leave their 25 argument arrays unchanged: for the two kernel programs by the
  pipelined region's run (each argument is either staged by an input window, which is never written back, or passed by
  the region untouched, and no host line before the region writes an argument); for the reference by its run read back.
  The idealization rewrote nothing, so there is nothing to preserve.  At the exact instance both programs end with the same
  two result arrays: at row r and column q the kernel holds the cell function, with the sigmoid 1/2·tanh(z/2) + 1/2, of the
  four gates' pre-activations in the kernel's arrangement (one fused diagonal row per stream, the two low-rank products
  stacked into one), the reference the same cell function with the logistic sigmoid of the pre-activations in its own
  arrangement; every input being finite, all these are real numbers, the two arrangements agree by distributivity and by
  splitting the stacked sum, and the two sigmoids are one function of a real argument.
-/
import proofs.«121209_j33517924778468_2_alg».proof.Defs
import proofs.«121209_j33517924778468_2_alg».proof.Proof.Gen.Kernel
import proofs.«121209_j33517924778468_2_alg».proof.Proof.Gen.KernelIdeal
import proofs.«121209_j33517924778468_2_alg».proof.Proof.Gen.ReferenceIdeal
import proofs.«121209_j33517924778468_2_alg».proof.Proof.Gen.Pre_finite_inputs
import proofs.«121209_j33517924778468_2_alg».proof.Proof.Gen.ReferenceIdeal.Run
import proofs.«121209_j33517924778468_2_alg».proof.Proof.KFrameRun
import proofs.«121209_j33517924778468_2_alg».proof.Proof.KIFrameRun
import proofs.«121209_j33517924778468_2_alg».proof.Proof.KIValue
import proofs.«121209_j33517924778468_2_alg».proof.Proof.RefValue
import proofs.«121209_j33517924778468_2_alg».proof.Proof.GateLaw
import proofs.«121209_j33517924778468_2_alg».proof.Proof.RealInputs
import Idealize.ShloMosaic.Lib.ValueIdx
import Idealize.ShloMosaic.Adequacy
import Idealize.ShloMosaic.Init

noncomputable section

namespace Cert.Proof

open Idealize.ShloMosaic Idealize.ShloMosaic.ValueIdx Idealize.SL.Sem

/-- The kernel as printed runs and leaves its arguments unchanged. -/
theorem frame_k : Cert.frame_Kernel := fun m ρ _ => Cert.Kernel.Hand.frame m ρ

/-- The idealized kernel runs and leaves its arguments unchanged. -/
theorem frame_ki : Cert.frame_KernelIdeal := fun m ρ _ => Cert.KernelIdeal.Hand.frame m ρ

/-- The reference runs and leaves its arguments unchanged: its run read back, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the same two result arrays. -/
theorem algebraic : Cert.algebraic_KernelIdeal_ReferenceIdeal := by
  intro m ρ m' ρ' hpre hagree
  refine ⟨fun c => Cert.KernelIdeal.Hand.KH m c, fun c => Cert.KernelIdeal.Hand.KC m c, Cert.KernelIdeal.Hand.run_values m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10, e11, e12, e13, e14, e15, e16, e17, e18, e19, e20, e21, e22, e23, e24⟩ := hagree c
    refine (Cert.RefValue.res_out0_eq m' c).trans ((Cert.RefValue.H_congr e0 e1 e2 e3 e4 e5 e6 e7 e8 e9 e10 e11 e12 e13 e14 e15 e16 e17 e18 e19 e20 e21 e22 e23 e24).trans ?_)
    funext j
    obtain ⟨r, q, rfl⟩ : ∃ (r : Fin 16384) (q : Fin 1024), j = ix2 r q := ⟨j 0, j 1, eq_ix2 j⟩
    refine (Cert.RefValue.H_at _ _ _ _ _ _ _ _ _ _ _ _ _ _ _ _ _ _ _ _ _ _ _ _ _ r q).trans ?_
    exact (Cert.GateLaw.cellH_eq (Cert.RealInputs.real_arg0 m hpre c) (Cert.RealInputs.real_arg1 m hpre c) (Cert.RealInputs.real_arg23 m hpre c) (Cert.RealInputs.real_arg24 m hpre c) (Cert.RealInputs.real_arg3 m hpre c) (Cert.RealInputs.real_arg11 m hpre c) (Cert.RealInputs.real_arg7 m hpre c) (Cert.RealInputs.real_arg15 m hpre c) (Cert.RealInputs.real_arg19 m hpre c) (Cert.RealInputs.real_arg4 m hpre c) (Cert.RealInputs.real_arg12 m hpre c) (Cert.RealInputs.real_arg8 m hpre c) (Cert.RealInputs.real_arg16 m hpre c) (Cert.RealInputs.real_arg20 m hpre c) (Cert.RealInputs.real_arg5 m hpre c) (Cert.RealInputs.real_arg13 m hpre c) (Cert.RealInputs.real_arg9 m hpre c) (Cert.RealInputs.real_arg17 m hpre c) (Cert.RealInputs.real_arg21 m hpre c) (Cert.RealInputs.real_arg6 m hpre c) (Cert.RealInputs.real_arg14 m hpre c) (Cert.RealInputs.real_arg10 m hpre c) (Cert.RealInputs.real_arg18 m hpre c) (Cert.RealInputs.real_arg22 m hpre c) r q _).symm
  · obtain ⟨e0, e1, e2, e3, e4, e5, e6, e7, e8, e9, e10, e11, e12, e13, e14, e15, e16, e17, e18, e19, e20, e21, e22, e23, e24⟩ := hagree c
    refine (Cert.RefValue.res_out1_eq m' c).trans ((Cert.RefValue.C_congr e0 e1 e2 e3 e4 e5 e7 e8 e9 e11 e12 e13 e15 e16 e17 e19 e20 e21 e23 e24).trans ?_)
    funext j
    obtain ⟨r, q, rfl⟩ : ∃ (r : Fin 16384) (q : Fin 1024), j = ix2 r q := ⟨j 0, j 1, eq_ix2 j⟩
    refine (Cert.RefValue.C_at _ _ _ _ _ _ _ _ _ _ _ _ _ _ _ _ _ _ _ _ r q).trans ?_
    exact (Cert.GateLaw.cellC_eq (Cert.RealInputs.real_arg0 m hpre c) (Cert.RealInputs.real_arg1 m hpre c) (Cert.RealInputs.real_arg23 m hpre c) (Cert.RealInputs.real_arg24 m hpre c) (Cert.RealInputs.real_arg3 m hpre c) (Cert.RealInputs.real_arg11 m hpre c) (Cert.RealInputs.real_arg7 m hpre c) (Cert.RealInputs.real_arg15 m hpre c) (Cert.RealInputs.real_arg19 m hpre c) (Cert.RealInputs.real_arg4 m hpre c) (Cert.RealInputs.real_arg12 m hpre c) (Cert.RealInputs.real_arg8 m hpre c) (Cert.RealInputs.real_arg16 m hpre c) (Cert.RealInputs.real_arg20 m hpre c) (Cert.RealInputs.real_arg5 m hpre c) (Cert.RealInputs.real_arg13 m hpre c) (Cert.RealInputs.real_arg9 m hpre c) (Cert.RealInputs.real_arg17 m hpre c) (Cert.RealInputs.real_arg21 m hpre c) r q _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
